-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S8192x1 : Shape := ⟨2, ![8192, 1]⟩
abbrev S1024x256 : Shape := ⟨2, ![1024, 256]⟩
abbrev S2048x256 : Shape := ⟨2, ![2048, 256]⟩
abbrev S1024x1 : Shape := ⟨2, ![1024, 1]⟩
abbrev S1024 : Shape := ⟨1, ![1024]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S8192 : Shape := ⟨1, ![8192]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x1, .f32⟩
  | .hbm, ⟨4, _⟩ => ⟨S8192, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 : BitVec 32 :=
  let c0_i32_1 : BitVec 32 := 0#32
  let c512_i32 : BitVec 32 := 512#32
  let v3 : BitVec 32 := Scalar.muli c0_i32_1 c512_i32
  v3
def k0_off1 (c0_i32_1 : BitVec 32) : Fin 2 → Nat :=
  let c512_i32 : BitVec 32 := 512#32
  let v3 : BitVec 32 := Scalar.muli c0_i32_1 c512_i32
  let v4 : BitVec 32 := v3
  let v5 : Index := Scalar.indexCast v4
  let c0 : Index := 0#32
  ![v5.toNat, 0]
def k0_mult2 : BitVec 32 :=
  let c1_i32 : BitVec 32 := 1#32
  let c512_i32_13 : BitVec 32 := 512#32
  let v31 : BitVec 32 := Scalar.muli c1_i32 c512_i32_13
  v31
def k0_mult3 : BitVec 32 :=
  let c2_i32 : BitVec 32 := 2#32
  let c512_i32_27 : BitVec 32 := 512#32
  let v59 : BitVec 32 := Scalar.muli c2_i32 c512_i32_27
  v59
def k0_mult4 : BitVec 32 :=
  let c3_i32 : BitVec 32 := 3#32
  let c512_i32_41 : BitVec 32 := 512#32
  let v87 : BitVec 32 := Scalar.muli c3_i32 c512_i32_41
  v87
def k0_cond2 (i : grid0.Coords) : BitVec 1 :=
  let arg1 : BitVec 32 := BitVec.ofNat 32 (i 1).val
  let c3_i32_55 : BitVec 32 := 3#32
  let v115 : BitVec 1 := Scalar.cmpi .eq arg1 c3_i32_55
  let v116 : BitVec 32 := Scalar.extui v115
  let c0_i32_56 : BitVec 32 := 0#32
  let v117 : BitVec 1 := Scalar.cmpi .ne v116 c0_i32_56
  v117

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  reduces_S1024x512_S1024 : S1024x512.Reduces [1] S1024
  shapeCasts_S8192x1_S8192 : S8192x1.ShapeCasts S8192
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  reducesTo_S8192_S_d0 : S8192.ReducesTo [0] S_
  reducesTo_S4096_S_d0 : S4096.ReducesTo [0] S_
  dot_S1024x256_S512x256_S1024x512_1_1_0_0_n_n_wf : DotDims.WF S1024x256 S512x256 S1024x512 [1] [1] [0] [0] [] []
  hrank0 : 0 < grid0.rank
  k0_mult1_dvd : 512 ∣ k0_mult1.toNat
  k0_off1_inb : ∀ (r : Fin 4), ∀ a, (k0_off1 (BitVec.ofNat 32 r.val)) a + S512x256.size a ≤ S2048x256.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S8192, .i32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S_, .i32⟩
  | .hbm, ⟨54, _⟩ => ⟨S8192x1, .i32⟩
  | .hbm, ⟨55, _⟩ => ⟨S8192x1, .i32⟩
  | .hbm, ⟨56, _⟩ => ⟨S8192x1, .i32⟩
  | .hbm, ⟨57, _⟩ => ⟨S8192x1x1, .i32⟩
  | .hbm, ⟨58, _⟩ => ⟨S1, .i32⟩
  | .hbm, ⟨59, _⟩ => ⟨S_, .i32⟩
  | .hbm, ⟨60, _⟩ => ⟨S8192x1x1, .i32⟩
  | .hbm, ⟨61, _⟩ => ⟨S8192x1x1, .i1⟩
  | .hbm, ⟨62, _⟩ => ⟨S1x1x1, .i32⟩
  | .hbm, ⟨63, _⟩ => ⟨S8192x1x1, .i32⟩
  | .hbm, ⟨64, _⟩ => ⟨S8192x1x1, .i1⟩
  | .hbm, ⟨65, _⟩ => ⟨S8192x1x1, .i1⟩
  | .hbm, ⟨66, _⟩ => ⟨S_, .i1⟩
  | .hbm, ⟨67, _⟩ => ⟨S8192x1, .i1⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v20 : Ref sig .tc := ⟨.hbm, 48, rfl⟩
abbrev main_v21 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v22 : Ref sig .tc := ⟨.hbm, 71, rfl⟩
abbrev main_cst_2 : Ref sig .tc := ⟨.hbm, 72, rfl⟩
abbrev main_v23 : Ref sig .tc := ⟨.hbm, 73, rfl⟩
abbrev main_cst_3 : Ref sig .tc := ⟨.hbm, 74, rfl⟩
abbrev main_v24 : Ref sig .tc := ⟨.hbm, 75, rfl⟩
abbrev main_v25 : Ref sig .tc := ⟨.hbm, 76, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.K.Runs.lean ====
/-
  The one pallas_call of the program, seen from its launch: the buffer contents the region is entered with (after
  the one host line before it, the stacking of the two arguments), the host lines after it, each window's block
  at a grid point, the two conditions of the body (first reduction step of a row tile: the accumulators are reset;
  last step: the result column is written) decided over the 8 x 4 grid, and where the result window is idle.
-/
import proofs.«100509_j81003083202828_2_alg».proof.Proof.Gen.Kernel.Launch
import proofs.«100509_j81003083202828_2_alg».proof.Proof.Gen.Kernel.Skeleton
import proofs.«100509_j81003083202828_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the stacking of the two arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the stacking, the region, then the lines after it: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window holds its block at every point, fetched there or not (between fetches its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-tile window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first reduction step of the row tile" (the second grid coordinate is 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last reduction step of the row tile" (the second grid coordinate is 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The staging and scratch memrefs -/

abbrev VO0_2 : View sig .tc .vmem S1024x1 .f32 := (Memref.whole cc0_stg2_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running row sums (scratch 0) and the normalised row tile (scratch 1), carried between points. -/
abbrev scM0_0 : Memref sig .tc .vmem S1024x1 .f32 := Memref.whole cc0_scratch0
abbrev scM0_1 : Memref sig .tc .vmem S1024x256 .bf16 := Memref.whole cc0_scratch1
abbrev VS0_0 : View sig .tc .vmem S1024x1 .f32 := scM0_0.view
abbrev VS0_1 : View sig .tc .vmem S1024x256 .bf16 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.K.RunA.lean ====
/-
  The body at a FIRST reduction step of a row tile: both accumulators (the running row sums and the normalised row
  tile) are entered at any contents and left with the pieces the stores wrote; the result window is not touched.
-/
import proofs.«100509_j81003083202828_2_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first step, not last): the pieces the body leaves in scratch 0 and scratch 1, with the proof that it runs. -/
noncomputable def kernelRun0_A (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i)
    (x0 : Vec F S1024x256 .f32) (x1 : Vec F S2048x256 .f32) :
    Σ' (LS0 : List (View.Piece (Elt F) S1024x1 .f32)), { LS1 : List (View.Piece (Elt F) S1024x256 .bf16) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.K.RunB.lean ====
/-
  The body at a MIDDLE reduction step of a row tile: the running row sums are entered at what the step before left
  and leave with the pieces the four chunk updates wrote; the normalised row tile is only read; the result window is
  not touched.
-/
import proofs.«100509_j81003083202828_2_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither first nor last step). -/
noncomputable def kernelRun0_B (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i)
    (x0 : Vec F S1024x256 .f32) (x1 : Vec F S2048x256 .f32) (xs0 : Vec F S1024x1 .f32) (xs1 : Vec F S1024x256 .bf16) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__kernel i arg2 harg2 arg3 harg3 arg4 harg4 arg5 harg5 arg6 harg6) K } := by
  refine ⟨?_, fun xi2 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; isplitr; · ipureintro; exact harg6.read_unread _
    iexact HS1

end Cert.Kernel.Fr

end
-- ==== Proof.K.RunC.lean ====
/-
  The body at the LAST reduction step of a row tile: as a middle step, and then the result window, entered at any
  contents, is written whole from the final row sums.
-/
import proofs.«100509_j81003083202828_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (last step, not first). -/
noncomputable def kernelRun0_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i)
    (x0 : Vec F S1024x256 .f32) (x1 : Vec F S2048x256 .f32) (xs0 : Vec F S1024x1 .f32) (xs1 : Vec F S1024x256 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; isplitr; · ipureintro; exact harg6.read_unread _
    iexact HS1

end Cert.Kernel.Fr

end
-- ==== Proof.LibSharedFrame.lean ====
/-
  The frame run of a pipeline kernel whose windows may SHARE ARRAYS (one array handed to the kernel through
  several input windows), for a body that carries a scratch buffer between grid points.

  The library's frame run with a tracking invariant takes the layout bundled with the windows' arrays pairwise
  distinct, and uses that distinctness in one place only: to turn the buffers behind the arrays, each whole at the
  full share, into the proof data's arrays at entry. Here that entailment is an argument (`hsplit`), and the layout
  is given by its fields with the distinctness left out.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

/-- A buffer held at the full share is the same buffer held twice, at the left and at the right half of the full
    share, at the same contents (on any set of elements `I`). -/
theorem pointsTo_fullShare_halves {Ix : Type} [DecidableEq Ix] {Name : Type} [DecidableEq Name] {U : Type} [URA U] {Lvl : Type}
    (ℓ : Loc nD τ sig) (I : Finset (Idx ℓ)) (f : Buf Val ℓ) :
    (ℓ ↦[I]{fullShare} f : sProp (MT nD τ sig Ix Val Name U Lvl))
      ⊣⊢ iprop((ℓ ↦[I]{fullShare.left} f) ∗ ℓ ↦[I]{fullShare.right} f) :=
  pointsTo_share (PosShare.mem_left_op_right fullShare)

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀

include hinj hw hne harr hstage in
/-- THE FRAME RUN with a TRACKING invariant for a kernel whose windows may SHARE ARRAYS. As the library's
    `θ_run_frame_track`: one region on a static grid, no semaphore or transfer of the kernel's own, the proof data's
    `Φ` any invariant stated point by point (what the body carries in its scratch), entered from the class invariant
    `ΦA` before point 0 (`hin`) and returned to it after the last point (`hout`). In place of the bundled layout it
    takes the layout's fields without the arrays' distinctness (`hinj`: the staging cells pairwise distinct; `hw`:
    arrays unscoped, staging buffers and semaphores scoped and distinct; `hne`: no block empty; `harr`, `hstage`:
    every array and staging memref a whole buffer), and in place of "every window holds its array at the full share,
    at the entry contents" the entailment `hsplit`: the DISTINCT buffers behind the arrays, each whole at the full share
    at the region-entry contents `V c`, yield the proof data's arrays at entry — an array read through several input
    windows dealt among them by shares the data's `q` names. Concludes `FramePost`: every window's array holds the
    data's `arrAt w N` (windows on one array read the same final contents), every bypassing buffer its entry contents. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end SharedFrame

end Pipeline

end Idealize.ShloMosaic

end
-- ==== Proof.LibSharedFrameAround.lean ====
/-
  The frame run of a pipeline kernel whose windows may SHARE ARRAYS, for an entry computation that goes on AFTER
  its region with straight lines of host operations.

  The library's frame run around a region ("host lines, region, host lines") takes the layout bundled with the
  windows' arrays pairwise distinct, and uses that distinctness in two places: to turn the buffers behind the arrays,
  each whole at the full share, into the proof data's arrays at the region's entry, and, at the region's exit, to turn
  the proof data's arrays back into whole buffers the later lines may read. Here both are arguments: the entry
  entailment (`hsplit`), and at the exit the pair `hjoin` / `hsplitN` between the proof data's arrays after the
  last grid point and the distinct buffers behind them at the exit contents `Wx`.
-/
import Idealize.ShloMosaic.Lib.Pipeline.FrameSuffix
import proofs.«100509_j81003083202828_2_alg».proof.Proof.LibSharedFrame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrameAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- THE LINES AFTER THE REGION when windows may share arrays: from the region's exit — the boundary, the proof
    data's arrays `A`, the bypassing buffers at the entry contents `V` — the lines run within all the unscoped
    buffers (`hsub`), writing no buffer behind an array (`hkeep`), and hand back `A` and the bypassing buffers at
    the lines' `StableHlo.after` from the exit contents `Wx`. `A` is any proposition that is, both ways, the distinct
    buffers behind the arrays, each whole at the full share, at `Wx` (`hjoin`, `hsplitN`); the exit contents agree with
    the entry contents on the bypassing buffers (`hWx`). -/
theorem tail_seqs_shared (hunsc : ∀ w, (arrRef (cfg).spec w).isScoped = false)
    (c : Dev nD) (V Wx : Valuation τ sig Val) (A : sProp 𝕄)
    (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hjoin : A ⊢ (arrBufs (cfg).spec c (fun b => Wx (Proc.devRef .tc b)) : sProp 𝕄))
    (hsplitN : (arrBufs (cfg).spec c (fun b => Wx (Proc.devRef .tc b)) : sProp 𝕄) ⊢ A)
    (hWx : ∀ b ∈ restRefs sig (cfg).spec, Wx (Proc.devRef .tc b) = V (Proc.devRef .tc b))
    (Q' : PUnit → sProp 𝕄) :
    iprop((iprop(A ∗ unscopedRest (cfg).spec c (fun b => StableHlo.after opss.flatten Wx (Proc.devRef .tc b))) -∗ Q' ⟨⟩)
        ∗ boundary (c.tc : Thread nD τ) ∗ A ∗ unscopedRest (cfg).spec c (fun b => V (Proc.devRef .tc b)))
      ⊢ wp frame (wpE 𝔻 𝕍 (c.tc : Thread nD τ) none) Set.univ (chain (opss.map StableHlo.seq)) Q' := by
  classical
  -- the bypassing buffers hold the same at the entry and at the exit contents
  have hZ : (unscopedRest (cfg).spec c (fun b => V (Proc.devRef .tc b)) : sProp 𝕄)
      = unscopedRest (cfg).spec c (fun b => Wx (Proc.devRef .tc b)) := by
    unfold unscopedRest
    exact bigSep_congr fun b hb => by beta_reduce; rw [hWx b hb]
  -- all the unscoped buffers held at a valuation are the buffers behind the arrays and the bypassing ones
  have hheld : ∀ Wv : Valuation τ sig Val, (StableHlo.held (c.tc : Thread nD τ) (ucRefs τ sig) Wv : sProp 𝕄)
      = iprop((arrBufs (cfg).spec c (fun b => Wv (Proc.devRef .tc b)) : sProp 𝕄)
          ∗ unscopedRest (cfg).spec c (fun b => Wv (Proc.devRef .tc b))) := fun Wv =>
    (unscopedBufs_held (Ix := Unit) (Name := ℕ) (U := UR sig nD τ) (Lvl := ℕ) c Wv).symm.trans
      (unscopedBufs_split₀ cfgs p hunsc c _)
  -- no line writes a buffer behind an array
  have harr' : (arrBufs (cfg).spec c (fun b => StableHlo.after opss.flatten Wx (Proc.devRef .tc b)) : sProp 𝕄)
      = arrBufs (cfg).spec c (fun b => Wx (Proc.devRef .tc b)) := by
    unfold arrBufs
    exact bigSep_congr fun b hb => by
      obtain ⟨w, -, rfl⟩ := Finset.mem_image.mp hb
      beta_reduce
      rw [StableHlo.after_of_forall_not_mem _ _ fun op hop => ?_]
      obtain ⟨ops, hops, hop⟩ := List.mem_flatten.mp hop
      exact hkeep ops hops op hop w
  rw [← List.append_nil (opss.map StableHlo.seq), hZ]
  iintro ⟨Hk, Hb, HA, HZ⟩
  iapply (wp_seqs_then (fun q => Cfg.toPCfg (Val := Val) (cfgs q)) defs₀ 𝒱₀ c (ucRefs τ sig) [] opss hsub hfresh Wx) $$ [Hb HA HZ]
  · rw [hheld Wx]
    isplitl [Hb]; · iexact Hb
    isplitl [HA]; · iapply hjoin; iexact HA
    iexact HZ
  iintro Hb
  rw [chain_nil, wp_pure, hheld, harr']
  imodintro
  iapply Hk
  icases Hb with ⟨-, HA, HZ⟩
  isplitl [HA]; · iapply hsplitN; iexact HA
  iexact HZ

include hinj hw hne harr hstage in
/-- THE FRAME RUN with a TRACKING invariant, for a kernel whose windows may SHARE ARRAYS and an entry computation
    that continues after the region with the host lines `opss`. As the library's `θ_run_frame_around_track`, with the
    layout given by its fields without the arrays' distinctness (as in `θ_run_frame_track_shared`), the entry entailment
    `hsplit` from the distinct buffers behind the arrays at the region-entry contents `V₀ c`, and at the exit the two
    entailments `hjoin` / `hsplitN` between the proof data's arrays after the last point and those buffers at the exit
    contents `Wx c` (which agree with `V₀ c` on every bypassing buffer: `hWx`). The lines run within the unscoped buffers
    (`hsub`), make no fresh buffer (`hfresh`) and write no buffer behind an array (`hkeep`). Concludes `FramePost` at the
    contents after the lines from `Wx c`. -/
theorem θ_run_frame_around_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => Wx c (Proc.devRef .tc b)) : sProp 𝕄))
    (hsplitN : ∀ c, (arrBufs (cfg).spec c (fun b => Wx c (Proc.devRef .tc b)) : sProp 𝕄) ⊢ (dats p c).arrays ((dats p c).arrAt · (cfg).N))
    (hWx : ∀ c, ∀ b ∈ restRefs sig (cfg).spec, Wx c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (Wx c) (Proc.devRef .tc b))) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (Wx c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (htail := fun c Q' => tail_seqs_shared cfgs p defs₀ 𝒱₀ hw.arr_unscoped c (V₀ c) (Wx c) _ opss hsub hfresh hkeep
      (hjoin c) (hsplitN c) (hWx c) Q')
    (QY := fun c s => ∀ b ∈ restRefs sig (cfg).spec,
      s.mem ((c.tc : Thread nD τ).loc b) = StableHlo.after opss.flatten (Wx c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (Wx c) (Proc.devRef .tc b)) s')
      isplitl [HU] <;> iassumption)
    (hQ := fun s h c => ⟨(h c).1, (h c).2.2⟩)

end SharedFrameAround

end Pipeline

end Idealize.ShloMosaic

end
-- ==== Proof.K.Frame.lean ====
/-
  What the two accumulators and the result window hold after every grid point, the proof data of the launch, the body's
  obligation at every point, and the frame run. The grid is 8 row tiles x 4 reduction steps, visited row tile by row
  tile: at step 0 the running row sums are reset and the row tile is normalised into scratch; every step adds its four
  512-row chunks' contributions to the running sums; at step 3 the result column is written from them.
-/
import proofs.«100509_j81003083202828_2_alg».proof.Proof.K.RunC
import proofs.«100509_j81003083202828_2_alg».proof.Proof.LibSharedFrameAround

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) (y : S1024x1.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S1024x1.size (by sl_kernel_rfl) y
/-- The running row sums after a first step: the stores' pieces read back. -/
def sout0_A_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) : Vec F S1024x1 .f32 :=
  VS0_0.read (Elt F) (VS0_0.writes (Elt F) VS0_0.junk (kernelRun0_A c i arg2 harg2 arg3 harg3 arg4 harg4 arg5 harg5 arg6 harg6 hc0 hc1 x0 x1).1)
theorem scover0_A_1 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) (y : S1024x256.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x256.size (by sl_kernel_rfl) y
/-- The normalised row tile after a first step. -/
def sout0_A_1 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) : Vec F S1024x256 .bf16 :=
  VS0_1.read (Elt F) (VS0_1.writes (Elt F) VS0_1.junk (kernelRun0_A c i arg2 harg2 arg3 harg3 arg4 harg4 arg5 harg5 arg6 harg6 hc0 hc1 x0 x1).2.1)

theorem scover0_B_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i) (x0 : Vec F S1024x256 .f32) (x1 : Vec F S2048x256 .f32) (xs0 : Vec F S1024x1 .f32) (xs1 : Vec F S1024x256 .bf16) (y : S1024x1.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S1024x1.size (by sl_kernel_rfl) y
/-- The running row sums after a middle step. -/
def sout0_B_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i) (x0 : Vec F S1024x256 .f32) (x1 : Vec F S2048x256 .f32) (xs0 : Vec F S1024x1 .f32) (xs1 : Vec F S1024x256 .bf16) : Vec F S1024x1 .f32 :=
  VS0_0.read (Elt F) (VS0_0.writes (Elt F) VS0_0.junk (kernelRun0_B c i arg2 harg2 arg3 harg3 arg4 harg4 arg5 harg5 arg6 harg6 hc0 hc1 x0 x1 xs0 xs1).1)

theorem cover0_C_2 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) (y : S1024x1.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1024x1.size (by sl_kernel_rfl) y
/-- The result column a last step writes. -/
def out0_C_2 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) : Vec F S1024x1 .f32 :=
  VO0_2.read (Elt F) (VO0_2.writes (Elt F) VO0_2.junk (kernelRun0_C c i arg2 harg2 arg3 harg3 arg4 harg4 arg5 harg5 arg6 harg6 hc0 hc1 x0 x1 xs0 xs1).1)
theorem scover0_C_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x1.size (by sl_kernel_rfl) y
/-- The running row sums after a last step. -/
def sout0_C_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) : Vec F S1024x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- A placeholder for the result window's buffer at the steps that do not touch it (nothing consults it). -/
def idle2 : Vec F S1024x1 .f32 := VO0_2.read (Elt F) VO0_2.junk

/-! ## After each point -/

/-- After the body at position n: (the result window's buffer, the running row sums, the normalised row tile). -/
def outsAt0 (c : Dev nD) : (n : ℕ) → n < cfg0.N → Vec F S1024x1 .f32 × Vec F S1024x1 .f32 × Vec F S1024x256 .bf16
  | 0, hn => (idle2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (idle2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, (outsAt0 c n (Nat.lt_of_succ_lt hn)).2.2)
      else
        (idle2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, (outsAt0 c n (Nat.lt_of_succ_lt hn)).2.2)

theorem outsAt0_A (c : Dev nD) (t : Fin cfg0.N) (h0 : t.val % 4 = 0) (h1 : ¬t.val % 4 = 3) :
    outsAt0 m c t.val t.isLt = (idle2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idle2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the two accumulators at what
    the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The proof data of the launch on core c. The stacked array is read through BOTH input windows: the row-tile window
    holds it at the left half of the full share, the column-tile window at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk m c 0 t) (iblk m c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _)
          · iexact HS1
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk m c 0 t) (iblk m c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _)
          · iexact HS1
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Fr

end
-- ==== Proof.K.Split.lean ====
/-
  The one array the kernel reads through two windows, dealt between them by halves of the full share.

  Windows 0 and 1 of the pallas_call are inputs on the same array (the stacked operand); window 2 is the output, on
  its own array. The distinct buffers behind the arrays, each whole at the full share, are therefore two; the proof
  data's arrays are three points-tos, the two on the shared array at the left and at the right half of the full
  share. Splitting the full share into its halves, and joining them again, gives the entailment each way.
-/
import proofs.«100509_j81003083202828_2_alg».proof.Proof.K.Runs
import proofs.«100509_j81003083202828_2_alg».proof.Proof.LibSharedFrameAround

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the three windows' arrays are two: the stacked operand and the result. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v0) ↦{fullShare} Vv main_v0) ∗ (((c.tc : Thread nD τ).loc main_v1) ↦{fullShare} Vv main_v1)) := by
  unfold Pipeline.arrBufs
  rw [show Finset.univ.image (Pipeline.arrRef spec0) = {main_v0, main_v1} from by decide,
    bigSep_insert (by decide), bigSep_singleton]
  rfl

/-- The proof data's arrays, window by window, every array a whole buffer: each window's array at the window's share. -/
theorem arrays0_eq (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_v0) ↦{dat.share 0} G 0) ∗ (((c.tc : Thread nD τ).loc main_v0) ↦{dat.share 1} G 1)
          ∗ (((c.tc : Thread nD τ).loc main_v1) ↦{dat.share 2} G 2)) := by
  unfold Dat.arrays
  rw [bigSep_congr (Ψ := fun w : Fin 3 => (((c.tc : Thread nD τ).loc (Pipeline.arrRef spec0 w)) ↦{dat.share w} G w : sProp 𝕄))
    fun w _ => by rw [(arr_whole0 w).set_eq_univ], bigSep_W0]

/-- From the two buffers whole at the full share to the proof data's arrays: the stacked operand's full share is split
    into its halves, the left for window 0 and the right for window 1. -/
theorem arrays_of_arrBufs (c : Dev nD) (dat : Dat τ (Elt F) Unit ℕ (UR sig nD τ) ℕ cfg0 c)
    (hq0 : dat.q 0 = fullShare.left) (hq1 : dat.q 1 = fullShare.right)
    (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (Pipeline.arrBufs spec0 c Vv : sProp 𝕄) ⊢ dat.arrays G := by
  have hs0 : dat.share 0 = fullShare.left := (show dat.share 0 = dat.q 0 from rfl).trans hq0
  have hs1 : dat.share 1 = fullShare.right := (show dat.share 1 = dat.q 1 from rfl).trans hq1
  have hs2 : dat.share 2 = fullShare := rfl
  rw [arrays0_eq, arrBufs0_eq, hs0, hs1, hs2, hG 0, hG 1, hG 2]
  iintro ⟨H0, H1⟩
  ihave H := (pointsTo_fullShare_halves _ _ _).1 $$ H0
  icases H with ⟨Hl, Hr⟩
  isplitl [Hl]; · iexact Hl
  isplitl [Hr]; · iexact Hr
  iexact H1

/-- Back: the two halves of the stacked operand, at the same contents, are its full share again. -/
theorem arrBufs_of_arrays (c : Dev nD) (dat : Dat τ (Elt F) Unit ℕ (UR sig nD τ) ℕ cfg0 c)
    (hq0 : dat.q 0 = fullShare.left) (hq1 : dat.q 1 = fullShare.right)
    (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    dat.arrays G ⊢ (Pipeline.arrBufs spec0 c Vv : sProp 𝕄) := by
  have hs0 : dat.share 0 = fullShare.left := (show dat.share 0 = dat.q 0 from rfl).trans hq0
  have hs1 : dat.share 1 = fullShare.right := (show dat.share 1 = dat.q 1 from rfl).trans hq1
  have hs2 : dat.share 2 = fullShare := rfl
  rw [arrays0_eq, arrBufs0_eq, hs0, hs1, hs2, hG 0, hG 1, hG 2]
  iintro ⟨Hl, Hr, H1⟩
  isplitr [H1]
  · iapply (pointsTo_fullShare_halves _ _ _).2
    isplitl [Hl]; · iexact Hl
    iexact Hr
  iexact H1

end Cert.Kernel.Fr

end
-- ==== Proof.K.Main.lean ====
/-
  The frame run of the whole program: the stacking of the two arguments, the launch, and the lines after it. The
  stacked array is held by the launch through two input windows at the two halves of the full share and handed back
  whole; the lines after the launch write neither it nor the result array nor the arguments. Concluded: every
  execution terminates without a fault, the arguments end unchanged, the result array ends at what the write-backs
  of the last reduction steps leave, and every other buffer at the lines' composed term.
-/
import proofs.«100509_j81003083202828_2_alg».proof.Proof.K.Frame
import proofs.«100509_j81003083202828_2_alg».proof.Proof.K.Split

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region write none of the buffers the launch or the claim speaks of -/

/-- Every buffer the lines after the region write. -/
abbrev tailWrites : List (Ref sig .tc) := [main_v2, main_call0_v0, main_call0_cst, main_call0_v1, main_call0_v2, main_v3, main_cst, main_v4, main_v5, main_v6, main_v7, main_call1_v0, main_call1_cst, main_call1_v1, main_call1_v2, main_v8, main_cst_0, main_v9, main_v10, main_v11, main_v12, main_v13, main_cst_1, main_v14, main_cst_2, main_v15, main_v16, main_cst_3, main_v17, main_cst_4, main_v18, main_cst_5, main_v19, main_v20, main_cst_6, main_v21]

theorem nw_hostOps1 (r : Ref sig .tc) (hr : ∀ y ∈ tailWrites, r ≠ y) :
    ∀ op ∈ (hostOps1 : List (HloOp τ sig (Elt F))), Proc.devRef .tc r ∉ op.writes := by
  intro op hop
  simp only [hostOps1, List.mem_cons, List.mem_nil_iff, or_false] at hop
  rcases hop with rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_1 (r : Ref sig .tc) (hr : ∀ y ∈ tailWrites, r ≠ y) :
    ∀ op ∈ (hostOps1_1 : List (HloOp τ sig (Elt F))), Proc.devRef .tc r ∉ op.writes := by
  intro op hop
  simp only [hostOps1_1, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_2 (r : Ref sig .tc) (hr : ∀ y ∈ tailWrites, r ≠ y) :
    ∀ op ∈ (hostOps1_2 : List (HloOp τ sig (Elt F))), Proc.devRef .tc r ∉ op.writes := by
  intro op hop
  simp only [hostOps1_2, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_3 (r : Ref sig .tc) (hr : ∀ y ∈ tailWrites, r ≠ y) :
    ∀ op ∈ (hostOps1_3 : List (HloOp τ sig (Elt F))), Proc.devRef .tc r ∉ op.writes := by
  intro op hop
  simp only [hostOps1_3, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_4 (r : Ref sig .tc) (hr : ∀ y ∈ tailWrites, r ≠ y) :
    ∀ op ∈ (hostOps1_4 : List (HloOp τ sig (Elt F))), Proc.devRef .tc r ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))

theorem mem_tailOps {ops : List (HloOp τ sig (Elt F))} (h : ops ∈ (tailOps (F := F))) :
    ops = hostOps1 ∨ ops = hostOps1_1 ∨ ops = hostOps1_2 ∨ ops = hostOps1_3 ∨ ops = hostOps1_4 := by
  simpa only [tailOps, List.mem_cons, List.mem_nil_iff, or_false] using h

/-- A buffer outside that list is not written by any line after the region. -/
theorem tail_not_written (r : Ref sig .tc) (hr : ∀ y ∈ tailWrites, r ≠ y) :
    ∀ ops ∈ (tailOps (F := F)), ∀ op ∈ ops, Proc.devRef .tc r ∉ op.writes := by
  intro ops hops
  rcases mem_tailOps hops with rfl | rfl | rfl | rfl | rfl
  · exact nw_hostOps1 r hr
  · exact nw_hostOps1_1 r hr
  · exact nw_hostOps1_2 r hr
  · exact nw_hostOps1_3 r hr
  · exact nw_hostOps1_4 r hr

theorem tail_keeps (W : Valuation τ sig (Elt F)) (r : Ref sig .tc) (hr : ∀ y ∈ tailWrites, r ≠ y) :
    StableHlo.after (tailOps (F := F)).flatten W (Proc.devRef .tc r) = W (Proc.devRef .tc r) :=
  StableHlo.after_of_forall_not_mem _ _ fun op hop => by
    obtain ⟨ops, hops, hop'⟩ := List.mem_flatten.mp hop
    exact tail_not_written r hr ops hops op hop'

theorem sfx_sub : ∀ ops ∈ (tailOps (F := F)), ∀ op ∈ ops, op.bufs ⊆ Pipeline.ucRefs τ sig := by
  intro ops hops op hop
  rcases mem_tailOps hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps (F := F)), ∀ op ∈ ops, op.fresh = ∅ := by
  intro ops hops op hop
  rcases mem_tailOps hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem sfx_keeps : ∀ ops ∈ (tailOps (F := F)), ∀ op ∈ ops,
    ∀ w, Proc.devRef .tc (Pipeline.arrRef spec0 w) ∉ op.writes := by
  intro ops hops op hop w
  fin_cases w
  · exact tail_not_written main_v0 (by decide) ops hops op hop
  · exact tail_not_written main_v0 (by decide) ops hops op hop
  · exact tail_not_written main_v1 (by decide) ops hops op hop

/-! ## The buffers when the region is left -/

open Classical in
/-- The result array as the write-backs leave it; every other buffer as the region found it. -/
def Wx (c : Dev nD) : Valuation τ sig (Elt F) :=
  Function.update (V0 m c) (Proc.devRef .tc main_v1) ((dats m 0 c).arrAt 2 cfg0.N)

theorem Wx_result (c : Dev nD) : Wx m c (Proc.devRef .tc main_v1) = (dats m 0 c).arrAt 2 cfg0.N := by
  unfold Wx; exact Function.update_self _ _ _
theorem Wx_other (c : Dev nD) (b : Ref sig .tc) (h : b ≠ main_v1) : Wx m c (Proc.devRef .tc b) = V0 m c (Proc.devRef .tc b) := by
  unfold Wx; exact Function.update_of_ne (StableHlo.devRef_ne_of_ne h) _ _

theorem arrAt_eq_Wx (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_other m c main_v0 (by decide)).symm)
  · exact ((dats m 0 c).arrAt_in 1 rfl _).trans ((A_eq m c 1).trans (Wx_other m c main_v0 (by decide)).symm)
  · exact (Wx_result m c).symm

theorem Wx_rest (c : Dev nD) (b : Ref sig .tc) (hb : b ∈ Pipeline.restRefs sig spec0) :
    Wx m c (Proc.devRef .tc b) = V0 m c (Proc.devRef .tc b) :=
  Wx_other m c b fun e => (Finset.mem_sdiff.mp hb).2 (Finset.mem_image.mpr ⟨2, Finset.mem_univ _, e.symm⟩)

/-! ## The run -/

set_option backward.isDefEq.respectTransparency.types false in
theorem run_main : θ_run defs (onTc (τ := τ) (main (F := F))) (s₀ m ρ)
    (Pipeline.FramePost cfgs (dats m) 0 (fun c b => StableHlo.after (tailOps (F := F)).flatten (Wx m c) (Proc.devRef .tc b))) :=
  Pipeline.θ_run_frame_around_track_shared cfgs (dats m) (0 : Fin 1) cellOf_inj winFacts₀0 block_pos0 arr_whole0 stage_whole0 defs₀ Variants.none m ρ main
    (hbody := fun c => (body_obligation m c).loose) (howed := fun _ _ => rfl)
    (V₀ := V0 m) (Wx := Wx m) (opss := tailOps) (hsub := sfx_sub) (hfresh := sfx_fresh) (hkeep := sfx_keeps)
    (hmain := hmain m Variants.none)
    (hsplit := fun c => arrays_of_arrBufs c (dats m 0 c) rfl rfl (fun b => V0 m c (Proc.devRef .tc b)) _ (fun w => A_eq m c w))
    (hjoin := fun c => arrBufs_of_arrays c (dats m 0 c) rfl rfl (fun b => Wx m c (Proc.devRef .tc b)) _ (arrAt_eq_Wx m c))
    (hsplitN := fun c => arrays_of_arrBufs c (dats m 0 c) rfl rfl (fun b => Wx m c (Proc.devRef .tc b)) _ (arrAt_eq_Wx m c))
    (hWx := fun c b hb => Wx_rest m c b hb)
    (hin := hin m) (hout := hout m)

/-- The stacking writes only the stacked array. -/
theorem V0_arg (c : Dev nD) (r : Ref sig .tc) (hr : r ≠ main_v0) : V0 m c (Proc.devRef .tc r) = m ((c.tc : Thread nD τ).loc r) := by
  show StableHlo.after (List.flatten [hostOps0]) (fun b => m (c, b)) (Proc.devRef .tc r) = _
  refine (StableHlo.after_of_forall_not_mem _ _ fun op hop => ?_).trans rfl
  simp only [List.flatten_cons, List.flatten_nil, List.append_nil, hostOps0, List.mem_cons, List.mem_nil_iff, or_false] at hop
  subst hop
  simp only [StableHlo.nullary_writes, StableHlo.unary_writes, StableHlo.binary_writes, StableHlo.ternary_writes, StableHlo.quaternary_writes, StableHlo.reshape_writes, Finset.mem_singleton]
  exact StableHlo.devRef_ne_of_ne hr

/-- What a buffer that neither the launch nor any line after it writes ends at: its launch contents. -/
theorem kept_of_run (r : Ref sig .tc) (hs : r.isScoped = false) (ha : ∀ w, (spec0 w).arr.view.ref ≠ r) (hr : ∀ y ∈ tailWrites, r ≠ y) (h0 : r ≠ main_v0) (h1 : r ≠ main_v1)
    (s : PUnit × MemSt nD τ sig (Elt F))
    (h : Pipeline.FramePost cfgs (dats m) 0 (fun c b => StableHlo.after (tailOps (F := F)).flatten (Wx m c) (Proc.devRef .tc b)) s) (c : Dev nD) :
    s.2.mem ((c.tc : Thread nD τ).loc r) = m ((c.tc : Thread nD τ).loc r) :=
  ((h c).2 r (Pipeline.mem_restRefs_of r hs ha)).trans ((tail_keeps _ r hr).trans ((Wx_other m c r h1).trans (V0_arg m c r h0)))

/-- THE FRAME: every execution terminates without a fault and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨kept_of_run m main_arg0 rfl (by decide) (by decide) (by decide) (by decide) s h c,
     kept_of_run m main_arg1 rfl (by decide) (by decide) (by decide) (by decide) s h c⟩) (run_main m ρ)

end Cert.Kernel.Fr

end
-- ==== Proof.KI.Runs.lean ====
/-
  The one pallas_call of the program, seen from its launch: the buffer contents the region is entered with (after
  the one host line before it, the stacking of the two arguments), the host lines after it, each window's block
  at a grid point, the two conditions of the body (first reduction step of a row tile: the accumulators are reset;
  last step: the result column is written) decided over the 8 x 4 grid, and where the result window is idle.
-/
import proofs.«100509_j81003083202828_2_alg».proof.Proof.Gen.KernelIdeal.Launch
import proofs.«100509_j81003083202828_2_alg».proof.Proof.Gen.KernelIdeal.Skeleton
import proofs.«100509_j81003083202828_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the stacking of the two arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the stacking, the region, then the lines after it: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window holds its block at every point, fetched there or not (between fetches its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-tile window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first reduction step of the row tile" (the second grid coordinate is 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last reduction step of the row tile" (the second grid coordinate is 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The staging and scratch memrefs -/

abbrev VO0_2 : View sig .tc .vmem S1024x1 .f32 := (Memref.whole cc0_stg2_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running row sums (scratch 0) and the normalised row tile (scratch 1), carried between points. -/
abbrev scM0_0 : Memref sig .tc .vmem S1024x1 .f32 := Memref.whole cc0_scratch0
abbrev scM0_1 : Memref sig .tc .vmem S1024x256 .bf16 := Memref.whole cc0_scratch1
abbrev VS0_0 : View sig .tc .vmem S1024x1 .f32 := scM0_0.view
abbrev VS0_1 : View sig .tc .vmem S1024x256 .bf16 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
/-
  The body at a FIRST reduction step of a row tile: both accumulators (the running row sums and the normalised row
  tile) are entered at any contents and left with the pieces the stores wrote; the result window is not touched.
-/
import proofs.«100509_j81003083202828_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first step, not last): the pieces the body leaves in scratch 0 and scratch 1, with the proof that it runs. -/
noncomputable def kernelRun0_A (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i)
    (x0 : Vec F S1024x256 .f32) (x1 : Vec F S2048x256 .f32) :
    Σ' (LS0 : List (View.Piece (Elt F) S1024x1 .f32)), { LS1 : List (View.Piece (Elt F) S1024x256 .bf16) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.KI.RunB.lean ====
/-
  The body at a MIDDLE reduction step of a row tile: the running row sums are entered at what the step before left
  and leave with the pieces the four chunk updates wrote; the normalised row tile is only read; the result window is
  not touched.
-/
import proofs.«100509_j81003083202828_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither first nor last step). -/
noncomputable def kernelRun0_B (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i)
    (x0 : Vec F S1024x256 .f32) (x1 : Vec F S2048x256 .f32) (xs0 : Vec F S1024x1 .f32) (xs1 : Vec F S1024x256 .bf16) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__kernel i arg2 harg2 arg3 harg3 arg4 harg4 arg5 harg5 arg6 harg6) K } := by
  refine ⟨?_, fun xi2 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; isplitr; · ipureintro; exact harg6.read_unread _
    iexact HS1

end Cert.KernelIdeal.Fr

end
-- ==== Proof.KI.RunC.lean ====
/-
  The body at the LAST reduction step of a row tile: as a middle step, and then the result window, entered at any
  contents, is written whole from the final row sums.
-/
import proofs.«100509_j81003083202828_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (last step, not first). -/
noncomputable def kernelRun0_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i)
    (x0 : Vec F S1024x256 .f32) (x1 : Vec F S2048x256 .f32) (xs0 : Vec F S1024x1 .f32) (xs1 : Vec F S1024x256 .bf16) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; isplitr; · ipureintro; exact harg6.read_unread _
    iexact HS1

end Cert.KernelIdeal.Fr

end
-- ==== Proof.KI.Frame.lean ====
/-
  What the two accumulators and the result window hold after every grid point, the proof data of the launch, the body's
  obligation at every point, and the frame run. The grid is 8 row tiles x 4 reduction steps, visited row tile by row
  tile: at step 0 the running row sums are reset and the row tile is normalised into scratch; every step adds its four
  512-row chunks' contributions to the running sums; at step 3 the result column is written from them.
-/
import proofs.«100509_j81003083202828_2_alg».proof.Proof.KI.RunC
import proofs.«100509_j81003083202828_2_alg».proof.Proof.LibSharedFrameAround

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) (y : S1024x1.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S1024x1.size (by sl_kernel_rfl) y
/-- The running row sums after a first step: the stores' pieces read back. -/
def sout0_A_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) : Vec F S1024x1 .f32 :=
  VS0_0.read (Elt F) (VS0_0.writes (Elt F) VS0_0.junk (kernelRun0_A c i arg2 harg2 arg3 harg3 arg4 harg4 arg5 harg5 arg6 harg6 hc0 hc1 x0 x1).1)
theorem scover0_A_1 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) (y : S1024x256.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x256.size (by sl_kernel_rfl) y
/-- The normalised row tile after a first step. -/
def sout0_A_1 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) : Vec F S1024x256 .bf16 :=
  VS0_1.read (Elt F) (VS0_1.writes (Elt F) VS0_1.junk (kernelRun0_A c i arg2 harg2 arg3 harg3 arg4 harg4 arg5 harg5 arg6 harg6 hc0 hc1 x0 x1).2.1)

theorem scover0_B_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i) (x0 : Vec F S1024x256 .f32) (x1 : Vec F S2048x256 .f32) (xs0 : Vec F S1024x1 .f32) (xs1 : Vec F S1024x256 .bf16) (y : S1024x1.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S1024x1.size (by sl_kernel_rfl) y
/-- The running row sums after a middle step. -/
def sout0_B_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i) (x0 : Vec F S1024x256 .f32) (x1 : Vec F S2048x256 .f32) (xs0 : Vec F S1024x1 .f32) (xs1 : Vec F S1024x256 .bf16) : Vec F S1024x1 .f32 :=
  VS0_0.read (Elt F) (VS0_0.writes (Elt F) VS0_0.junk (kernelRun0_B c i arg2 harg2 arg3 harg3 arg4 harg4 arg5 harg5 arg6 harg6 hc0 hc1 x0 x1 xs0 xs1).1)

theorem cover0_C_2 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) (y : S1024x1.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1024x1.size (by sl_kernel_rfl) y
/-- The result column a last step writes. -/
def out0_C_2 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) : Vec F S1024x1 .f32 :=
  VO0_2.read (Elt F) (VO0_2.writes (Elt F) VO0_2.junk (kernelRun0_C c i arg2 harg2 arg3 harg3 arg4 harg4 arg5 harg5 arg6 harg6 hc0 hc1 x0 x1 xs0 xs1).1)
theorem scover0_C_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x1.size (by sl_kernel_rfl) y
/-- The running row sums after a last step. -/
def sout0_C_0 (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) : Vec F S1024x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- A placeholder for the result window's buffer at the steps that do not touch it (nothing consults it). -/
def idle2 : Vec F S1024x1 .f32 := VO0_2.read (Elt F) VO0_2.junk

/-! ## After each point -/

/-- After the body at position n: (the result window's buffer, the running row sums, the normalised row tile). -/
def outsAt0 (c : Dev nD) : (n : ℕ) → n < cfg0.N → Vec F S1024x1 .f32 × Vec F S1024x1 .f32 × Vec F S1024x256 .bf16
  | 0, hn => (idle2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (idle2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, (outsAt0 c n (Nat.lt_of_succ_lt hn)).2.2)
      else
        (idle2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, (outsAt0 c n (Nat.lt_of_succ_lt hn)).2.2)

theorem outsAt0_A (c : Dev nD) (t : Fin cfg0.N) (h0 : t.val % 4 = 0) (h1 : ¬t.val % 4 = 3) :
    outsAt0 m c t.val t.isLt = (idle2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idle2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's; afterwards the two accumulators at what
    the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The proof data of the launch on core c. The stacked array is read through BOTH input windows: the row-tile window
    holds it at the left half of the full share, the column-tile window at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk m c 0 t) (iblk m c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _)
          · iexact HS1
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk m c 0 t) (iblk m c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _)
          · iexact HS1
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Fr

end
-- ==== Proof.KI.Split.lean ====
/-
  The one array the kernel reads through two windows, dealt between them by halves of the full share.

  Windows 0 and 1 of the pallas_call are inputs on the same array (the stacked operand); window 2 is the output, on
  its own array. The distinct buffers behind the arrays, each whole at the full share, are therefore two; the proof
  data's arrays are three points-tos, the two on the shared array at the left and at the right half of the full
  share. Splitting the full share into its halves, and joining them again, gives the entailment each way.
-/
import proofs.«100509_j81003083202828_2_alg».proof.Proof.KI.Runs
import proofs.«100509_j81003083202828_2_alg».proof.Proof.LibSharedFrameAround

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The distinct buffers behind the three windows' arrays are two: the stacked operand and the result. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v0) ↦{fullShare} Vv main_v0) ∗ (((c.tc : Thread nD τ).loc main_v1) ↦{fullShare} Vv main_v1)) := by
  unfold Pipeline.arrBufs
  rw [show Finset.univ.image (Pipeline.arrRef spec0) = {main_v0, main_v1} from by decide,
    bigSep_insert (by decide), bigSep_singleton]
  rfl

/-- The proof data's arrays, window by window, every array a whole buffer: each window's array at the window's share. -/
theorem arrays0_eq (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_v0) ↦{dat.share 0} G 0) ∗ (((c.tc : Thread nD τ).loc main_v0) ↦{dat.share 1} G 1)
          ∗ (((c.tc : Thread nD τ).loc main_v1) ↦{dat.share 2} G 2)) := by
  unfold Dat.arrays
  rw [bigSep_congr (Ψ := fun w : Fin 3 => (((c.tc : Thread nD τ).loc (Pipeline.arrRef spec0 w)) ↦{dat.share w} G w : sProp 𝕄))
    fun w _ => by rw [(arr_whole0 w).set_eq_univ], bigSep_W0]

/-- From the two buffers whole at the full share to the proof data's arrays: the stacked operand's full share is split
    into its halves, the left for window 0 and the right for window 1. -/
theorem arrays_of_arrBufs (c : Dev nD) (dat : Dat τ (Elt F) Unit ℕ (UR sig nD τ) ℕ cfg0 c)
    (hq0 : dat.q 0 = fullShare.left) (hq1 : dat.q 1 = fullShare.right)
    (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    (Pipeline.arrBufs spec0 c Vv : sProp 𝕄) ⊢ dat.arrays G := by
  have hs0 : dat.share 0 = fullShare.left := (show dat.share 0 = dat.q 0 from rfl).trans hq0
  have hs1 : dat.share 1 = fullShare.right := (show dat.share 1 = dat.q 1 from rfl).trans hq1
  have hs2 : dat.share 2 = fullShare := rfl
  rw [arrays0_eq, arrBufs0_eq, hs0, hs1, hs2, hG 0, hG 1, hG 2]
  iintro ⟨H0, H1⟩
  ihave H := (pointsTo_fullShare_halves _ _ _).1 $$ H0
  icases H with ⟨Hl, Hr⟩
  isplitl [Hl]; · iexact Hl
  isplitl [Hr]; · iexact Hr
  iexact H1

/-- Back: the two halves of the stacked operand, at the same contents, are its full share again. -/
theorem arrBufs_of_arrays (c : Dev nD) (dat : Dat τ (Elt F) Unit ℕ (UR sig nD τ) ℕ cfg0 c)
    (hq0 : dat.q 0 = fullShare.left) (hq1 : dat.q 1 = fullShare.right)
    (Vv : (b : Ref sig .tc) → Buf (Elt F) ((c.tc : Thread nD τ).loc b))
    (G : (w : Fin cfg0.W) → Buf (Elt F) ((cfg0.win w).arr.view.loc (c.tc : Thread nD τ)))
    (hG : ∀ w, G w = Vv (Pipeline.arrRef spec0 w)) :
    dat.arrays G ⊢ (Pipeline.arrBufs spec0 c Vv : sProp 𝕄) := by
  have hs0 : dat.share 0 = fullShare.left := (show dat.share 0 = dat.q 0 from rfl).trans hq0
  have hs1 : dat.share 1 = fullShare.right := (show dat.share 1 = dat.q 1 from rfl).trans hq1
  have hs2 : dat.share 2 = fullShare := rfl
  rw [arrays0_eq, arrBufs0_eq, hs0, hs1, hs2, hG 0, hG 1, hG 2]
  iintro ⟨Hl, Hr, H1⟩
  isplitr [H1]
  · iapply (pointsTo_fullShare_halves _ _ _).2
    isplitl [Hl]; · iexact Hl
    iexact Hr
  iexact H1

end Cert.KernelIdeal.Fr

end
-- ==== Proof.KI.Main.lean ====
/-
  The frame run of the whole program: the stacking of the two arguments, the launch, and the lines after it. The
  stacked array is held by the launch through two input windows at the two halves of the full share and handed back
  whole; the lines after the launch write neither it nor the result array nor the arguments. Concluded: every
  execution terminates without a fault, the arguments end unchanged, the result array ends at what the write-backs
  of the last reduction steps leave, and every other buffer at the lines' composed term.
-/
import proofs.«100509_j81003083202828_2_alg».proof.Proof.KI.Frame
import proofs.«100509_j81003083202828_2_alg».proof.Proof.KI.Split

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The lines after the region write none of the buffers the launch or the claim speaks of -/

/-- Every buffer the lines after the region write. -/
abbrev tailWrites : List (Ref sig .tc) := [main_v2, main_call0_v0, main_call0_cst, main_call0_v1, main_call0_v2, main_v3, main_cst, main_v4, main_v5, main_v6, main_v7, main_call1_v0, main_call1_cst, main_call1_v1, main_call1_v2, main_v8, main_cst_0, main_v9, main_v10, main_v11, main_v12, main_v13, main_cst_1, main_v14, main_cst_2, main_v15, main_v16, main_cst_3, main_v17, main_cst_4, main_v18, main_cst_5, main_v19, main_v20, main_cst_6, main_v21]

theorem nw_hostOps1 (r : Ref sig .tc) (hr : ∀ y ∈ tailWrites, r ≠ y) :
    ∀ op ∈ (hostOps1 : List (HloOp τ sig (Elt F))), Proc.devRef .tc r ∉ op.writes := by
  intro op hop
  simp only [hostOps1, List.mem_cons, List.mem_nil_iff, or_false] at hop
  rcases hop with rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_1 (r : Ref sig .tc) (hr : ∀ y ∈ tailWrites, r ≠ y) :
    ∀ op ∈ (hostOps1_1 : List (HloOp τ sig (Elt F))), Proc.devRef .tc r ∉ op.writes := by
  intro op hop
  simp only [hostOps1_1, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_2 (r : Ref sig .tc) (hr : ∀ y ∈ tailWrites, r ≠ y) :
    ∀ op ∈ (hostOps1_2 : List (HloOp τ sig (Elt F))), Proc.devRef .tc r ∉ op.writes := by
  intro op hop
  simp only [hostOps1_2, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_3 (r : Ref sig .tc) (hr : ∀ y ∈ tailWrites, r ≠ y) :
    ∀ op ∈ (hostOps1_3 : List (HloOp τ sig (Elt F))), Proc.devRef .tc r ∉ op.writes := by
  intro op hop
  simp only [hostOps1_3, List.mem_cons, List.mem_nil_iff, or_false] at hop
  rcases hop with rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))
theorem nw_hostOps1_4 (r : Ref sig .tc) (hr : ∀ y ∈ tailWrites, r ≠ y) :
    ∀ op ∈ (hostOps1_4 : List (HloOp τ sig (Elt F))), Proc.devRef .tc r ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.quaternary_writes, StableHlo.reshape_writes, Finset.mem_singleton]; exact StableHlo.devRef_ne_of_ne (hr _ (by simp [tailWrites])))

theorem mem_tailOps {ops : List (HloOp τ sig (Elt F))} (h : ops ∈ (tailOps (F := F))) :
    ops = hostOps1 ∨ ops = hostOps1_1 ∨ ops = hostOps1_2 ∨ ops = hostOps1_3 ∨ ops = hostOps1_4 := by
  simpa only [tailOps, List.mem_cons, List.mem_nil_iff, or_false] using h

/-- A buffer outside that list is not written by any line after the region. -/
theorem tail_not_written (r : Ref sig .tc) (hr : ∀ y ∈ tailWrites, r ≠ y) :
    ∀ ops ∈ (tailOps (F := F)), ∀ op ∈ ops, Proc.devRef .tc r ∉ op.writes := by
  intro ops hops
  rcases mem_tailOps hops with rfl | rfl | rfl | rfl | rfl
  · exact nw_hostOps1 r hr
  · exact nw_hostOps1_1 r hr
  · exact nw_hostOps1_2 r hr
  · exact nw_hostOps1_3 r hr
  · exact nw_hostOps1_4 r hr

theorem tail_keeps (W : Valuation τ sig (Elt F)) (r : Ref sig .tc) (hr : ∀ y ∈ tailWrites, r ≠ y) :
    StableHlo.after (tailOps (F := F)).flatten W (Proc.devRef .tc r) = W (Proc.devRef .tc r) :=
  StableHlo.after_of_forall_not_mem _ _ fun op hop => by
    obtain ⟨ops, hops, hop'⟩ := List.mem_flatten.mp hop
    exact tail_not_written r hr ops hops op hop'

theorem sfx_sub : ∀ ops ∈ (tailOps (F := F)), ∀ op ∈ ops, op.bufs ⊆ Pipeline.ucRefs τ sig := by
  intro ops hops op hop
  rcases mem_tailOps hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps (F := F)), ∀ op ∈ ops, op.fresh = ∅ := by
  intro ops hops op hop
  rcases mem_tailOps hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem sfx_keeps : ∀ ops ∈ (tailOps (F := F)), ∀ op ∈ ops,
    ∀ w, Proc.devRef .tc (Pipeline.arrRef spec0 w) ∉ op.writes := by
  intro ops hops op hop w
  fin_cases w
  · exact tail_not_written main_v0 (by decide) ops hops op hop
  · exact tail_not_written main_v0 (by decide) ops hops op hop
  · exact tail_not_written main_v1 (by decide) ops hops op hop

/-! ## The buffers when the region is left -/

open Classical in
/-- The result array as the write-backs leave it; every other buffer as the region found it. -/
def Wx (c : Dev nD) : Valuation τ sig (Elt F) :=
  Function.update (V0 m c) (Proc.devRef .tc main_v1) ((dats m 0 c).arrAt 2 cfg0.N)

theorem Wx_result (c : Dev nD) : Wx m c (Proc.devRef .tc main_v1) = (dats m 0 c).arrAt 2 cfg0.N := by
  unfold Wx; exact Function.update_self _ _ _
theorem Wx_other (c : Dev nD) (b : Ref sig .tc) (h : b ≠ main_v1) : Wx m c (Proc.devRef .tc b) = V0 m c (Proc.devRef .tc b) := by
  unfold Wx; exact Function.update_of_ne (StableHlo.devRef_ne_of_ne h) _ _

theorem arrAt_eq_Wx (c : Dev nD) (w : Fin cfg0.W) :
    (dats m 0 c).arrAt w cfg0.N = Wx m c (Proc.devRef .tc (Pipeline.arrRef spec0 w)) := by
  fin_cases w
  · exact ((dats m 0 c).arrAt_in 0 rfl _).trans ((A_eq m c 0).trans (Wx_other m c main_v0 (by decide)).symm)
  · exact ((dats m 0 c).arrAt_in 1 rfl _).trans ((A_eq m c 1).trans (Wx_other m c main_v0 (by decide)).symm)
  · exact (Wx_result m c).symm

theorem Wx_rest (c : Dev nD) (b : Ref sig .tc) (hb : b ∈ Pipeline.restRefs sig spec0) :
    Wx m c (Proc.devRef .tc b) = V0 m c (Proc.devRef .tc b) :=
  Wx_other m c b fun e => (Finset.mem_sdiff.mp hb).2 (Finset.mem_image.mpr ⟨2, Finset.mem_univ _, e.symm⟩)

/-! ## The run -/

set_option backward.isDefEq.respectTransparency.types false in
theorem run_main : θ_run defs (onTc (τ := τ) (main (F := F))) (s₀ m ρ)
    (Pipeline.FramePost cfgs (dats m) 0 (fun c b => StableHlo.after (tailOps (F := F)).flatten (Wx m c) (Proc.devRef .tc b))) :=
  Pipeline.θ_run_frame_around_track_shared cfgs (dats m) (0 : Fin 1) cellOf_inj winFacts₀0 block_pos0 arr_whole0 stage_whole0 defs₀ Variants.none m ρ main
    (hbody := fun c => (body_obligation m c).loose) (howed := fun _ _ => rfl)
    (V₀ := V0 m) (Wx := Wx m) (opss := tailOps) (hsub := sfx_sub) (hfresh := sfx_fresh) (hkeep := sfx_keeps)
    (hmain := hmain m Variants.none)
    (hsplit := fun c => arrays_of_arrBufs c (dats m 0 c) rfl rfl (fun b => V0 m c (Proc.devRef .tc b)) _ (fun w => A_eq m c w))
    (hjoin := fun c => arrBufs_of_arrays c (dats m 0 c) rfl rfl (fun b => Wx m c (Proc.devRef .tc b)) _ (arrAt_eq_Wx m c))
    (hsplitN := fun c => arrays_of_arrBufs c (dats m 0 c) rfl rfl (fun b => Wx m c (Proc.devRef .tc b)) _ (arrAt_eq_Wx m c))
    (hWx := fun c b hb => Wx_rest m c b hb)
    (hin := hin m) (hout := hout m)

/-- The stacking writes only the stacked array. -/
theorem V0_arg (c : Dev nD) (r : Ref sig .tc) (hr : r ≠ main_v0) : V0 m c (Proc.devRef .tc r) = m ((c.tc : Thread nD τ).loc r) := by
  show StableHlo.after (List.flatten [hostOps0]) (fun b => m (c, b)) (Proc.devRef .tc r) = _
  refine (StableHlo.after_of_forall_not_mem _ _ fun op hop => ?_).trans rfl
  simp only [List.flatten_cons, List.flatten_nil, List.append_nil, hostOps0, List.mem_cons, List.mem_nil_iff, or_false] at hop
  subst hop
  simp only [StableHlo.nullary_writes, StableHlo.unary_writes, StableHlo.binary_writes, StableHlo.ternary_writes, StableHlo.quaternary_writes, StableHlo.reshape_writes, Finset.mem_singleton]
  exact StableHlo.devRef_ne_of_ne hr

/-- What a buffer that neither the launch nor any line after it writes ends at: its launch contents. -/
theorem kept_of_run (r : Ref sig .tc) (hs : r.isScoped = false) (ha : ∀ w, (spec0 w).arr.view.ref ≠ r) (hr : ∀ y ∈ tailWrites, r ≠ y) (h0 : r ≠ main_v0) (h1 : r ≠ main_v1)
    (s : PUnit × MemSt nD τ sig (Elt F))
    (h : Pipeline.FramePost cfgs (dats m) 0 (fun c b => StableHlo.after (tailOps (F := F)).flatten (Wx m c) (Proc.devRef .tc b)) s) (c : Dev nD) :
    s.2.mem ((c.tc : Thread nD τ).loc r) = m ((c.tc : Thread nD τ).loc r) :=
  ((h c).2 r (Pipeline.mem_restRefs_of r hs ha)).trans ((tail_keeps _ r hr).trans ((Wx_other m c r h1).trans (V0_arg m c r h0)))

/-- THE FRAME: every execution terminates without a fault and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨kept_of_run m main_arg0 rfl (by decide) (by decide) (by decide) (by decide) s h c,
     kept_of_run m main_arg1 rfl (by decide) (by decide) (by decide) (by decide) s h c⟩) (run_main m ρ)

end Cert.KernelIdeal.Fr

end
-- ==== Proof.KI.Blocks.lean ====
/-
  Where the launch's blocks sit in their arrays. The grid point t = 4 q + s is reduction step s of row tile q: the
  row-tile window's block is rows 1024 q … of the stacked array, the column-tile window's block rows 2048 s …, and the
  result window's block rows 1024 q … of the result column, written back at s = 3; those last blocks cover the column.
-/
import proofs.«100509_j81003083202828_2_alg».proof.Proof.KI.Main
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps over the grid: point t = 4 q + s fetches row tile q and column tile s and writes row tile q. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem val_lt (t : Fin cfg0.N) : t.val < 32 := lt_of_lt_of_eq t.isLt (show cfg0.N = 32 from N_0)

/-- Row r of the row tile at point t is row 1024 (t / 4) + r of the stacked array. -/
theorem iblk0_apply (c : Dev nD) (t : Fin cfg0.N) (r : Fin 1024) (d : Fin 256) :
    iblk m c 0 t (ix2 r d) = V m c main_v0 (ix2 (⟨1024 * (t.val / 4) + r.val, by have := val_lt t; omega⟩ : Fin 8192) d) := by
  obtain ⟨e0, e1, e2, e3, e4, e5⟩ := idx_facts t
  show V m c main_v0 (((cfg0.win 0).blk t).view.emb (ix2 r d)) = _
  refine congrArg _ ?_
  funext a; apply Fin.ext
  match a with
  | ⟨0, _⟩ => show win0_0.index t (0 : Fin 2) * 1024 + 1 * r.val = 1024 * (t.val / 4) + r.val; omega
  | ⟨1, _⟩ => show win0_0.index t (1 : Fin 2) * 256 + 1 * d.val = d.val; omega

/-- Row r of the column tile at point t is row 2048 (t % 4) + r of the stacked array. -/
theorem iblk1_apply (c : Dev nD) (t : Fin cfg0.N) (r : Fin 2048) (d : Fin 256) :
    iblk m c 1 t (ix2 r d) = V m c main_v0 (ix2 (⟨2048 * (t.val % 4) + r.val, by omega⟩ : Fin 8192) d) := by
  obtain ⟨e0, e1, e2, e3, e4, e5⟩ := idx_facts t
  show V m c main_v0 (((cfg0.win 1).blk t).view.emb (ix2 r d)) = _
  refine congrArg _ ?_
  funext a; apply Fin.ext
  match a with
  | ⟨0, _⟩ => show win0_1.index t (0 : Fin 2) * 2048 + 1 * r.val = 2048 * (t.val % 4) + r.val; omega
  | ⟨1, _⟩ => show win0_1.index t (1 : Fin 2) * 256 + 1 * d.val = d.val; omega

/-- Row r of the result window's block at point t is row 1024 (t / 4) + r of the result column. -/
theorem emb2_row (t : Fin cfg0.N) (r : Fin 1024) (u : Fin 1) :
    (((cfg0.win 2).blk t).view.emb (ix2 r u)) = ix2 (⟨1024 * (t.val / 4) + r.val, by have := val_lt t; omega⟩ : Fin 8192) (0 : Fin 1) := by
  obtain ⟨e0, e1, e2, e3, e4, e5⟩ := idx_facts t
  funext a; apply Fin.ext
  match a with
  | ⟨0, _⟩ => show win0_2.index t (0 : Fin 2) * 1024 + 1 * r.val = 1024 * (t.val / 4) + r.val; omega
  | ⟨1, _⟩ => show win0_2.index t (1 : Fin 2) * 1 + 1 * u.val = 0; have := u.isLt; omega

/-- An index of the result column is in point t's block iff its row is in the block's range. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v1).slice (win0_2.rect t)).set ↔ _
  rw [View.set_slice_whole, Rect.mem_set_unit]
  exact Iff.rfl

/-- Every row of the result column is written back by the last reduction step of its row tile. -/
theorem cover2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  let t : Fin cfg0.N := ⟨4 * ((i 0).val / 1024) + 3, by omega⟩
  have htv : t.val = 4 * ((i 0).val / 1024) + 3 := rfl
  obtain ⟨e0, e1, e2, e3, e4, e5⟩ := idx_facts t
  refine ⟨t, (flush0_2 t).mpr (by omega), ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

end Cert.KernelIdeal.Fr

end
-- ==== Proof.Spec.lean ====
/-
  The two loss formulas, as functions of the two argument matrices, on the extended reals.

  Both programs compute the symmetric temperature-scaled cross entropy of the 8192 rows obtained by
  stacking the L2-normalised rows of the two 4096 x 256 arguments: with unit rows u_i, similarities
  s i j = <u_i, u_j>, and the partner of row i the row 4096 places away (cyclically),
      loss = (1 / 8192) * sum_i ( log (sum_j exp (s i j / T)) - s i (partner i) / T ).
  The kernel's form keeps a fixed shift c inside the exponential and adds it back after the logarithm,
  and takes the partner terms as 2 * sum over the first half of the row-wise products; the reference's
  form shifts by the row maximum (log-softmax) and picks the partner entry of each row.
  This module only states the two formulas (kernelLoss, referenceLoss) over curried coordinates; that
  they agree on finite arguments is proved elsewhere.
-/
import Idealize.ShloMosaic.PureOps.Ideal
import Idealize.ShloMosaic.Lib.ValueIdx

noncomputable section

open scoped BigOperators
open Idealize.ShloMosaic

namespace Cert.Spec

/-- The lower clamp of a row norm: the f32 word of 1e-12, as both programs carry it. -/
def eps : EReal := Ideal.ofBits .f32 0x2B8CBCCC#32
/-- The temperature the reference (and the kernel's partner term) divides by: the f32 word of 0.07. -/
def temp : EReal := Ideal.ofBits .f32 0x3D8F5C29#32
/-- The kernel's scale and shift: the reciprocal of the temperature's exact value 9395241 / 2^27. -/
def invTemp : EReal := ((134217728 / 9395241 : ℝ) : EReal)
/-- The row count 8192 as both programs carry it (an f32 word). -/
def count : EReal := Ideal.ofBits .f32 0x46000000#32
/-- The factor 2 of the kernel's partner term (an f32 word). -/
def two : EReal := Ideal.ofBits .f32 0x40000000#32

/-- A matrix as a function of its two coordinates. -/
def rows {n k : Nat} (x : (⟨2, ![n, k]⟩ : Shape).Idx → EReal) : Fin n → Fin k → EReal :=
  fun r d => x (ValueIdx.ix2 r d)

/-- The clamped norm of row r: max (sqrt (sum of squares)) eps. -/
def rowNorm {n k : Nat} (x : Fin n → Fin k → EReal) (r : Fin n) : EReal :=
  max (Ideal.sqrt (∑ d : Fin k, x r d * x r d)) eps

/-- The normalised matrix: each entry divided by its row's clamped norm. -/
def unit {n k : Nat} (x : Fin n → Fin k → EReal) : Fin n → Fin k → EReal :=
  fun r d => Ideal.div (x r d) (rowNorm x r)

/-- Two 4096-row matrices stacked into one of 8192 rows. -/
def stack {k : Nat} (a b : Fin 4096 → Fin k → EReal) : Fin 8192 → Fin k → EReal :=
  fun i d => if h : i.val < 4096 then a ⟨i.val, h⟩ d else b ⟨i.val - 4096, by omega⟩ d

/-- The inner product of row i and row j. -/
def inner {n k : Nat} (u : Fin n → Fin k → EReal) (i j : Fin n) : EReal := ∑ d : Fin k, u i d * u j d

/-- The partner of row i: the row 4096 places away. -/
def partner (i : Fin 8192) : Fin 8192 :=
  if h : i.val < 4096 then ⟨i.val + 4096, by omega⟩ else ⟨i.val - 4096, by omega⟩

/-! ### The kernel's form -/

/-- What the kernel leaves in row i of its output: c + log (sum_j exp (<u_i,u_j> * c - c)), u the normalised rows of
    the STACKED (un-normalised) matrix z. -/
def kernelLse (z : Fin 8192 → Fin 256 → EReal) (i : Fin 8192) : EReal :=
  invTemp + Ideal.log (∑ j : Fin 8192, Ideal.exp (inner (unit z) i j * invTemp - invTemp))

/-- The kernel's partner term of pair b: <unit a b, unit b b> / T. -/
def kernelPair (a b : Fin 4096 → Fin 256 → EReal) (r : Fin 4096) : EReal :=
  Ideal.div (∑ d : Fin 256, unit a r d * unit b r d) temp

/-- The kernel's result. -/
def kernelLoss (a b : Fin 4096 → Fin 256 → EReal) : EReal :=
  Ideal.div ((∑ i : Fin 8192, kernelLse (stack a b) i) - two * ∑ r : Fin 4096, kernelPair a b r) count

/-! ### The reference's form -/

/-- The reference's similarity matrix: inner products of the stacked NORMALISED rows, divided by T. -/
def refSim (a b : Fin 4096 → Fin 256 → EReal) (i j : Fin 8192) : EReal :=
  Ideal.div (inner (stack (unit a) (unit b)) i j) temp

/-- The reference's row shift: the maximum of row i from minus infinity (taken twice, as log-softmax prints it). -/
def refShift (a b : Fin 4096 → Fin 256 → EReal) (i : Fin 8192) : EReal :=
  max ⊥ (Finset.univ.fold max ⊥ (fun j : Fin 8192 => refSim a b i j))

/-- The reference's log-softmax entry. -/
def refLogp (a b : Fin 4096 → Fin 256 → EReal) (i j : Fin 8192) : EReal :=
  (refSim a b i j - refShift a b i) - Ideal.log (∑ j' : Fin 8192, Ideal.exp (refSim a b i j' - refShift a b i))

/-- The reference's result: minus the mean of the partner entries of the log-softmax. -/
def referenceLoss (a b : Fin 4096 → Fin 256 → EReal) : EReal :=
  - Ideal.div (∑ i : Fin 8192, refLogp a b i (partner i)) count

end Cert.Spec

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.PayLib.lean ====
import proofs.«100509_j81003083202828_2_alg».proof.Proof.Spec
import proofs.«100509_j81003083202828_2_alg».proof.Proof.LibKeepdims
import proofs.«100509_j81003083202828_2_alg».proof.Proof.LibMatmulABt

noncomputable section

open scoped BigOperators
open Idealize.ShloMosaic Idealize.ShloMosaic.ValueIdx

namespace Cert.KernelIdeal.Pay

/-- The sum over one chunk of 512 key rows that the kernel adds to row r of its running sum: the exponentials of the
    scaled and shifted inner products of the (already normalised) query row r with each normalised key row. -/
def chunkTerm (qn : Fin 1024 → Fin 256 → EReal) (k : Fin 512 → Fin 256 → EReal) (r : Fin 1024) : EReal :=
  ∑ j : Fin 512, Ideal.exp ((∑ d : Fin 256, qn r d * Cert.Spec.unit k j d) * Cert.Spec.invTemp - Cert.Spec.invTemp)

/-- Row normalisation read at an entry: the block divided by the column of its rows' clamped norms (the square root of
    the row sums of squares, clamped below by eps, repeated along the rows), then narrowed (the identity on the
    extended reals), is at (r, d) the entry divided by the clamped norm of row r. -/
theorem unitRows_apply {n k : ℕ} (x : FVec Ideal ⟨2, ![n, k]⟩ .f32)
    (hr : Shape.Reduces ⟨2, ![n, k]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, k]⟩)
    (ht : FTy.bits .bf16 < FTy.bits .f32) (r : Fin n) (d : Fin k) :
    (truncf .bf16 (divf x (broadcastTo ⟨2, ![n, k]⟩
        (maximumf (sqrt (shapeCast ⟨2, ![n, 1]⟩ (multiReduction (F := Ideal) .add [1] ⟨1, ![n]⟩ (mulf x x) 0x00000000#32 hr hφ hacc) hc))
          (broadcast ⟨2, ![n, 1]⟩ (Scalar.ofBits (F := Ideal) .f32 0x2B8CBCCC#32))) hb)) ht : FVec Ideal ⟨2, ![n, k]⟩ .bf16) (ix2 r d)
      = Cert.Spec.unit (Cert.Spec.rows x) r d := by
  rw [truncf_apply, divf_apply, LibKeepdims.broadcastTo_a1_ab_apply, maximumf_apply, broadcast_apply]
  show Ideal.div (x (ix2 r d)) (max (Ideal.sqrt (shapeCast ⟨2, ![n, 1]⟩ _ hc (ix2 r (0 : Fin 1)))) _) = _
  rw [LibKeepdims.shapeCast_a_a1_apply, LibKeepdims.multiReduction_add_row]
  rfl

/-- The exponential row sum added to a running column: the block scaled by c, shifted by c, exponentiated, summed
    along each row and laid as a column, added to the column l, is at row r the entry of l plus the sum over the row
    of exp (s * c - c). -/
theorem expRowSum_apply {n m : ℕ} (s : FVec Ideal ⟨2, ![n, m]⟩ .f32) (l : FVec Ideal ⟨2, ![n, 1]⟩ .f32) (c : Ideal .f32)
    (hr : Shape.Reduces ⟨2, ![n, m]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![n, 1]⟩) (r : Fin n) (u : Fin 1) :
    addf l (shapeCast ⟨2, ![n, 1]⟩ (multiReduction (F := Ideal) .add [1] ⟨1, ![n]⟩
        (exp (subf (mulf s (broadcast ⟨2, ![n, m]⟩ c)) (broadcast ⟨2, ![n, m]⟩ c))) 0x00000000#32 hr hφ hacc) hc) (ix2 r u)
      = l (ix2 r u) + ∑ j : Fin m, Ideal.exp (s (ix2 r j) * c - c) := by
  rw [addf_apply, LibKeepdims.shapeCast_a_a1_apply, LibKeepdims.multiReduction_add_row]
  rfl

end Cert.KernelIdeal.Pay

end
-- ==== Proof.PayA.lean ====
import proofs.«100509_j81003083202828_2_alg».proof.Proof.Gen.KernelIdeal.Skeleton
import proofs.«100509_j81003083202828_2_alg».proof.Proof.PayLib

noncomputable section

open scoped BigOperators
open Idealize.ShloMosaic Idealize.ShloMosaic.ValueIdx

namespace Cert.KernelIdeal.Pay

/-- The kernel's named scale and shift denotes, on the extended reals, the reciprocal of the temperature's exact value. -/
theorem named_c : Named.named (F := Ideal) Cert.KernelIdeal.κ "inv_temp" (φ := .f32) 0x41649249#32 = Cert.Spec.invTemp :=
  IdealRules.named_const.ideal_named_scalar _ _ _ _ rfl

/-- The initial running sum is the zero column. -/
theorem pay3_apply (j : S1024x1.Idx) : Gen.k0_pay3 (F := Ideal) j = 0 := by
  unfold Gen.k0_pay3
  rw [shapeCast_self]
  exact Ideal.ofBits_zero_f32

/-- The last step: the shift added back to the logarithm of the running sum. -/
theorem pay2_apply (l : Vec Ideal S1024x1 .f32) (r : Fin 1024) :
    Gen.k0_pay2 (F := Ideal) l (ix2 r 0) = Cert.Spec.invTemp + Ideal.log (l (ix2 r 0)) := by
  unfold Gen.k0_pay2
  rw [addf_apply, broadcast_apply, named_c]
  rfl

/-- The query block's rows, normalised. -/
theorem pay4_apply (q : Vec Ideal S1024x256 .f32) (r : Fin 1024) (d : Fin 256) :
    Gen.k0_pay4 (F := Ideal) q (ix2 r d) = Cert.Spec.unit (Cert.Spec.rows q) r d := by
  unfold Gen.k0_pay4
  simp only [shapeCast_self]
  exact unitRows_apply q _ _ _ _ _ _ r d

end Cert.KernelIdeal.Pay

end
-- ==== Proof.PayB.lean ====
import proofs.«100509_j81003083202828_2_alg».proof.Proof.PayA

noncomputable section

open scoped BigOperators
open Idealize.ShloMosaic Idealize.ShloMosaic.ValueIdx

namespace Cert.KernelIdeal.Pay

/-- One chunk of 512 key rows: the running column plus, in row r, the sum over the chunk's rows j of
    exp (<qn_r, unit k_j> * c - c), c the reciprocal temperature. The chunk's rows are normalised as the query rows
    were; the product against the transposed chunk gives the inner products; the scaling, shift, exponential, row sum
    and addition are entrywise. -/
theorem pay7_apply (k : FVec Ideal S512x256 .f32) (qn : Vec Ideal S1024x256 .bf16) (l : Vec Ideal S1024x1 .f32) (r : Fin 1024) :
    Gen.k0_pay7 (F := Ideal) (Gen.k0_pay6 k) qn l (ix2 r 0)
      = l (ix2 r 0) + chunkTerm (Cert.Spec.rows qn) (Cert.Spec.rows k) r := by
  unfold Gen.k0_pay7 Gen.k0_pay6
  simp only [shapeCast_self, named_c]
  refine (expRowSum_apply _ l Cert.Spec.invTemp _ _ _ _ r 0).trans ?_
  refine congrArg (l (ix2 r 0) + ·) (Finset.sum_congr rfl fun j _ => ?_)
  refine congrArg (fun t => Ideal.exp (t * Cert.Spec.invTemp - Cert.Spec.invTemp)) ?_
  refine (LibMatmulABt.matmul_zero_abt _ qn _ r j).trans ?_
  refine Finset.sum_congr rfl fun d _ => ?_
  exact congrArg (qn (ix2 r d) * ·) (unitRows_apply k _ _ _ _ _ _ j d)

/-- The four chunk steps are one computation: the first chunk's payload, the third chunk's two halves composed, and
    the fourth chunk's payload followed by its identity cast all unfold to the second chunk's expression. -/
theorem pay5_eq (k : Vec Ideal S512x256 .f32) (qn : Vec Ideal S1024x256 .bf16) (l : Vec Ideal S1024x1 .f32) :
    Gen.k0_pay5 (F := Ideal) k qn l = Gen.k0_pay7 (Gen.k0_pay6 k) qn l := rfl

theorem pay9_eq (k : Vec Ideal S512x256 .f32) (qn : Vec Ideal S1024x256 .bf16) (l : Vec Ideal S1024x1 .f32) :
    Gen.k0_pay9 (F := Ideal) (Gen.k0_pay8 k qn) l = Gen.k0_pay7 (Gen.k0_pay6 k) qn l := rfl

theorem pay1_eq (k : Vec Ideal S512x256 .f32) (qn : Vec Ideal S1024x256 .bf16) (l : Vec Ideal S1024x1 .f32) :
    Gen.k0_pay1 (F := Ideal) (Gen.k0_pay10 k qn l) = Gen.k0_pay7 (Gen.k0_pay6 k) qn l := rfl

theorem pay5_apply (k : Vec Ideal S512x256 .f32) (qn : Vec Ideal S1024x256 .bf16) (l : Vec Ideal S1024x1 .f32) (r : Fin 1024) :
    Gen.k0_pay5 (F := Ideal) k qn l (ix2 r 0)
      = l (ix2 r 0) + chunkTerm (Cert.Spec.rows qn) (Cert.Spec.rows k) r :=
  (congrFun (pay5_eq k qn l) _).trans (pay7_apply k qn l r)

theorem pay9_apply (k : Vec Ideal S512x256 .f32) (qn : Vec Ideal S1024x256 .bf16) (l : Vec Ideal S1024x1 .f32) (r : Fin 1024) :
    Gen.k0_pay9 (F := Ideal) (Gen.k0_pay8 k qn) l (ix2 r 0)
      = l (ix2 r 0) + chunkTerm (Cert.Spec.rows qn) (Cert.Spec.rows k) r :=
  (congrFun (pay9_eq k qn l) _).trans (pay7_apply k qn l r)

theorem pay1_apply (k : Vec Ideal S512x256 .f32) (qn : Vec Ideal S1024x256 .bf16) (l : Vec Ideal S1024x1 .f32) (r : Fin 1024) :
    Gen.k0_pay1 (F := Ideal) (Gen.k0_pay10 k qn l) (ix2 r 0)
      = l (ix2 r 0) + chunkTerm (Cert.Spec.rows qn) (Cert.Spec.rows k) r :=
  (congrFun (pay1_eq k qn l) _).trans (pay7_apply k qn l r)

end Cert.KernelIdeal.Pay

end
-- ==== Proof.Pay.lean ====
/-
  The kernel body's arithmetic on the extended reals, payload by payload, read at an index: the zero column, the
  normalised query block, the four chunk steps of the running exponential sum, and the final shift plus logarithm.
-/
import proofs.«100509_j81003083202828_2_alg».proof.Proof.PayA
import proofs.«100509_j81003083202828_2_alg».proof.Proof.PayB
-- ==== Proof.KI.Case.lean ====
/-
  What each control case of the kernel body leaves in the buffers it stores into, as the composition of the body's
  pure payloads. Every store of the body covers its whole buffer, so the pieces a case leaves read back as the
  payload of the LAST store, and each load of a buffer after a store into it reads that store's payload. The column
  tile is read in four chunks of 512 rows; the running row sums pass through the four chunk steps in order.
-/
import proofs.«100509_j81003083202828_2_alg».proof.Proof.KI.Frame
import proofs.«100509_j81003083202828_2_alg».proof.Proof.Pay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type}

theorem zero2 : (![0, 0] : Fin 2 → Nat) = fun _ => 0 := funext fun a => by fin_cases a <;> rfl

theorem chunk_inb (j : Fin 4) : ∀ a, (![512 * j.val, 0] : Fin 2 → Nat) a + S512x256.size a ≤ S2048x256.size a :=
  Rect.inb₂ (by have := j.isLt; show 512 * j.val + 512 ≤ 2048; omega) (by show 0 + 256 ≤ 256; omega)

/-- Rows 512 j … 512 j + 511 of the column tile: what a load of the j-th chunk reads of a buffer holding x1. -/
def chunk (x1 : Vec F S2048x256 .f32) (j : Fin 4) : Vec F S512x256 .f32 :=
  View.ld x1 (Rect.unit (s := S2048x256) ![512 * j.val, 0] S512x256.size (chunk_inb j))

theorem chunk_apply (x1 : Vec F S2048x256 .f32) (j : Fin 4) (r : Fin 512) (d : Fin 256) :
    chunk x1 j (ix2 r d) = x1 (ix2 (⟨512 * j.val + r.val, by have := j.isLt; have := r.isLt; omega⟩ : Fin 2048) d) := by
  unfold chunk
  refine congrArg x1 (funext fun a => Fin.ext ?_)
  match a with
  | ⟨0, _⟩ => show 512 * j.val + 1 * r.val = 512 * j.val + r.val; rw [Nat.one_mul]
  | ⟨1, _⟩ => show 0 + 1 * d.val = d.val; rw [Nat.one_mul, Nat.zero_add]

variable [FloatOps F] [Named F]

/-- The four chunk steps of one grid point, in order, from the running column l with the normalised row tile qn. -/
def chain4 (x1 : Vec F S2048x256 .f32) (qn : Vec F S1024x256 .bf16) (l : Vec F S1024x1 .f32) : Vec F S1024x1 .f32 :=
  Gen.k0_pay1 (Gen.k0_pay10 (chunk x1 3) qn (Gen.k0_pay9 (Gen.k0_pay8 (chunk x1 2) qn) (Gen.k0_pay7 (Gen.k0_pay6 (chunk x1 1)) qn (Gen.k0_pay5 (chunk x1 0) qn l))))

/-! ## The pieces each case leaves, read back -/

theorem sout0_A_1_eq (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) :
    sout0_A_1 c i arg2 harg2 arg3 harg3 arg4 harg4 arg5 harg5 arg6 harg6 hc0 hc1 x0 x1 = Gen.k0_pay4 x0 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_run_names
  rw [View.canon_unit_zero zero2]
  simp only [View.readAt_eq_ld, harg2.read_unread, View.ld_unit_zero (S := S1024x256) zero2]

theorem sout0_A_0_eq (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : cond0_0 i) (hc1 : ¬cond0_1 i) (x0 : Vec F S1024x256 .f32) (x1 : Vec F S2048x256 .f32) :
    sout0_A_0 c i arg2 harg2 arg3 harg3 arg4 harg4 arg5 harg5 arg6 harg6 hc0 hc1 x0 x1 = chain4 x1 (Gen.k0_pay4 x0) Gen.k0_pay3 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  rw [View.canon_cons_unit_zero (S := S1024x1) zero2]
  sl_unfold_run_names
  simp only [View.readCov_cons_toLoadRect, View.readAt_eq_ld, harg2.read_unread, harg3.read_unread, View.ld_unit_zero (S := S1024x256) zero2]
  rfl

theorem sout0_B_0_eq (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : ¬cond0_1 i) (x0 : Vec F S1024x256 .f32) (x1 : Vec F S2048x256 .f32) (xs0 : Vec F S1024x1 .f32) (xs1 : Vec F S1024x256 .bf16) :
    sout0_B_0 c i arg2 harg2 arg3 harg3 arg4 harg4 arg5 harg5 arg6 harg6 hc0 hc1 x0 x1 xs0 xs1 = chain4 x1 xs1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_cons_unit_zero (S := S1024x1) zero2]
  sl_unfold_run_names
  simp only [View.readCov_cons_toLoadRect, View.readAt_eq_ld, harg3.read_unread, harg5.read_unread, harg6.read_unread,
    View.ld_unit_zero (S := S1024x256) zero2, View.ld_unit_zero (S := S1024x1) zero2]
  rfl

theorem sout0_C_0_eq (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) :
    sout0_C_0 c i arg2 harg2 arg3 harg3 arg4 harg4 arg5 harg5 arg6 harg6 hc0 hc1 x0 x1 xs0 xs1 = chain4 x1 xs1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_run_names
  rw [View.canon_cons_unit_zero (S := S1024x1) zero2]
  simp only [View.readCov_cons_toLoadRect, View.readAt_eq_ld, harg3.read_unread, harg5.read_unread, harg6.read_unread,
    View.ld_unit_zero (S := S1024x256) zero2, View.ld_unit_zero (S := S1024x1) zero2]
  rfl

theorem out0_C_2_eq (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x256 .bf16) (harg6 : arg6.IsWhole) (hc0 : ¬cond0_0 i) (hc1 : cond0_1 i) (x0 : Vec F S1024x256 .f32) (x1 : Vec F S2048x256 .f32) (xs0 : Vec F S1024x1 .f32) (xs1 : Vec F S1024x256 .bf16) :
    out0_C_2 c i arg2 harg2 arg3 harg3 arg4 harg4 arg5 harg5 arg6 harg6 hc0 hc1 x0 x1 xs0 xs1 = Gen.k0_pay2 (chain4 x1 xs1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  rw [View.canon_unit_zero (S := S1024x1) zero2]
  sl_unfold_run_names
  simp only [View.readCov_cons_toLoadRect, View.readAt_eq_ld, harg3.read_unread, harg5.read_unread, harg6.read_unread,
    View.ld_unit_zero (S := S1024x256) zero2, View.ld_unit_zero (S := S1024x1) zero2]
  rfl

end Cert.KernelIdeal.Fr

end
-- ==== Proof.KI.CaseSum.lean ====
/-
  The four chunk steps of one grid point as ONE sum: on the extended reals the running row sum after the four steps is
  the entering value plus the sum, over all 2048 rows of the column tile, of the exponentials of the scaled and shifted
  inner products with the normalised rows. Normalising a chunk normalises each of its rows by that row's own norm, so
  the chunk's normalised rows are the tile's; a sum over 2048 rows is the sum of the four sums over 512 rows, and
  addition of extended reals is associative, so no finiteness is involved.
-/
import proofs.«100509_j81003083202828_2_alg».proof.Proof.KI.Case

set_option maxRecDepth 16384

noncomputable section

namespace Cert.KernelIdeal.Fr

open Cert.KernelIdeal Cert.KernelIdeal.Gen
open Idealize.ShloMosaic Idealize.ShloMosaic.ValueIdx
open scoped BigOperators

/-- A sum over 2048 positions is the sum over four chunks of the sums over the 512 positions of each. -/
theorem sum_2048 {M : Type*} [AddCommMonoid M] (f : Fin 2048 → M) :
    ∑ k : Fin 2048, f k
      = ∑ c : Fin 4, ∑ j : Fin 512, f ⟨512 * c.val + j.val, by have := c.isLt; have := j.isLt; omega⟩ := by
  have h := (finProdFinEquiv (m := 4) (n := 512)).sum_comp (fun k : Fin (4 * 512) => f k)
  rw [Fintype.sum_prod_type] at h
  refine h.symm.trans (Finset.sum_congr rfl fun c _ => Finset.sum_congr rfl fun j _ => congrArg f (Fin.ext ?_))
  show j.val + 512 * c.val = 512 * c.val + j.val
  omega

/-- The normalised row depends on its own row only. -/
theorem unit_congr_row {n n' k : ℕ} (x : Fin n → Fin k → EReal) (y : Fin n' → Fin k → EReal) (r : Fin n) (r' : Fin n')
    (h : x r = y r') : Cert.Spec.unit x r = Cert.Spec.unit y r' := by
  funext d
  unfold Cert.Spec.unit Cert.Spec.rowNorm
  rw [h]

/-- Row j of chunk c of the column tile is row 512 c + j of the tile. -/
theorem rows_chunk (x1 : Vec Ideal S2048x256 .f32) (c : Fin 4) (j : Fin 512) :
    Cert.Spec.rows (chunk x1 c) j
      = Cert.Spec.rows x1 (⟨512 * c.val + j.val, by have := c.isLt; have := j.isLt; omega⟩ : Fin 2048) :=
  funext fun d => chunk_apply x1 c j d

/-- One chunk's term over the tile's own rows. -/
theorem chunkTerm_chunk (x1 : Vec Ideal S2048x256 .f32) (qn : Vec Ideal S1024x256 .bf16) (r : Fin 1024) (c : Fin 4) :
    Pay.chunkTerm (Cert.Spec.rows qn) (Cert.Spec.rows (chunk x1 c)) r
      = ∑ j : Fin 512, Ideal.exp ((∑ d : Fin 256, Cert.Spec.rows qn r d
          * Cert.Spec.unit (Cert.Spec.rows x1) (⟨512 * c.val + j.val, by have := c.isLt; have := j.isLt; omega⟩ : Fin 2048) d)
          * Cert.Spec.invTemp - Cert.Spec.invTemp) := by
  unfold Pay.chunkTerm
  refine Finset.sum_congr rfl fun j _ => ?_
  rw [unit_congr_row _ _ j _ (rows_chunk x1 c j)]

/-- The running row sum after the four chunk steps of a grid point. -/
theorem chain4_apply (x1 : Vec Ideal S2048x256 .f32) (qn : Vec Ideal S1024x256 .bf16) (l : Vec Ideal S1024x1 .f32) (r : Fin 1024) :
    chain4 x1 qn l (ix2 r 0)
      = l (ix2 r 0) + ∑ j : Fin 2048, Ideal.exp ((∑ d : Fin 256, Cert.Spec.rows qn r d
          * Cert.Spec.unit (Cert.Spec.rows x1) j d) * Cert.Spec.invTemp - Cert.Spec.invTemp) := by
  unfold chain4
  rw [Pay.pay1_apply, Pay.pay9_apply, Pay.pay7_apply, Pay.pay5_apply,
    chunkTerm_chunk x1 qn r 0, chunkTerm_chunk x1 qn r 1, chunkTerm_chunk x1 qn r 2, chunkTerm_chunk x1 qn r 3,
    sum_2048, Fin.sum_univ_four]
  simp only [add_assoc]

end Cert.KernelIdeal.Fr

end
-- ==== Proof.KI.Outs.lean ====
/-
  What the three carried values are after a grid point, case by case, as the payloads' compositions: at a first
  reduction step the normalised row tile is the normalisation of the row-tile block and the running sums are the four
  chunk steps from zero; at a later step the normalised row tile is kept and the running sums go through the four chunk
  steps from what the step before left; at a last step the result column is c + log of the running sums.
-/
import proofs.«100509_j81003083202828_2_alg».proof.Proof.KI.CaseSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem outs_A_22 (c : Dev nD) (t : Fin cfg0.N) (h0 : t.val % 4 = 0) (h1 : ¬t.val % 4 = 3) :
    (outsAt0 m c t.val t.isLt).2.2 = Gen.k0_pay4 (iblk m c 0 t) := by
  have hA := outsAt0_A m c t h0 h1
  have h3 := congrArg Prod.snd (congrArg Prod.snd hA)
  exact h3.trans (sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t))

set_option maxHeartbeats 4000000 in
theorem outs_A_21 (c : Dev nD) (t : Fin cfg0.N) (h0 : t.val % 4 = 0) (h1 : ¬t.val % 4 = 3) :
    (outsAt0 m c t.val t.isLt).2.1 = chain4 (iblk m c 1 t) (Gen.k0_pay4 (iblk m c 0 t)) Gen.k0_pay3 := by
  have hA := outsAt0_A m c t h0 h1
  have h3 := congrArg Prod.fst (congrArg Prod.snd hA)
  exact h3.trans (sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t))

theorem outs_B_22 (c : Dev nD) (t : Fin cfg0.N) (h0 : ¬t.val % 4 = 0) (h1 : ¬t.val % 4 = 3) :
    (outsAt0 m c t.val t.isLt).2.2 = (outsAt0 m c (t.val - 1) (Nat.lt_of_le_of_lt (Nat.sub_le _ _) t.isLt)).2.2 :=
  congrArg (fun p => p.2.2) (outsAt0_B m c t h0 h1)

set_option maxHeartbeats 4000000 in
theorem outs_B_21 (c : Dev nD) (t : Fin cfg0.N) (h0 : ¬t.val % 4 = 0) (h1 : ¬t.val % 4 = 3) :
    (outsAt0 m c t.val t.isLt).2.1 = chain4 (iblk m c 1 t) (outsAt0 m c (t.val - 1) (Nat.lt_of_le_of_lt (Nat.sub_le _ _) t.isLt)).2.2 (outsAt0 m c (t.val - 1) (Nat.lt_of_le_of_lt (Nat.sub_le _ _) t.isLt)).2.1 := by
  have hA := outsAt0_B m c t h0 h1
  have h3 := congrArg Prod.fst (congrArg Prod.snd hA)
  exact h3.trans (sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)

theorem outs_C_22 (c : Dev nD) (t : Fin cfg0.N) (h0 : ¬t.val % 4 = 0) (h1 : t.val % 4 = 3) :
    (outsAt0 m c t.val t.isLt).2.2 = (outsAt0 m c (t.val - 1) (Nat.lt_of_le_of_lt (Nat.sub_le _ _) t.isLt)).2.2 :=
  congrArg (fun p => p.2.2) (outsAt0_C m c t h0 h1)

set_option maxHeartbeats 4000000 in
theorem outs_C_21 (c : Dev nD) (t : Fin cfg0.N) (h0 : ¬t.val % 4 = 0) (h1 : t.val % 4 = 3) :
    (outsAt0 m c t.val t.isLt).2.1 = chain4 (iblk m c 1 t) (outsAt0 m c (t.val - 1) (Nat.lt_of_le_of_lt (Nat.sub_le _ _) t.isLt)).2.2 (outsAt0 m c (t.val - 1) (Nat.lt_of_le_of_lt (Nat.sub_le _ _) t.isLt)).2.1 := by
  have hA := outsAt0_C m c t h0 h1
  have h3 := congrArg Prod.fst (congrArg Prod.snd hA)
  exact h3.trans (sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)

set_option maxHeartbeats 4000000 in
theorem outs_C_1 (c : Dev nD) (t : Fin cfg0.N) (h0 : ¬t.val % 4 = 0) (h1 : t.val % 4 = 3) :
    (outsAt0 m c t.val t.isLt).1 = Gen.k0_pay2 (chain4 (iblk m c 1 t) (outsAt0 m c (t.val - 1) (Nat.lt_of_le_of_lt (Nat.sub_le _ _) t.isLt)).2.2 (outsAt0 m c (t.val - 1) (Nat.lt_of_le_of_lt (Nat.sub_le _ _) t.isLt)).2.1) := by
  have hA := outsAt0_C m c t h0 h1
  have h3 := congrArg Prod.fst hA
  exact h3.trans (out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)

end Cert.KernelIdeal.Fr

end
-- ==== Proof.PartialSum.lean ====
/-
  Running sums of a function over an initial segment of the 8192 positions, as they grow 2048
  positions at a time: the sum over the positions below n is 0 at n = 0, is the whole sum at n = 8192,
  and the sum below 2048 (k + 1) is the sum below 2048 k plus the sum over the k-th block of 2048
  positions (the positions below 2048 (k + 1) are those below 2048 k together with, disjointly, the
  positions 2048 k + j, j < 2048). Stated in any commutative additive monoid.
-/
import Mathlib.Algebra.BigOperators.Fin
import Mathlib.Algebra.BigOperators.Group.Finset.Basic

namespace Cert.Partial

open Finset

variable {M : Type*} [AddCommMonoid M]

/-- The sum of g over the positions below n. -/
def upTo (g : Fin 8192 → M) (n : ℕ) : M := ∑ j ∈ univ.filter (fun j : Fin 8192 => j.val < n), g j

theorem upTo_zero (g : Fin 8192 → M) : upTo g 0 = 0 := by
  unfold upTo
  rw [Finset.filter_false_of_mem (fun j _ => Nat.not_lt_zero _), Finset.sum_empty]

theorem upTo_full (g : Fin 8192 → M) : upTo g 8192 = ∑ j : Fin 8192, g j := by
  unfold upTo
  rw [Finset.filter_true_of_mem (fun j _ => j.isLt)]

/-- The k-th block of 2048 positions, as a map from the position inside the block. -/
def blockPos (k : ℕ) (hk : k < 4) (j : Fin 2048) : Fin 8192 := ⟨2048 * k + j.val, by omega⟩

theorem blockPos_injective (k : ℕ) (hk : k < 4) : Function.Injective (blockPos k hk) := by
  intro i i' h
  have h' : 2048 * k + i.val = 2048 * k + i'.val := congrArg Fin.val h
  exact Fin.ext (by omega)

/-- The positions below 2048 (k + 1): those below 2048 k, and the k-th block. -/
theorem filter_lt_succ (k : ℕ) (hk : k < 4) :
    univ.filter (fun j : Fin 8192 => j.val < 2048 * (k + 1))
      = univ.filter (fun j : Fin 8192 => j.val < 2048 * k) ∪ univ.image (blockPos k hk) := by
  ext j
  simp only [mem_filter, mem_univ, true_and, mem_union, mem_image]
  constructor
  · intro h
    by_cases h' : j.val < 2048 * k
    · exact Or.inl h'
    · exact Or.inr ⟨⟨j.val - 2048 * k, by omega⟩, Fin.ext (by show 2048 * k + (j.val - 2048 * k) = j.val; omega)⟩
  · rintro (h | ⟨i, rfl⟩)
    · omega
    · show 2048 * k + i.val < 2048 * (k + 1); omega

theorem disjoint_lt_block (k : ℕ) (hk : k < 4) :
    Disjoint (univ.filter (fun j : Fin 8192 => j.val < 2048 * k)) (univ.image (blockPos k hk)) := by
  rw [Finset.disjoint_left]
  intro j hj hj'
  simp only [mem_filter, mem_univ, true_and, mem_image] at hj hj'
  obtain ⟨i, rfl⟩ := hj'
  have : 2048 * k + i.val < 2048 * k := hj
  omega

theorem upTo_step (g : Fin 8192 → M) (k : ℕ) (hk : k < 4) :
    upTo g (2048 * (k + 1)) = upTo g (2048 * k) + ∑ j : Fin 2048, g ⟨2048 * k + j.val, by omega⟩ := by
  unfold upTo
  rw [filter_lt_succ k hk, Finset.sum_union (disjoint_lt_block k hk),
    Finset.sum_image (fun i _ i' _ h => blockPos_injective k hk h)]
  rfl

end Cert.Partial
-- ==== Proof.KI.Inv.lean ====
/-
  What the two accumulators hold after every grid point, on the extended reals. Write u for the stacked array with
  every row divided by its clamped norm, and e i j = exp (<u_i, u_j> * c - c). After reduction step s of row tile q
  the normalised row tile holds rows 1024 q … of u, and row r of the running sums holds the sum of e (1024 q + r) j
  over the first 2048 (s + 1) columns j.
-/
import proofs.«100509_j81003083202828_2_alg».proof.Proof.KI.Blocks
import proofs.«100509_j81003083202828_2_alg».proof.Proof.KI.Outs
import proofs.«100509_j81003083202828_2_alg».proof.Proof.PartialSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-- The stacked array's rows, as the region finds it. -/
def zr (c : Dev nD) : Fin 8192 → Fin 256 → EReal := Cert.Spec.rows (V (F := Ideal) m c main_v0)
/-- Its rows divided by their clamped norms. -/
def un (c : Dev nD) : Fin 8192 → Fin 256 → EReal := Cert.Spec.unit (zr m c)
/-- The term row i contributes for column j. -/
def ee (c : Dev nD) (i j : Fin 8192) : EReal :=
  Ideal.exp (Cert.Spec.inner (un m c) i j * Cert.Spec.invTemp - Cert.Spec.invTemp)

/-- The row of the stacked array a tile row is. -/
def rowOf (n : ℕ) (hn : n < cfg0.N) (r : Fin 1024) : Fin 8192 :=
  ⟨1024 * (n / 4) + r.val, by have h : n < 32 := lt_of_lt_of_eq hn (show cfg0.N = 32 from N_0); have := r.isLt; omega⟩

theorem unit_iblk0 (c : Dev nD) (t : Fin cfg0.N) (r : Fin 1024) (d : Fin 256) :
    Cert.Spec.unit (Cert.Spec.rows (iblk (F := Ideal) m c 0 t)) r d = un m c (rowOf t.val t.isLt r) d :=
  congrFun (unit_congr_row (Cert.Spec.rows (iblk (F := Ideal) m c 0 t)) (zr m c) r (rowOf t.val t.isLt r)
    (funext fun d' => iblk0_apply (F := Ideal) m c t r d')) d

theorem unit_iblk1 (c : Dev nD) (t : Fin cfg0.N) (j : Fin 2048) (d : Fin 256) :
    Cert.Spec.unit (Cert.Spec.rows (iblk (F := Ideal) m c 1 t)) j d = un m c (⟨2048 * (t.val % 4) + j.val, by have := j.isLt; omega⟩ : Fin 8192) d :=
  congrFun (unit_congr_row (Cert.Spec.rows (iblk (F := Ideal) m c 1 t)) (zr m c) j (⟨2048 * (t.val % 4) + j.val, by have := j.isLt; omega⟩ : Fin 8192)
    (funext fun d' => iblk1_apply (F := Ideal) m c t j d')) d

/-- One reduction step's contribution, from the normalised row tile and the column tile at the point. -/
theorem step_sum (c : Dev nD) (t : Fin cfg0.N) (qn : Vec Ideal S1024x256 .bf16) (r : Fin 1024)
    (hq : ∀ d, qn (ix2 r d) = un m c (rowOf t.val t.isLt r) d) :
    (∑ j : Fin 2048, Ideal.exp ((∑ d : Fin 256, Cert.Spec.rows qn r d * Cert.Spec.unit (Cert.Spec.rows (iblk (F := Ideal) m c 1 t)) j d) * Cert.Spec.invTemp - Cert.Spec.invTemp))
      = ∑ j : Fin 2048, ee m c (rowOf t.val t.isLt r) (⟨2048 * (t.val % 4) + j.val, by have := j.isLt; omega⟩ : Fin 8192) := by
  refine Finset.sum_congr rfl fun j _ => ?_
  unfold ee Cert.Spec.inner
  refine congrArg (fun s => Ideal.exp (s * Cert.Spec.invTemp - Cert.Spec.invTemp)) ?_
  refine Finset.sum_congr rfl fun d _ => ?_
  rw [unit_iblk1 m c t j d]
  exact congrArg (· * _) (hq d)

/-- The invariant's two halves at one point. -/
def InvAt (c : Dev nD) (n : ℕ) (hn : n < cfg0.N) : Prop :=
  (∀ (r : Fin 1024) (d : Fin 256), (outsAt0 (F := Ideal) m c n hn).2.2 (ix2 r d) = un m c (rowOf n hn r) d)
  ∧ (∀ r : Fin 1024, (outsAt0 (F := Ideal) m c n hn).2.1 (ix2 r 0) = Cert.Partial.upTo (ee m c (rowOf n hn r)) (2048 * (n % 4 + 1)))

/-- A first reduction step establishes it. -/
theorem inv_first (c : Dev nD) (t : Fin cfg0.N) (h0 : t.val % 4 = 0) : InvAt m c t.val t.isLt := by
  have h1 : ¬ t.val % 4 = 3 := by omega
  have hqn : ∀ (r : Fin 1024) (d : Fin 256), (outsAt0 (F := Ideal) m c t.val t.isLt).2.2 (ix2 r d) = un m c (rowOf t.val t.isLt r) d := by
    intro r d
    rw [outs_A_22 (F := Ideal) m c t h0 h1, Cert.KernelIdeal.Pay.pay4_apply]
    exact unit_iblk0 m c t r d
  refine ⟨hqn, fun r => ?_⟩
  rw [outs_A_21 (F := Ideal) m c t h0 h1, chain4_apply, Cert.KernelIdeal.Pay.pay3_apply,
    step_sum m c t _ r (fun d => by rw [← outs_A_22 (F := Ideal) m c t h0 h1]; exact hqn r d)]
  have e1 : (∑ j : Fin 2048, ee m c (rowOf t.val t.isLt r) (⟨2048 * (t.val % 4) + j.val, by have := j.isLt; omega⟩ : Fin 8192))
      = ∑ j : Fin 2048, ee m c (rowOf t.val t.isLt r) (⟨2048 * 0 + j.val, by have := j.isLt; omega⟩ : Fin 8192) :=
    Finset.sum_congr rfl fun j _ => congrArg _ (Fin.ext (by show 2048 * (t.val % 4) + j.val = 2048 * 0 + j.val; rw [h0]))
  rw [zero_add, e1, show 2048 * (t.val % 4 + 1) = 2048 * (0 + 1) from by rw [h0], Cert.Partial.upTo_step _ 0 (by omega),
    Cert.Partial.upTo_zero, zero_add]

/-- A later reduction step carries it on. -/
theorem inv_next (c : Dev nD) (t : Fin cfg0.N) (h0 : ¬ t.val % 4 = 0)
    (ih : InvAt m c (t.val - 1) (Nat.lt_of_le_of_lt (Nat.sub_le _ _) t.isLt)) : InvAt m c t.val t.isLt := by
  obtain ⟨ihq, ihl⟩ := ih
  have hrow : ∀ r, rowOf (t.val - 1) (Nat.lt_of_le_of_lt (Nat.sub_le _ _) t.isLt) r = rowOf t.val t.isLt r := fun r => Fin.ext (by
    show 1024 * ((t.val - 1) / 4) + r.val = 1024 * (t.val / 4) + r.val; omega)
  have hmod : (t.val - 1) % 4 + 1 = t.val % 4 := by omega
  have h22 : (outsAt0 (F := Ideal) m c t.val t.isLt).2.2 = (outsAt0 (F := Ideal) m c (t.val - 1) (Nat.lt_of_le_of_lt (Nat.sub_le _ _) t.isLt)).2.2 := by
    by_cases h1 : t.val % 4 = 3
    · exact outs_C_22 (F := Ideal) m c t h0 h1
    · exact outs_B_22 (F := Ideal) m c t h0 h1
  have h21 : (outsAt0 (F := Ideal) m c t.val t.isLt).2.1 = chain4 (iblk (F := Ideal) m c 1 t) (outsAt0 (F := Ideal) m c (t.val - 1) (Nat.lt_of_le_of_lt (Nat.sub_le _ _) t.isLt)).2.2 (outsAt0 (F := Ideal) m c (t.val - 1) (Nat.lt_of_le_of_lt (Nat.sub_le _ _) t.isLt)).2.1 := by
    by_cases h1 : t.val % 4 = 3
    · exact outs_C_21 (F := Ideal) m c t h0 h1
    · exact outs_B_21 (F := Ideal) m c t h0 h1
  refine ⟨fun r d => ?_, fun r => ?_⟩
  · rw [h22, ihq r d, hrow]
  · rw [h21, chain4_apply, ihl r, step_sum m c t _ r (fun d => by rw [ihq r d, hrow]), hrow, hmod,
      Cert.Partial.upTo_step _ (t.val % 4) (by omega)]

/-- THE INVARIANT holds after every point. -/
theorem inv (c : Dev nD) : ∀ (n : ℕ) (hn : n < cfg0.N), InvAt m c n hn := by
  intro n
  induction n with
  | zero => intro hn; exact inv_first m c ⟨0, hn⟩ rfl
  | succ n ih =>
    intro hn
    by_cases h0 : (n + 1) % 4 = 0
    · exact inv_first m c ⟨n + 1, hn⟩ h0
    · exact inv_next m c ⟨n + 1, hn⟩ h0 (ih (Nat.lt_of_succ_lt hn))

end Cert.KernelIdeal.Fr

end
-- ==== Proof.HostOpsRead.lean ====
/-
  Single array operations read at an index, over the extended reals, for any extents.

  * A sum of an `[a, b]` matrix over its second axis from an initial value is, at row `p`, the initial value plus
    the sum of the `b` entries of row `p`; a sum of an `[n]` vector over its only axis is the initial value plus
    the sum of its `n` entries.
  * An `[a]` vector laid as an `[a, 1]` column reads, at `(p, u)`, the vector at `p`; an `[a, 1]` column repeated
    along the rows to `[a, b]` reads, at `(p, c)`, the column at `(p, 0)`.
  * An `[n, 1]` column re-laid as an `[n]` vector reads, at `k`, the column at `(k, 0)`: the row-major positions
    are `k · 1 + 0` and `k`.
-/
import Idealize.ShloMosaic.Lib.IdealHost
import Idealize.ShloMosaic.Lib.Pipeline.Value

noncomputable section

namespace Cert.KernelIdeal.HostValue

open scoped BigOperators
open Idealize.ShloMosaic Idealize.ShloMosaic.ValueIdx

variable {α : Type}

/-- A sum over the second axis of an `[a, b]` matrix, at row `p`: the initial value plus the row's sum. -/
theorem hostRowSum_apply {a b : ℕ} {φ : FTy} (x : FVec Ideal ⟨2, ![a, b]⟩ φ) (init : FVec Ideal ⟨0, ![]⟩ φ)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h, eq_ix0 (Shape.Idx.first hu)]
  refine congrArg (init ix0 + ·) (Finset.sum_congr rfl fun k _ => congrArg x (funext fun ax => Fin.ext ?_))
  match ax with
  | ⟨0, _⟩ => rfl
  | ⟨1, _⟩ => rfl

/-- The indices of an `[n]` vector are its `n` positions. -/
def idxEquiv1 {n : ℕ} : (⟨1, ![n]⟩ : Shape).Idx ≃ Fin n where
  toFun j := j 0
  invFun := ix1
  left_inv j := (eq_ix1 j).symm
  right_inv _ := rfl

/-- A sum of an `[n]` vector over its only axis: the initial value plus the sum of the entries. -/
theorem hostVecSum_apply {n : ℕ} {φ : FTy} (x : FVec Ideal ⟨1, ![n]⟩ φ) (init : FVec Ideal ⟨0, ![]⟩ φ)
    (h' : Shape.ReducesTo ⟨1, ![n]⟩ [0] ⟨0, ![]⟩) (hu : 0 < (⟨0, ![]⟩ : Shape).numel) (j : (⟨0, ![]⟩ : Shape).Idx) :
    Host.reduceAdd x init h' hu j = init ix0 + ∑ k : Fin n, x (ix1 k) := by
  rw [hostReduceAdd_apply, Ideal.hostReduceAdd_total h' (fun b => b.elim0), eq_ix0 (Shape.Idx.first hu)]
  exact congrArg (init ix0 + ·) (Fintype.sum_equiv idxEquiv1 x (fun k => x (ix1 k)) fun i => congrArg x (eq_ix1 i))

/-- An `[a]` vector laid as an `[a, 1]` column reads, at `(p, u)`, the vector at `p`. -/
theorem bcast_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column repeated along the rows to `[a, b]` reads, at `(p, c)`, the column's entry `p`. -/
theorem bcast_rows_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- An `[n, 1]` column re-laid as an `[n]` vector reads, at `k`, the column at `(k, 0)`. -/
theorem shapeCast_col_vec_apply {n : ℕ} (x : (⟨2, ![n, 1]⟩ : Shape).Idx → α)
    (h : (⟨2, ![n, 1]⟩ : Shape).ShapeCasts ⟨1, ![n]⟩) (k : Fin n) :
    shapeCast ⟨1, ![n]⟩ x h (ix1 k) = x (ix2 k (0 : Fin 1)) :=
  shapeCast_apply x h _ _ (by
    rw [Shape.rowMajor_val_two, Shape.rowMajor_val_one]
    show k.val * 1 + 0 = k.val
    omega)

end Cert.KernelIdeal.HostValue

end
-- ==== Proof.HostTailPure.lean ====
/-
  The host operations after the kernel call, as pure functions of the three arrays they read, and what they compute.

  With `a`, `b` the two 4096 x 256 arguments and `v` the 8192 x 1 column the kernel call leaves, the operations are:
  each argument's rows divided by their clamped norms (`unitMat`: the squares summed along a row, the square root,
  the maximum with the clamp, the quotient), the row-wise inner products of the two normalised matrices divided by
  the temperature and summed, doubled, taken from the sum of the column `v`, and the difference divided by the row
  count (`tailFn`). Read entry by entry these are the specification's `unit`, `kernelPair` and the outer formula of
  `kernelLoss` with the column's entries in place of the per-row terms.
-/
import proofs.«100509_j81003083202828_2_alg».proof.Proof.Gen.KernelIdeal
import proofs.«100509_j81003083202828_2_alg».proof.Proof.Spec
import proofs.«100509_j81003083202828_2_alg».proof.Proof.HostOpsRead

noncomputable section

namespace Cert.KernelIdeal.HostValue

open scoped BigOperators
open Idealize.ShloMosaic Idealize.ShloMosaic.ValueIdx
open Cert.KernelIdeal Cert.KernelIdeal.Gen

/-- The column of the rows' norms: square root of the sum of the squares along each row. -/
def normCol (x : FVec Ideal S4096x256 .f32) : FVec Ideal S4096x1 .f32 :=
  Host.sqrt (broadcastInDim (s := S4096) S4096x1 ![0] bcast_S4096_S4096x1_0
    (Host.reduceAdd (mulf x x) (constant (F := Ideal) S_ .f32 0x00000000#32) reducesTo_S4096x256_S4096_d1 h_S_))

/-- The matrix with each row divided by its norm clamped from below. -/
def unitMat (x : FVec Ideal S4096x256 .f32) : FVec Ideal S4096x256 .f32 :=
  Host.divf x (broadcastInDim (s := S4096x1) S4096x256 ![0, 1] bcast_S4096x1_S4096x256_0_1
    (maximumf (normCol x) (broadcastInDim (s := S_) S4096x1 ![] bcast_S_S4096x1 (constant (F := Ideal) S_ .f32 0x2B8CBCCC#32))))

/-- The column of the row-wise inner products of the two normalised matrices, each divided by the temperature. -/
def pairVec (a b : FVec Ideal S4096x256 .f32) : FVec Ideal S4096 .f32 :=
  Host.divf
    (Host.reduceAdd (mulf (unitMat a) (unitMat b)) (constant (F := Ideal) S_ .f32 0x00000000#32) reducesTo_S4096x256_S4096_d1 h_S_)
    (broadcastInDim (s := S_) S4096 ![] bcast_S_S4096 (constant (F := Ideal) S_ .f32 0x3D8F5C29#32))

/-- The result of the operations after the kernel call, from the two arguments and the kernel call's column. -/
def tailFn (a b : FVec Ideal S4096x256 .f32) (v : FVec Ideal S8192x1 .f32) : FVec Ideal S_ .f32 :=
  Host.divf
    (subf
      (Host.reduceAdd (fun i => shapeCast S8192 v shapeCasts_S8192x1_S8192 i) (constant (F := Ideal) S_ .f32 0x00000000#32)
        reducesTo_S8192_S_d0 h_S_)
      (mulf (constant (F := Ideal) S_ .f32 0x40000000#32)
        (Host.reduceAdd (pairVec a b) (constant (F := Ideal) S_ .f32 0x00000000#32) reducesTo_S4096_S_d0 h_S_)))
    (constant (F := Ideal) S_ .f32 0x46000000#32)

/-- A square root taken entry by entry. -/
theorem hostSqrt_apply {s : Shape} {φ : FTy} (x : FVec Ideal s φ) (i : s.Idx) : Host.sqrt x i = Ideal.sqrt (x i) := rfl

/-- The norm column at row `r`: the square root of the sum of the squares of row `r`. -/
theorem normCol_apply (x : FVec Ideal S4096x256 .f32) (r : Fin 4096) (u : Fin 1) :
    normCol x (ix2 r u) = Ideal.sqrt (∑ d : Fin 256, x (ix2 r d) * x (ix2 r d)) := by
  have hr : S4096x256.Reduces [1] S4096 := by decide
  unfold normCol
  rw [hostSqrt_apply, bcast_col_apply, hostRowSum_apply _ _ _ hr, constant_apply, Ideal.ofBits_zero_f32, zero_add]
  rfl

/-- The normalised matrix, entry by entry, is the specification's. -/
theorem unitMat_apply (x : FVec Ideal S4096x256 .f32) (r : Fin 4096) (d : Fin 256) :
    unitMat x (ix2 r d) = Cert.Spec.unit (Cert.Spec.rows x) r d := by
  unfold unitMat
  rw [hostDivf_apply, bcast_rows_apply, maximumf_apply, normCol_apply, broadcastInDim_scalar_apply, constant_apply]
  rfl

/-- The pair column at row `r` is the specification's partner term. -/
theorem pairVec_apply (a b : FVec Ideal S4096x256 .f32) (r : Fin 4096) :
    pairVec a b (ix1 r) = Cert.Spec.kernelPair (Cert.Spec.rows a) (Cert.Spec.rows b) r := by
  have hr : S4096x256.Reduces [1] S4096 := by decide
  unfold pairVec
  rw [hostDivf_apply, hostRowSum_apply _ _ _ hr, constant_apply, Ideal.ofBits_zero_f32, zero_add, broadcastInDim_scalar_apply,
    constant_apply]
  unfold Cert.Spec.kernelPair Cert.Spec.temp
  refine congrArg (Ideal.div · _) (Finset.sum_congr rfl fun d _ => ?_)
  rw [mulf_apply, unitMat_apply, unitMat_apply]

/-- The operations' result: the column's sum less twice the partner terms' sum, over the row count. -/
theorem tailFn_eq (a b : FVec Ideal S4096x256 .f32) (v : FVec Ideal S8192x1 .f32) :
    tailFn a b v = fun _ => Ideal.div ((∑ i : Fin 8192, v (ix2 i (0 : Fin 1)))
      - Cert.Spec.two * ∑ r : Fin 4096, Cert.Spec.kernelPair (Cert.Spec.rows a) (Cert.Spec.rows b) r) Cert.Spec.count := by
  funext j
  unfold tailFn
  rw [hostDivf_apply, subf_apply, mulf_apply, hostVecSum_apply, hostVecSum_apply, constant_apply, constant_apply,
    constant_apply, Ideal.ofBits_zero_f32, zero_add, zero_add]
  unfold Cert.Spec.two Cert.Spec.count
  refine congrArg (Ideal.div · _) ?_
  refine congrArg₂ (fun s t => s - Ideal.ofBits .f32 0x40000000#32 * t) (Finset.sum_congr rfl fun i _ => ?_)
    (Finset.sum_congr rfl fun r _ => ?_)
  · exact shapeCast_col_vec_apply v shapeCasts_S8192x1_S8192 i
  · exact pairVec_apply a b r

end Cert.KernelIdeal.HostValue

end
-- ==== Proof.HostValue.lean ====
/-
  What the operations around the kernel call leave in the buffers, from any contents.

  Before the call, one operation stacks the two arguments into one 8192-row matrix. After it, the operations read the
  two arguments and the call's output column and leave, in the result buffer, the column's sum less twice the sum of
  the partner terms, over the row count. Neither stretch writes an argument buffer.
-/
import proofs.«100509_j81003083202828_2_alg».proof.Proof.Gen.KernelIdeal.Launch
import proofs.«100509_j81003083202828_2_alg».proof.Proof.HostTailPure
import Idealize.ShloMosaic.Lib.StableHlo.Run

noncomputable section

namespace Cert.KernelIdeal.HostValue

open scoped BigOperators
open Idealize.ShloMosaic Idealize.ShloMosaic.StableHlo Idealize.ShloMosaic.ValueIdx
open Cert.KernelIdeal Cert.KernelIdeal.Gen

/-- The two argument matrices and the call's output column in given contents, as functions to the extended reals. -/
abbrev arg0Of (W : Valuation τ sig (Elt Ideal)) : S4096x256.Idx → EReal := W (Proc.devRef .tc main_arg0)
@[inherit_doc arg0Of]
abbrev arg1Of (W : Valuation τ sig (Elt Ideal)) : S4096x256.Idx → EReal := W (Proc.devRef .tc main_arg1)
@[inherit_doc arg0Of]
abbrev colOf (W : Valuation τ sig (Elt Ideal)) : S8192x1.Idx → EReal := W (Proc.devRef .tc main_v1)

/-- The stacked matrix, entry by entry: the first argument's rows, then the second's. -/
theorem prefix_v0 (W : Valuation τ sig (Elt Ideal)) (i : Fin 8192) (d : Fin 256) :
    StableHlo.after (hostOps0 (F := Ideal)) W (Proc.devRef .tc main_v0) (ix2 i d)
      = Cert.Spec.stack (Cert.Spec.rows (arg0Of W)) (Cert.Spec.rows (arg1Of W)) i d := by
  have e : StableHlo.after (hostOps0 (F := Ideal)) W (Proc.devRef .tc main_v0)
      = concatenate S8192x256 0 [⟨S4096x256, W (Proc.devRef .tc main_arg0)⟩, ⟨S4096x256, W (Proc.devRef .tc main_arg1)⟩]
          concatenates_S4096x256_S4096x256_S8192x256_d0 := by
    after_results
    try rfl
  rw [e]
  unfold Cert.Spec.stack Cert.Spec.rows
  by_cases h : i.val < 4096
  · rw [dif_pos h]
    refine concatenate_pair_apply_left (t := S8192x256) (s₁ := S4096x256) (s₂ := S4096x256) 0 _ _ _ (ix2 i d) rfl
      (ix2 (⟨i.val, h⟩ : Fin 4096) d) fun b => ?_
    match b with
    | ⟨0, _⟩ => rfl
    | ⟨1, _⟩ => rfl
  · rw [dif_neg h]
    refine concatenate_pair_apply_right (t := S8192x256) (s₁ := S4096x256) (s₂ := S4096x256) 0 _ _ _ (ix2 i d) rfl rfl
      (ix2 (⟨i.val - 4096, by omega⟩ : Fin 4096) d) (fun b hb => ?_) ?_
    · match b with
      | ⟨0, _⟩ => exact absurd rfl hb
      | ⟨1, _⟩ => rfl
    · show i.val - 4096 + 4096 = i.val
      omega

/-- The operations after the call leave the pure function `tailFn` of the arguments and the call's column. -/
theorem tail_term (W : Valuation τ sig (Elt Ideal)) :
    StableHlo.after (List.flatten [hostOps1 (F := Ideal), hostOps1_1, hostOps1_2, hostOps1_3, hostOps1_4]) W (Proc.devRef .tc main_v21)
      = tailFn (arg0Of W) (arg1Of W) (colOf W) := by
  simp only [hostOps1, hostOps1_1, hostOps1_2, hostOps1_3, hostOps1_4, List.flatten_cons, List.flatten_nil, List.append_nil,
    List.cons_append, List.nil_append]
  after_results_simp
  rfl

/-- The result: the column's sum less twice the partner terms' sum, over the row count. -/
theorem tail_result (W : Valuation τ sig (Elt Ideal)) :
    StableHlo.after (List.flatten [hostOps1 (F := Ideal), hostOps1_1, hostOps1_2, hostOps1_3, hostOps1_4]) W (Proc.devRef .tc main_v21)
      = fun _ => Ideal.div ((∑ i : Fin 8192, colOf W (ix2 i (0 : Fin 1)))
          - Cert.Spec.two * ∑ r : Fin 4096, Cert.Spec.kernelPair (Cert.Spec.rows (arg0Of W)) (Cert.Spec.rows (arg1Of W)) r)
            Cert.Spec.count :=
  (tail_term W).trans (tailFn_eq _ _ _)

/-- The operations after the call write neither argument. -/
theorem tail_keeps_arg0 (W : Valuation τ sig (Elt Ideal)) :
    StableHlo.after (List.flatten [hostOps1 (F := Ideal), hostOps1_1, hostOps1_2, hostOps1_3, hostOps1_4]) W (Proc.devRef .tc main_arg0)
      = W (Proc.devRef .tc main_arg0) := by
  simp only [hostOps1, hostOps1_1, hostOps1_2, hostOps1_3, hostOps1_4, List.flatten_cons, List.flatten_nil, List.append_nil,
    List.cons_append, List.nil_append]
  after_results_simp

theorem tail_keeps_arg1 (W : Valuation τ sig (Elt Ideal)) :
    StableHlo.after (List.flatten [hostOps1 (F := Ideal), hostOps1_1, hostOps1_2, hostOps1_3, hostOps1_4]) W (Proc.devRef .tc main_arg1)
      = W (Proc.devRef .tc main_arg1) := by
  simp only [hostOps1, hostOps1_1, hostOps1_2, hostOps1_3, hostOps1_4, List.flatten_cons, List.flatten_nil, List.append_nil,
    List.cons_append, List.nil_append]
  after_results_simp

/-- The stacking writes neither argument. -/
theorem prefix_keeps_arg0 (W : Valuation τ sig (Elt Ideal)) :
    StableHlo.after (hostOps0 (F := Ideal)) W (Proc.devRef .tc main_arg0) = W (Proc.devRef .tc main_arg0) := by
  after_results

theorem prefix_keeps_arg1 (W : Valuation τ sig (Elt Ideal)) :
    StableHlo.after (hostOps0 (F := Ideal)) W (Proc.devRef .tc main_arg1) = W (Proc.devRef .tc main_arg1) := by
  after_results

end Cert.KernelIdeal.HostValue

end
-- ==== Proof.KI.Final.lean ====
/-
  The launch's result column as one function of the stacked array, and the whole program's result. Every block of the
  result column is written back once, at the last reduction step of its row tile, from the full running sums: row i ends
  at c + log (sum over all 8192 columns j of exp (<u_i, u_j> * c - c)). The lines after the launch then leave the
  column's sum less twice the partner terms' sum, over the row count.
-/
import proofs.«100509_j81003083202828_2_alg».proof.Proof.KI.Inv
import proofs.«100509_j81003083202828_2_alg».proof.Proof.HostValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-- The result column, row by row, from the stacked array as the region finds it. -/
def colG (c : Dev nD) : S8192x1.Idx → EReal := fun i => Cert.Spec.kernelLse (zr m c) (⟨(i 0).val, idx2_lt0 i⟩ : Fin 8192)

/-- What a last reduction step writes back is its block of that column. -/
theorem flushed2_eq (c : Dev nD) (t : Fin cfg0.N) (hf : (cfg0.win 2).flush t = true) :
    (dats (F := Ideal) m 0 c).flushed 2 t = ((cfg0.win 2).blk t).view.read (Elt Ideal) (colG m c) := by
  have h1 : t.val % 4 = 3 := (flush0_2 t).mp hf
  have h0 : ¬ t.val % 4 = 0 := by omega
  show (cfg0.win 2).cut (grid0.coords t) ((dats (F := Ideal) m 0 c).after 2 t) = _
  rw [after0_2]
  funext j
  obtain ⟨r, u, rfl⟩ : ∃ (r : Fin 1024) (u : Fin 1), j = ix2 r u := ⟨j 0, j 1, eq_ix2 j⟩
  obtain rfl : u = 0 := Subsingleton.elim _ _
  show (outsAt0 (F := Ideal) m c t.val t.isLt).1 (ix2 r 0) = colG m c (((cfg0.win 2).blk t).view.emb (ix2 r 0))
  rw [emb2_row t r 0]
  rw [outs_C_1 (F := Ideal) m c t h0 h1, ← outs_C_21 (F := Ideal) m c t h0 h1, Cert.KernelIdeal.Pay.pay2_apply, (inv m c t.val t.isLt).2 r,
    show 2048 * (t.val % 4 + 1) = 8192 from by omega, Cert.Partial.upTo_full]
  rfl

/-- The result array after the run. -/
theorem final2 (c : Dev nD) : (dats (F := Ideal) m 0 c).arrAt 2 cfg0.N = colG m c :=
  (dats (F := Ideal) m 0 c).arrAt_eq_of_cover 2 (colG m c) (fun t hf => flushed2_eq m c t hf) cover2

/-- The stacked array's rows are the two arguments' rows, one after the other. -/
theorem zr_eq (c : Dev nD) : zr m c = Cert.Spec.stack (Cert.Spec.rows (m ((c.tc : Thread nD τ).loc main_arg0))) (Cert.Spec.rows (m ((c.tc : Thread nD τ).loc main_arg1))) := by
  funext i d
  exact Cert.KernelIdeal.HostValue.prefix_v0 (fun b => m (c, b)) i d

/-- THE PROGRAM'S RUN, with its value: every execution terminates without a fault, the result is the kernel's loss
    formula of the two arguments, and the arguments end unchanged. -/
theorem run_value : θ_run defs (onTc (τ := τ) (main (F := Ideal))) ⟨m, fun _ => 0, ρ⟩ (fun r => ∀ c : Dev nD,
      r.2.mem ((c.tc : Thread nD τ).loc main_v21) = (fun _ => Cert.Spec.kernelLoss (Cert.Spec.rows (m ((c.tc : Thread nD τ).loc main_arg0))) (Cert.Spec.rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun s h c => ⟨?_,
    kept_of_run m main_arg0 rfl (by decide) (by decide) (by decide) (by decide) s h c,
    kept_of_run m main_arg1 rfl (by decide) (by decide) (by decide) (by decide) s h c⟩) (run_main (F := Ideal) m ρ)
  refine ((h c).2 main_v21 (Pipeline.mem_restRefs_of main_v21 rfl (by decide))).trans ?_
  refine (Cert.KernelIdeal.HostValue.tail_result (Wx (F := Ideal) m c)).trans ?_
  funext _
  unfold Cert.Spec.kernelLoss
  have hcol : ∀ i : Fin 8192, Cert.KernelIdeal.HostValue.colOf (Wx (F := Ideal) m c) (ix2 i (0 : Fin 1)) = Cert.Spec.kernelLse (zr m c) i := by
    intro i
    show Wx (F := Ideal) m c (Proc.devRef .tc main_v1) (ix2 i (0 : Fin 1)) = _
    rw [Wx_result, final2]
    rfl
  have ha0 : Cert.KernelIdeal.HostValue.arg0Of (Wx (F := Ideal) m c) = m ((c.tc : Thread nD τ).loc main_arg0) :=
    (Wx_other m c main_arg0 (by decide)).trans (V0_arg m c main_arg0 (by decide))
  have ha1 : Cert.KernelIdeal.HostValue.arg1Of (Wx (F := Ideal) m c) = m ((c.tc : Thread nD τ).loc main_arg1) :=
    (Wx_other m c main_arg1 (by decide)).trans (V0_arg m c main_arg1 (by decide))
  simp only [hcol, ha0, ha1, zr_eq]

end Cert.KernelIdeal.Fr

end
-- ==== Proof.RefNorm.lean ====
/-
  The reference's two row normalisations, read at coordinates.

  Each argument matrix is squared entry by entry, summed along its rows from zero, the square root taken, clamped below
  by the small constant, spread back over the columns, and the argument divided by it. At (r, d) this is the entry
  x r d divided by max (sqrt (sum over k of x r k * x r k)) eps: the normalised matrix of the specification.
-/
import proofs.«100509_j81003083202828_2_alg».proof.Proof.RefReadP
import proofs.«100509_j81003083202828_2_alg».proof.Proof.Spec

noncomputable section

open scoped BigOperators

namespace Cert.RefValue

open Idealize.ShloMosaic Idealize.ShloMosaic.ValueIdx Cert.ReferenceIdeal Cert.ReferenceIdeal.Gen Cert.ReferenceIdeal.ReadP Cert.Spec

/-- The first argument's normalisation at (r, d) is the specification's normalised entry. -/
theorem unit_fst (z : (⟨S4096x256, .f32⟩ : BufTy).Contents (Elt Ideal)) (r : Fin 4096) (d : Fin 256) :
    val_main_v4 (F := Ideal) z (ix2 r d) = unit (rows z) r d := by
  have e : ∀ k : Fin 256, idx_main_call0_v1 (idx_main_call0_v2 (idx_main_v3 (ix2 r d))) k = ix2 r k :=
    fun k => funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- The second argument's normalisation at (r, d) is the specification's normalised entry. -/
theorem unit_snd (z : (⟨S4096x256, .f32⟩ : BufTy).Contents (Elt Ideal)) (r : Fin 4096) (d : Fin 256) :
    val_main_v9 (F := Ideal) z (ix2 r d) = unit (rows z) r d := by
  have e : ∀ k : Fin 256, idx_main_call1_v1 (idx_main_call1_v2 (idx_main_v8 (ix2 r d))) k = ix2 r k :=
    fun k => funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def, Ideal.mulf_def,
    Ideal.ofBits_def, Ideal.ofBits_zero_f32, zero_add]
  rfl

end Cert.RefValue

end
-- ==== Proof.RefSim.lean ====
/-
  The reference's similarity matrix, read at coordinates.

  The two normalised matrices are stacked into one of 8192 rows (a row below 4096 comes from the first, a row from 4096
  on from the second, 4096 places up), the stack is multiplied by its own transpose, and every product divided by the
  temperature. At (p, q) this is the inner product of rows p and q of the stack, divided by the temperature.
-/
import proofs.«100509_j81003083202828_2_alg».proof.Proof.RefNorm

noncomputable section

open scoped BigOperators

namespace Cert.RefValue

open Idealize.ShloMosaic Idealize.ShloMosaic.ValueIdx Cert.ReferenceIdeal Cert.ReferenceIdeal.Gen Cert.ReferenceIdeal.ReadP Cert.Spec

/-- The stacked matrix at (i, d): the specification's stack of the two normalised matrices. -/
theorem stack_apply (z1 z2 : (⟨S4096x256, .f32⟩ : BufTy).Contents (Elt Ideal)) (i : Fin 8192) (d : Fin 256) :
    val_main_v10 (F := Ideal) z1 z2 (ix2 i d) = stack (unit (rows z1)) (unit (rows z2)) i d := by
  unfold val_main_v10 stack
  by_cases h : i.val < 4096
  · rw [dif_pos h]
    refine (concatenate_pair_apply_left (0 : Fin 2) (val_main_v4 (F := Ideal) z1) (val_main_v9 (F := Ideal) z2) concatenates_S4096x256_S4096x256_S8192x256_d0 (ix2 i d) rfl
      (ix2 (⟨i.val, h⟩ : Fin 4096) d) (fun b => ?_)).trans (unit_fst z1 _ d)
    match b with
    | ⟨0, _⟩ => rfl
    | ⟨1, _⟩ => rfl
  · rw [dif_neg h]
    refine (concatenate_pair_apply_right (0 : Fin 2) (val_main_v4 (F := Ideal) z1) (val_main_v9 (F := Ideal) z2) concatenates_S4096x256_S4096x256_S8192x256_d0 (ix2 i d) rfl rfl
      (ix2 (⟨i.val - 4096, by omega⟩ : Fin 4096) d) (fun b hb => ?_) ?_).trans (unit_snd z2 _ d)
    · match b with
      | ⟨0, _⟩ => exact absurd rfl hb
      | ⟨1, _⟩ => rfl
    · show i.val - 4096 + 4096 = i.val
      omega

/-- The similarity matrix at (p, q): the inner product of rows p and q of the stack, divided by the temperature. -/
theorem sim_apply (z1 z2 : (⟨S4096x256, .f32⟩ : BufTy).Contents (Elt Ideal)) (p q : Fin 8192) :
    val_main_v14 (F := Ideal) z1 z2 (ix2 p q) = refSim (rows z1) (rows z2) p q := by
  have el : ∀ k : Fin 256, lidx_main_v12 (ix2 p q) k = ix2 p k :=
    fun k => funext fun a => Fin.ext (by match a with | ⟨0, _⟩ => rfl | ⟨1, _⟩ => rfl)
  have er : ∀ k : Fin 256, idx_main_v11 (ridx_main_v12 (ix2 p q) k) = ix2 q k :=
    fun k => funext fun a => Fin.ext (by match a with | ⟨0, _⟩ => rfl | ⟨1, _⟩ => rfl)
  rw [val_main_v14_apply, val_main_v12_apply, val_main_v13_apply, val_main_cst_1_apply]
  simp only [val_main_v11_apply, el, er, stack_apply, Ideal.hostDivf_def, Ideal.ofBits_def]
  rfl

end Cert.RefValue

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.RefSoftmax.lean ====
/-
  The reference's log-softmax of the similarity matrix, read at coordinates.

  Row i is shifted by its maximum (a fold of max from minus infinity, then once more max with minus infinity, as the
  program prints it), exponentiated, summed along the row from zero, the logarithm of the sum subtracted from the
  shifted entries. At (i, j) this is (s i j - shift i) - log (sum over j' of exp (s i j' - shift i)).
-/
import proofs.«100509_j81003083202828_2_alg».proof.Proof.RefSim
import proofs.«100509_j81003083202828_2_alg».proof.Proof.LibRowMax

noncomputable section

open scoped BigOperators

namespace Cert.RefValue

open Idealize.ShloMosaic Idealize.ShloMosaic.ValueIdx Cert.ReferenceIdeal Cert.ReferenceIdeal.Gen Cert.ReferenceIdeal.ReadP Cert.Spec

/-- The f32 word of minus infinity is the bottom element of the extended reals. -/
theorem ofBits_neg_inf : Ideal.ofBits .f32 0xFF800000#32 = (⊥ : EReal) := by simp [Ideal.ofBits, Ideal.ieee]

/-- The row shift at i: the maximum of row i of the similarity matrix from minus infinity, taken twice. -/
theorem shift_apply (z1 z2 : (⟨S4096x256, .f32⟩ : BufTy).Contents (Elt Ideal)) (i : Fin 8192) :
    val_main_call2_v2 (F := Ideal) z1 z2 (ix1 i) = refShift (rows z1) (rows z2) i := by
  rw [val_main_call2_v2_apply, val_main_call2_v1_apply, val_main_call2_cst_0_apply]
  unfold val_main_call2_v0
  rw [Cert.LibRowMax.hostReduce_maximumf_row (val_main_v14 (F := Ideal) z1 z2) (val_main_call2_cst (F := Ideal))
    reducesTo_S8192x8192_S8192_d1 (by decide) h_S_ i, val_main_call2_cst_apply]
  simp only [sim_apply, Ideal.maximumf_def, Ideal.ofBits_def, ofBits_neg_inf]
  rfl

/-- The shifted similarity at (i, j). -/
theorem shifted_apply (z1 z2 : (⟨S4096x256, .f32⟩ : BufTy).Contents (Elt Ideal)) (i j : Fin 8192) :
    val_main_call2_v5 (F := Ideal) z1 z2 (ix2 i j)
      = refSim (rows z1) (rows z2) i j - refShift (rows z1) (rows z2) i := by
  have e : idx_main_call2_v3 (idx_main_call2_v4 (ix2 i j)) = ix1 i :=
    funext fun a => Fin.ext (by match a with | ⟨0, _⟩ => rfl)
  rw [val_main_call2_v5_apply, val_main_call2_v4_apply, val_main_call2_v3_apply, e, shift_apply, sim_apply]
  rfl

/-- The row sum of the exponentials of the shifted similarities of row i. -/
theorem sumexp_apply (z1 z2 : (⟨S4096x256, .f32⟩ : BufTy).Contents (Elt Ideal)) (i : Fin 8192) :
    val_main_call2_v7 (F := Ideal) z1 z2 (ix1 i)
      = ∑ j : Fin 8192, Ideal.exp (refSim (rows z1) (rows z2) i j - refShift (rows z1) (rows z2) i) := by
  have e : ∀ k : Fin 8192, idx_main_call2_v7 (ix1 i) k = ix2 i k :=
    fun k => funext fun a => Fin.ext (by match a with | ⟨0, _⟩ => rfl | ⟨1, _⟩ => rfl)
  rw [val_main_call2_v7_apply, val_main_call2_cst_1_apply]
  simp only [val_main_call2_v6_apply, e, shifted_apply, Ideal.hostUnary_exp_def, Ideal.ofBits_def, Ideal.ofBits_zero_f32,
    zero_add]

/-- The log-softmax entry at (i, j). -/
theorem logp_apply (z1 z2 : (⟨S4096x256, .f32⟩ : BufTy).Contents (Elt Ideal)) (i j : Fin 8192) :
    val_main_v20 (F := Ideal) z1 z2 (ix2 i j) = refLogp (rows z1) (rows z2) i j := by
  have e : idx_main_call2_v8 (idx_main_call2_v10 (ix2 i j)) = ix1 i :=
    funext fun a => Fin.ext (by match a with | ⟨0, _⟩ => rfl)
  rw [val_main_v20_apply, val_main_call2_v10_apply, val_main_call2_v9_apply, val_main_call2_v8_apply, e, sumexp_apply,
    shifted_apply]
  rfl

end Cert.RefValue

end
-- ==== Proof.RefGather.lean ====
/-
  The gather of the reference's take-along-axis, read at a row.

  The operand is a square matrix, the start indices one word per row (as an [8192, 1, 1] array), the rows are a batch
  axis shared by operand and indices, and the column axis is collapsed with slices of size one. Row i of the result
  is therefore the operand's entry in row i at the column the row's index word names, the word read as a signed
  integer and clamped into the column range.
-/
import proofs.«100509_j81003083202828_2_alg».proof.Proof.RefReadP

noncomputable section

open scoped BigOperators

namespace Cert.RefValue

open Idealize.ShloMosaic Idealize.ShloMosaic.ValueIdx Cert.ReferenceIdeal Cert.ReferenceIdeal.Gen Cert.ReferenceIdeal.ReadP

/-- The gather at row i: the operand at (i, the row's start index read signed and clamped into [0, 8191]). -/
theorem gather_row {α : Type} (x : S8192x8192.Idx → α) (idx : IVec S8192x1x1 32) (i : Fin 8192) :
    Host.gather gather_S8192x8192_S8192x1x1_S8192x1_n_1_0_0_1_2_11 x idx (ix2 i (0 : Fin 1))
      = x (ix2 i (⟨min (idx (ix3 i (0 : Fin 1) (0 : Fin 1))).toInt.toNat (8192 - 1), by omega⟩ : Fin 8192)) := by
  unfold Host.gather
  congr 1
  funext a
  refine Fin.ext ?_
  match a with
  | ⟨0, _⟩ =>
    show gather_S8192x8192_S8192x1x1_S8192x1_n_1_0_0_1_2_11.start (ix2 i (0 : Fin 1)) idx 0
        + gather_S8192x8192_S8192x1x1_S8192x1_n_1_0_0_1_2_11.batchCoord (ix2 i (0 : Fin 1)) 0
        + gather_S8192x8192_S8192x1x1_S8192x1_n_1_0_0_1_2_11.offCoord (ix2 i (0 : Fin 1)) 0 = i.val
    have hb : (0 : Fin 2) ∈ gather_S8192x8192_S8192x1x1_S8192x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S8192x8192_S8192x1x1_S8192x1_n_1_0_0_1_2_11.start (ix2 i (0 : Fin 1)) idx 1
        + gather_S8192x8192_S8192x1x1_S8192x1_n_1_0_0_1_2_11.batchCoord (ix2 i (0 : Fin 1)) 1
        + gather_S8192x8192_S8192x1x1_S8192x1_n_1_0_0_1_2_11.offCoord (ix2 i (0 : Fin 1)) 1 = _
    have hc : (1 : Fin 2) ∈ gather_S8192x8192_S8192x1x1_S8192x1_n_1_0_0_1_2_11.collapsedSliceDims :=
      List.mem_singleton.mpr rfl
    have hm : (1 : Fin 2) ∈ gather_S8192x8192_S8192x1x1_S8192x1_n_1_0_0_1_2_11.startIndexMap :=
      List.mem_singleton.mpr rfl
    rw [GatherDims.batchCoord_eq_zero _ _ _ (fun h => by
        have : (1 : Fin 2) = 0 := List.mem_singleton.mp h
        exact absurd this (by decide)),
      GatherDims.offCoord_eq_zero _ _ _ (fun h => ((GatherDims.mem_sKept _ _).mp h).1 hc)]
    simp only [Nat.add_zero]
    unfold GatherDims.start
    rw [dif_pos hm]
    have hsi : gather_S8192x8192_S8192x1x1_S8192x1_n_1_0_0_1_2_11.siIdx (ix2 i (0 : Fin 1))
        ⟨List.idxOf (1 : Fin 2) gather_S8192x8192_S8192x1x1_S8192x1_n_1_0_0_1_2_11.startIndexMap,
          List.idxOf_lt_length_iff.2 hm⟩ = ix3 i (0 : Fin 1) (0 : Fin 1) := by
      funext b; refine Fin.ext ?_
      match b with
      | ⟨0, _⟩ => rfl
      | ⟨1, _⟩ => rfl
      | ⟨2, _⟩ => rfl
    rw [hsi]
    rfl

end Cert.RefValue

end
-- ==== Proof.RefIndex.lean ====
/-
  The reference's partner index vector and its normalisation, read at a row.

  The index vector is the concatenation of 4096 + (0, 1, …, 4095) and (0, 1, …, 4095) as 32-bit words: row i holds
  the word of its partner's row number. Take-along-axis adds 8192 to negative indices; none is negative, so the word
  is unchanged, also through the reshape to one word per row. A word of a number below 8192 is, read as a signed
  integer, that number, and clamping it into [0, 8191] leaves it unchanged.
-/
import proofs.«100509_j81003083202828_2_alg».proof.Proof.RefReadP
import proofs.«100509_j81003083202828_2_alg».proof.Proof.Spec

noncomputable section

open scoped BigOperators

namespace Cert.RefValue

open Idealize.ShloMosaic Idealize.ShloMosaic.ValueIdx Cert.ReferenceIdeal Cert.ReferenceIdeal.Gen Cert.ReferenceIdeal.ReadP Cert.Spec

/-- The word of a number below 8192, read as a signed integer, is that number. -/
theorem word_toInt (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Such a word is not negative. -/
theorem word_not_neg (n : Nat) (h : n < 8192) : IntOp.cmpi .slt (BitVec.ofNat 32 n) 0#32 = 0#1 := by
  have e := word_toInt n h
  have h0 : ¬ ((n : Int) < 0) := by omega
  simp [IntOp.cmpi, BitVec.slt, e, h0]

/-- Clamping such a word into [0, 8191] gives the number back. -/
theorem word_clamp (n : Nat) (h : n < 8192) : min (BitVec.ofNat 32 n).toInt.toNat (8192 - 1) = n := by
  rw [word_toInt n h, Int.toNat_natCast]; omega

/-- The partner index vector at row i: the word of the partner's row number. -/
theorem partner_word (i : Fin 8192) : val_main_v19 (F := Ideal) (ix1 i) = BitVec.ofNat 32 (partner i).val := by
  unfold val_main_v19 partner
  by_cases h : i.val < 4096
  · rw [dif_pos h]
    refine (concatenate_pair_apply_left (0 : Fin 1) (val_main_v17 (F := Ideal)) (val_main_v18 (F := Ideal))
      concatenates_S4096_S4096_S8192_d0 (ix1 i) rfl (ix1 (⟨i.val, h⟩ : Fin 4096)) (fun b => ?_)).trans ?_
    · match b with
      | ⟨0, _⟩ => rfl
    · rw [val_main_v17_apply, val_main_v16_apply, val_main_c_apply, val_main_v15_apply]
      show IntOp.addi 4096#32 (BitVec.ofNat 32 i.val) = BitVec.ofNat 32 (i.val + 4096)
      unfold IntOp.addi
      rw [Nat.add_comm, BitVec.ofNat_add]
  · rw [dif_neg h]
    refine (concatenate_pair_apply_right (0 : Fin 1) (val_main_v17 (F := Ideal)) (val_main_v18 (F := Ideal))
      concatenates_S4096_S4096_S8192_d0 (ix1 i) rfl rfl (ix1 (⟨i.val - 4096, by omega⟩ : Fin 4096)) (fun b hb => ?_) ?_).trans ?_
    · match b with
      | ⟨0, _⟩ => exact absurd rfl hb
    · show i.val - 4096 + 4096 = i.val
      omega
    · rw [val_main_v18_apply]

/-- The normalised index word of row i, as the gather and the range mask read it: the word of the partner's row
    number. -/
theorem index_word (i : Fin 8192) :
    val_main_call3_v5 (F := Ideal) (ix3 i (0 : Fin 1) (0 : Fin 1)) = BitVec.ofNat 32 (partner i).val := by
  have e5 : idx_main_call3_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have e21 : idx_main_v21 (ix2 i (0 : Fin 1)) = ix1 i :=
    funext fun a => Fin.ext (by match a with | ⟨0, _⟩ => rfl)
  have hw : val_main_v21 (F := Ideal) (ix2 i (0 : Fin 1)) = BitVec.ofNat 32 (partner i).val := by
    rw [val_main_v21_apply, e21, partner_word]
  rw [val_main_call3_v5_apply, e5, val_main_call3_v4_apply, val_main_call3_v1_apply, val_main_call3_v0_apply,
    val_main_call3_c_apply, hw, word_not_neg _ (partner i).isLt, select_zero]

end Cert.RefValue

end
-- ==== Proof.RefMask.lean ====
/-
  The range mask of the gather-along-an-axis: the index word w of row i is compared with 0 (signed >=)
  and with 8191 (signed <=), the two bits are combined by "and", and the result is reduced by "and" from
  the constant 1 over the last axis, which has size one. A reduction over an axis of size one folds the
  one entry of that axis into the initial value, so the mask at row i is
      (w >= 0 and w <= 8191) and 1.
  When w is the 32-bit word of a natural number n < 8192, its signed value is n, both comparisons hold,
  and the mask is 1.
-/
import proofs.«100509_j81003083202828_2_alg».proof.Proof.RefReadP
import proofs.«100509_j81003083202828_2_alg».proof.Proof.Spec

open scoped BigOperators
open Idealize.ShloMosaic Idealize.ShloMosaic.ValueIdx Cert.ReferenceIdeal Cert.ReferenceIdeal.Gen
  Cert.ReferenceIdeal.ReadP Cert.Spec

namespace Cert.RefValue

/-- The signed value of the 32-bit word of a small natural number is that number. -/
theorem mask_toInt (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this, if_pos (by omega)]

theorem mask_ge (n : Nat) (h : n < 8192) : IntOp.cmpi .sge (BitVec.ofNat 32 n) 0#32 = 1#1 := by
  have e := mask_toInt n h
  simp [IntOp.cmpi, BitVec.sle, e]

theorem mask_le (n : Nat) (h : n < 8192) : IntOp.cmpi .sle (BitVec.ofNat 32 n) 8191#32 = 1#1 := by
  have e := mask_toInt n h
  have e2 : (8191#32 : BitVec 32).toInt = 8191 := by decide
  have h1 : ((n : Int) ≤ 8191) := by omega
  simp [IntOp.cmpi, BitVec.sle, e, e2, h1]

/-- The source index a reduction over the last axis reads for the result index (i, b): (i, b, 0), the last axis
    having one coordinate. -/
theorem lift_last (h : Shape.Reduces S8192x1x1 [2] S8192x1) (i : Fin 8192) (b : Fin 1) (k : Fin (S8192x1x1.size 2)) :
    h.lift (ix2 i b) k = ix3 i b (0 : Fin 1) :=
  funext fun ax => Fin.ext (by
    match ax with
    | ⟨0, _⟩ => rfl
    | ⟨1, _⟩ => rfl
    | ⟨2, _⟩ =>
      have hk : k.val < 1 := k.isLt
      show k.val = 0
      omega)

/-- A fold over an index set with one element combines that element's term with the initial value. -/
theorem fold_fin_one {α : Type*} (f : α → α → α) [Std.Commutative f] [Std.Associative f] (b : α) {m : Nat}
    (hm : m = 1) (g : Fin m → α) :
    (Finset.univ : Finset (Fin m)).fold f b g = f (g ⟨0, by omega⟩) b := by
  subst hm
  rw [Finset.univ_unique, Finset.fold_singleton]
  rfl

theorem mask_of_word (i : Fin 8192) (n : Nat) (hn : n < 8192)
    (hw : val_main_call3_v5 (F := Ideal) (ix3 i (0 : Fin 1) (0 : Fin 1)) = BitVec.ofNat 32 n) :
    val_main_call3_v12 (F := Ideal) (ix2 i (0 : Fin 1)) = 1#1 := by
  have hred : Shape.Reduces S8192x1x1 [2] S8192x1 := by decide
  unfold val_main_call3_v12
  refine (Host.reduce_eq_fold_single IntOp.andi _ _ reducesTo_S8192x1x1_S8192x1_d2 hred h_S_ (ix2 i (0 : Fin 1))).trans ?_
  refine (fold_fin_one IntOp.andi _ (by decide : S8192x1x1.size 2 = 1) _).trans ?_
  rw [Function.comp_apply, lift_last hred i 0,
    val_main_call3_v11_apply, val_main_call3_v7_apply, val_main_call3_v10_apply, val_main_call3_v6_apply,
    val_main_call3_c_2_apply, val_main_call3_v9_apply, val_main_call3_v8_apply, val_main_call3_c_1_apply,
    val_main_call3_c_3_apply, hw, mask_ge n hn, mask_le n hn]
  decide

end Cert.RefValue
-- ==== Proof.RefPicked.lean ====
/-
  The column the reference's take-along-axis picks, read at a row.

  Row i's index word is the word of its partner's row number, which lies in [0, 8191]: the range mask is true, so the
  select keeps the gathered entry, and the gather reads the log-softmax at (i, partner i).
-/
import proofs.«100509_j81003083202828_2_alg».proof.Proof.RefSoftmax
import proofs.«100509_j81003083202828_2_alg».proof.Proof.RefGather
import proofs.«100509_j81003083202828_2_alg».proof.Proof.RefIndex
import proofs.«100509_j81003083202828_2_alg».proof.Proof.RefMask

noncomputable section

open scoped BigOperators

namespace Cert.RefValue

open Idealize.ShloMosaic Idealize.ShloMosaic.ValueIdx Cert.ReferenceIdeal Cert.ReferenceIdeal.Gen Cert.ReferenceIdeal.ReadP Cert.Spec

/-- The picked entry of row i is the log-softmax at (i, partner i). -/
theorem picked_apply (z1 z2 : (⟨S4096x256, .f32⟩ : BufTy).Contents (Elt Ideal)) (i : Fin 8192) :
    val_main_v22 (F := Ideal) z1 z2 (ix2 i (0 : Fin 1)) = refLogp (rows z1) (rows z2) i (partner i) := by
  rw [val_main_v22_apply, mask_of_word i (partner i).val (partner i).isLt (index_word i), select_one]
  unfold val_main_call3_v13
  refine (gather_row _ _ i).trans ?_
  refine (congrArg (fun q => val_main_v20 (F := Ideal) z1 z2 (ix2 i q)) (Fin.ext ?_ : _ = partner i)).trans
    (logp_apply z1 z2 i (partner i))
  show min (val_main_call3_v5 (F := Ideal) (ix3 i (0 : Fin 1) (0 : Fin 1))).toInt.toNat (8192 - 1) = (partner i).val
  rw [index_word]
  exact word_clamp _ (partner i).isLt

end Cert.RefValue

end
-- ==== Proof.RefFinal.lean ====
/-
  The reference's last four operations: the sum of the 8192 selected entries from zero, the quotient
  by the word of 8192, and the negation. If the selected column reads g i at row i, the result is
      - ((sum_i g i) / count)
  at its one index: a sum over the index set of an 8192 x 1 array is the sum over the rows (the inner
  sum has one term), and the initial value 0 adds nothing.
-/
import proofs.«100509_j81003083202828_2_alg».proof.Proof.RefReadP
import proofs.«100509_j81003083202828_2_alg».proof.Proof.Spec

open scoped BigOperators
open Idealize.ShloMosaic Idealize.ShloMosaic.ValueIdx Cert.ReferenceIdeal Cert.ReferenceIdeal.Gen
  Cert.ReferenceIdeal.ReadP Cert.Spec

namespace Cert.RefValue

/-- A sum over the index set of an n x 1 array is the sum over its rows. -/
theorem sum_idx_col {M : Type*} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

theorem final_apply (z1 z2 : (⟨S4096x256, .f32⟩ : BufTy).Contents (Elt Ideal)) (g : Fin 8192 → EReal)
    (hg : ∀ i : Fin 8192, val_main_v22 (F := Ideal) z1 z2 (ix2 i (0 : Fin 1)) = g i) :
    val_main_v25 (F := Ideal) z1 z2 = fun _ => - Ideal.div (∑ i : Fin 8192, g i) count := by
  funext j
  rw [val_main_v25_apply, val_main_v24_apply, val_main_v23_apply, val_main_cst_3_apply, val_main_cst_2_apply]
  have hsum : ∑ j : S8192x1.Idx, val_main_v22 (F := Ideal) z1 z2 j = ∑ i : Fin 8192, g i :=
    (sum_idx_col _).trans (Finset.sum_congr rfl fun a _ => hg a)
  rw [hsum, Ideal.ofBits_def, Ideal.ofBits_def, Ideal.ofBits_zero_f32, zero_add]
  rfl

end Cert.RefValue
-- ==== Proof.RefResult.lean ====
/-
  The reference program's result is the specification's reference loss.

  Every stage of the reference has been read at an index: the two row normalisations, the stacked matrix, the
  similarity matrix, the log-softmax, the partner index vector and the entry take-along-axis picks in each row. The
  last operations sum the picked entries over all rows from zero, divide by the row count and negate: minus the mean of
  the log-softmax at (i, partner i), which is the specification's reference loss of the two argument matrices. The
  equality holds for all extended-real arguments: it is a reading of the program, with no law of arithmetic in it
  beyond 0 + x = x.
-/
import proofs.«100509_j81003083202828_2_alg».proof.Proof.RefPicked
import proofs.«100509_j81003083202828_2_alg».proof.Proof.RefFinal

noncomputable section

open scoped BigOperators

namespace Cert.RefValue

open Idealize.ShloMosaic Idealize.ShloMosaic.ValueIdx Cert.ReferenceIdeal Cert.ReferenceIdeal.Gen Cert.ReferenceIdeal.ReadP Cert.Spec

/-- The reference's result, as a function of the two argument arrays, is the specification's reference loss. -/
theorem result_eq (z1 z2 : (⟨S4096x256, .f32⟩ : BufTy).Contents (Elt Ideal)) :
    val_main_v25 (F := Ideal) z1 z2 = fun _ => referenceLoss (rows z1) (rows z2) :=
  final_apply z1 z2 _ (picked_apply z1 z2)

end Cert.RefValue

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.RefAfter.lean ====
/-
  The reference program's result buffer after its 75 host operations, read one operation at a time.

  The operations are in single-assignment form: operation number k writes exactly the k-th reference of the list
  `W` below, and nothing an operation reads or writes is written again later. Hence the final contents of each
  operation's result buffer are the operation's function of the final contents of its operands, and, going down the
  list, each buffer's final contents are the value the program computes for it from the two arguments (`ReadP.val_…`,
  which is by definition the operation's function applied to the values of its operands). The two arguments are
  written by no operation and keep their contents. The last buffer is the program's result.
-/
import proofs.«100509_j81003083202828_2_alg».proof.Proof.RefRunP
import proofs.«100509_j81003083202828_2_alg».proof.Proof.RefReadP
import proofs.«100509_j81003083202828_2_alg».proof.Proof.LibHostRead

set_option maxRecDepth 8192

noncomputable section

namespace Cert.RefAfter

open Cert.ReferenceIdeal Cert.ReferenceIdeal.Gen Idealize.ShloMosaic Idealize.ShloMosaic.TcCoe Idealize.SL.Sem Idealize.ShloMosaic.StableHlo

variable {F : FTy → Type} [FloatOps F]

/-- The references the 75 operations write, in program order. -/
abbrev W : List (Ref sig .tc) :=
  [
    main_call0_v0, main_call0_cst, main_call0_v1, main_call0_v2, main_v0, main_cst,
    main_v1, main_v2, main_v3, main_v4, main_call1_v0, main_call1_cst,
    main_call1_v1, main_call1_v2, main_v5, main_cst_0, main_v6, main_v7,
    main_v8, main_v9, main_v10, main_v11, main_v12, main_cst_1,
    main_v13, main_v14, main_v15, main_c, main_v16, main_v17,
    main_v18, main_v19, main_call2_cst, main_call2_v0, main_call2_cst_0, main_call2_v1,
    main_call2_v2, main_call2_v3, main_call2_v4, main_call2_v5, main_call2_v6, main_call2_cst_1,
    main_call2_v7, main_call2_v8, main_call2_v9, main_call2_v10, main_v20, main_v21,
    main_call3_c, main_call3_v0, main_call3_v1, main_call3_c_0, main_call3_v2, main_call3_v3,
    main_call3_v4, main_call3_v5, main_call3_c_1, main_call3_c_2, main_call3_v6, main_call3_v7,
    main_call3_v8, main_call3_v9, main_call3_v10, main_call3_v11, main_call3_c_3, main_call3_v12,
    main_call3_v13, main_call3_cst, main_call3_v14, main_v22, main_cst_2, main_v23,
    main_cst_3, main_v24, main_v25 ]

/-- Operation number k writes exactly the k-th reference of `W`. -/
theorem aligned : LibHostRead.Aligned (ValueP.ops (F := F)) W :=
  ⟨
    rfl, rfl, rfl, rfl, rfl, rfl, rfl, rfl, rfl, rfl, rfl, rfl, rfl, rfl, rfl,
    rfl, rfl, rfl, rfl, rfl, rfl, rfl, rfl, rfl, rfl, rfl, rfl, rfl, rfl, rfl,
    rfl, rfl, rfl, rfl, rfl, rfl, rfl, rfl, rfl, rfl, rfl, rfl, rfl, rfl, rfl,
    rfl, rfl, rfl, rfl, rfl, rfl, rfl, rfl, rfl, rfl, rfl, rfl, rfl, rfl, rfl,
    rfl, rfl, rfl, rfl, rfl, rfl, rfl, rfl, rfl, rfl, rfl, rfl, rfl, rfl, rfl,
    trivial⟩

/-- No operation writes the first argument: it keeps its contents. -/
theorem arg0 (V : Valuation τ sig (Elt F)) :
    after (ValueP.ops (F := F)) V (Proc.devRef .tc main_arg0) = V (Proc.devRef .tc main_arg0) :=
  LibHostRead.after_of_not_written aligned (by decide) V

/-- Nor the second. -/
theorem arg1 (V : Valuation τ sig (Elt F)) :
    after (ValueP.ops (F := F)) V (Proc.devRef .tc main_arg1) = V (Proc.devRef .tc main_arg1) :=
  LibHostRead.after_of_not_written aligned (by decide) V

/-! ## Each buffer's final contents, in program order -/

theorem at_main_call0_v0 (V : Valuation τ sig (Elt F)) :
    after (ValueP.ops (F := F)) V (Proc.devRef .tc main_call0_v0) = ReadP.val_main_call0_v0 (F := F) (V (Proc.devRef .tc main_arg0)) := by
  rewrite [LibHostRead.after_binary_fix (a := main_arg0) (b := main_arg0) (y := main_call0_v0) aligned 0 rfl (by decide) (by decide) (by decide) (by decide) (by decide) V]
  unfold ReadP.val_main_call0_v0
  rewrite [arg0 V]
  exact (cast_eq _ _).trans (congrArg₂ (mulf : (⟨S4096x256, .f32⟩ : BufTy).Contents (Elt F) → (⟨S4096x256, .f32⟩ : BufTy).Contents (Elt F) → (⟨S4096x256, .f32⟩ : BufTy).Contents (Elt F)) (cast_eq _ _) (cast_eq _ _))

theorem at_main_call0_cst (V : Valuation τ sig (Elt F)) :
    after (ValueP.ops (F := F)) V (Proc.devRef .tc main_call0_cst) = ReadP.val_main_call0_cst (F := F) := by
  rewrite [LibHostRead.after_nullary_fix (y := main_call0_cst) aligned 1 rfl (by decide) V]
  unfold ReadP.val_main_call0_cst
  exact cast_eq _ _

theorem at_main_call0_v1 (V : Valuation τ sig (Elt F)) :
    after (ValueP.ops (F := F)) V (Proc.devRef .tc main_call0_v1) = ReadP.val_main_call0_v1 (F := F) (V (Proc.devRef .tc main_arg0)) := by
  rewrite [LibHostRead.after_binary_fix (a := main_call0_v0) (b := main_call0_cst) (y := main_call0_v1) aligned 2 rfl (by decide) (by decide) (by decide) (by decide) (by decide) V]
  unfold ReadP.val_main_call0_v1
  rewrite [at_main_call0_v0 V, at_main_call0_cst V]
  generalize ReadP.val_main_call0_v0 (F := F) (V (Proc.devRef .tc main_arg0)) = X0
  generalize ReadP.val_main_call0_cst (F := F) = X1
  exact (cast_eq _ _).trans (congrArg₂ ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) (cast_eq _ _) (cast_eq _ _))

theorem at_main_call0_v2 (V : Valuation τ sig (Elt F)) :
    after (ValueP.ops (F := F)) V (Proc.devRef .tc main_call0_v2) = ReadP.val_main_call0_v2 (F := F) (V (Proc.devRef .tc main_arg0)) := by
  rewrite [LibHostRead.after_unary_fix (x := main_call0_v1) (y := main_call0_v2) aligned 3 rfl (by decide) (by decide) (by decide) V]
  unfold ReadP.val_main_call0_v2
  rewrite [at_main_call0_v1 V]
  generalize ReadP.val_main_call0_v1 (F := F) (V (Proc.devRef .tc main_arg0)) = X0
  exact (cast_eq _ _).trans (congrArg ((broadcastInDim S4096x1 ![0] bcast_S4096_S4096x1_0) : (⟨S4096, .f32⟩ : BufTy).Contents (Elt F) → (⟨S4096x1, .f32⟩ : BufTy).Contents (Elt F)) (cast_eq _ _))

theorem at_main_v0 (V : Valuation τ sig (Elt F)) :
    after (ValueP.ops (F := F)) V (Proc.devRef .tc main_v0) = ReadP.val_main_v0 (F := F) (V (Proc.devRef .tc main_arg0)) := by
  rewrite [LibHostRead.after_unary_fix (x := main_call0_v2) (y := main_v0) aligned 4 rfl (by decide) (by decide) (by decide) V]
  unfold ReadP.val_main_v0
  rewrite [at_main_call0_v2 V]
  generalize ReadP.val_main_call0_v2 (F := F) (V (Proc.devRef .tc main_arg0)) = X0
  exact (cast_eq _ _).trans (congrArg (Host.sqrt : (⟨S4096x1, .f32⟩ : BufTy).Contents (Elt F) → (⟨S4096x1, .f32⟩ : BufTy).Contents (Elt F)) (cast_eq _ _))

theorem at_main_cst (V : Valuation τ sig (Elt F)) :
    after (ValueP.ops (F := F)) V (Proc.devRef .tc main_cst) = ReadP.val_main_cst (F := F) := by
  rewrite [LibHostRead.after_nullary_fix (y := main_cst) aligned 5 rfl (by decide) V]
  rfl

theorem at_main_v1 (V : Valuation τ sig (Elt F)) :
    after (ValueP.ops (F := F)) V (Proc.devRef .tc main_v1) = ReadP.val_main_v1 (F := F) := by
  rewrite [LibHostRead.after_unary_fix (x := main_cst) (y := main_v1) aligned 6 rfl (by decide) (by decide) (by decide) V]
  unfold ReadP.val_main_v1
  rewrite [at_main_cst V]
  generalize ReadP.val_main_cst (F := F) = X0
  rfl

theorem at_main_v2 (V : Valuation τ sig (Elt F)) :
    after (ValueP.ops (F := F)) V (Proc.devRef .tc main_v2) = ReadP.val_main_v2 (F := F) (V (Proc.devRef .tc main_arg0)) := by
  rewrite [LibHostRead.after_binary_fix (a := main_v0) (b := main_v1) (y := main_v2) aligned 7 rfl (by decide) (by decide) (by decide) (by decide) (by decide) V]
  unfold ReadP.val_main_v2
  rewrite [at_main_v0 V, at_main_v1 V]
  generalize ReadP.val_main_v0 (F := F) (V (Proc.devRef .tc main_arg0)) = X0
  generalize ReadP.val_main_v1 (F := F) = X1
  rfl

theorem at_main_v3 (V : Valuation τ sig (Elt F)) :
    after (ValueP.ops (F := F)) V (Proc.devRef .tc main_v3) = ReadP.val_main_v3 (F := F) (V (Proc.devRef .tc main_arg0)) := by
  rewrite [LibHostRead.after_unary_fix (x := main_v2) (y := main_v3) aligned 8 rfl (by decide) (by decide) (by decide) V]
  unfold ReadP.val_main_v3
  rewrite [at_main_v2 V]
  generalize ReadP.val_main_v2 (F := F) (V (Proc.devRef .tc main_arg0)) = X0
  rfl

theorem at_main_v4 (V : Valuation τ sig (Elt F)) :
    after (ValueP.ops (F := F)) V (Proc.devRef .tc main_v4) = ReadP.val_main_v4 (F := F) (V (Proc.devRef .tc main_arg0)) := by
  rewrite [LibHostRead.after_binary_fix (a := main_arg0) (b := main_v3) (y := main_v4) aligned 9 rfl (by decide) (by decide) (by decide) (by decide) (by decide) V]
  unfold ReadP.val_main_v4
  rewrite [arg0 V, at_main_v3 V]
  generalize ReadP.val_main_v3 (F := F) (V (Proc.devRef .tc main_arg0)) = X0
  rfl

theorem at_main_call1_v0 (V : Valuation τ sig (Elt F)) :
    after (ValueP.ops (F := F)) V (Proc.devRef .tc main_call1_v0) = ReadP.val_main_call1_v0 (F := F) (V (Proc.devRef .tc main_arg1)) := by
  rewrite [LibHostRead.after_binary_fix (a := main_arg1) (b := main_arg1) (y := main_call1_v0) aligned 10 rfl (by decide) (by decide) (by decide) (by decide) (by decide) V]
  unfold ReadP.val_main_call1_v0
  rewrite [arg1 V]
  exact (cast_eq _ _).trans (congrArg₂ (mulf : (⟨S4096x256, .f32⟩ : BufTy).Contents (Elt F) → (⟨S4096x256, .f32⟩ : BufTy).Contents (Elt F) → (⟨S4096x256, .f32⟩ : BufTy).Contents (Elt F)) (cast_eq _ _) (cast_eq _ _))

theorem at_main_call1_cst (V : Valuation τ sig (Elt F)) :
    after (ValueP.ops (F := F)) V (Proc.devRef .tc main_call1_cst) = ReadP.val_main_call1_cst (F := F) := by
  rewrite [LibHostRead.after_nullary_fix (y := main_call1_cst) aligned 11 rfl (by decide) V]
  unfold ReadP.val_main_call1_cst
  exact cast_eq _ _

theorem at_main_call1_v1 (V : Valuation τ sig (Elt F)) :
    after (ValueP.ops (F := F)) V (Proc.devRef .tc main_call1_v1) = ReadP.val_main_call1_v1 (F := F) (V (Proc.devRef .tc main_arg1)) := by
  rewrite [LibHostRead.after_binary_fix (a := main_call1_v0) (b := main_call1_cst) (y := main_call1_v1) aligned 12 rfl (by decide) (by decide) (by decide) (by decide) (by decide) V]
  unfold ReadP.val_main_call1_v1
  rewrite [at_main_call1_v0 V, at_main_call1_cst V]
  generalize ReadP.val_main_call1_v0 (F := F) (V (Proc.devRef .tc main_arg1)) = X0
  generalize ReadP.val_main_call1_cst (F := F) = X1
  exact (cast_eq _ _).trans (congrArg₂ ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) (cast_eq _ _) (cast_eq _ _))

theorem at_main_call1_v2 (V : Valuation τ sig (Elt F)) :
    after (ValueP.ops (F := F)) V (Proc.devRef .tc main_call1_v2) = ReadP.val_main_call1_v2 (F := F) (V (Proc.devRef .tc main_arg1)) := by
  rewrite [LibHostRead.after_unary_fix (x := main_call1_v1) (y := main_call1_v2) aligned 13 rfl (by decide) (by decide) (by decide) V]
  unfold ReadP.val_main_call1_v2
  rewrite [at_main_call1_v1 V]
  generalize ReadP.val_main_call1_v1 (F := F) (V (Proc.devRef .tc main_arg1)) = X0
  exact (cast_eq _ _).trans (congrArg ((broadcastInDim S4096x1 ![0] bcast_S4096_S4096x1_0) : (⟨S4096, .f32⟩ : BufTy).Contents (Elt F) → (⟨S4096x1, .f32⟩ : BufTy).Contents (Elt F)) (cast_eq _ _))

theorem at_main_v5 (V : Valuation τ sig (Elt F)) :
    after (ValueP.ops (F := F)) V (Proc.devRef .tc main_v5) = ReadP.val_main_v5 (F := F) (V (Proc.devRef .tc main_arg1)) := by
  rewrite [LibHostRead.after_unary_fix (x := main_call1_v2) (y := main_v5) aligned 14 rfl (by decide) (by decide) (by decide) V]
  unfold ReadP.val_main_v5
  rewrite [at_main_call1_v2 V]
  generalize ReadP.val_main_call1_v2 (F := F) (V (Proc.devRef .tc main_arg1)) = X0
  exact (cast_eq _ _).trans (congrArg (Host.sqrt : (⟨S4096x1, .f32⟩ : BufTy).Contents (Elt F) → (⟨S4096x1, .f32⟩ : BufTy).Contents (Elt F)) (cast_eq _ _))

theorem at_main_cst_0 (V : Valuation τ sig (Elt F)) :
    after (ValueP.ops (F := F)) V (Proc.devRef .tc main_cst_0) = ReadP.val_main_cst_0 (F := F) := by
  rewrite [LibHostRead.after_nullary_fix (y := main_cst_0) aligned 15 rfl (by decide) V]
  rfl

theorem at_main_v6 (V : Valuation τ sig (Elt F)) :
    after (ValueP.ops (F := F)) V (Proc.devRef .tc main_v6) = ReadP.val_main_v6 (F := F) := by
  rewrite [LibHostRead.after_unary_fix (x := main_cst_0) (y := main_v6) aligned 16 rfl (by decide) (by decide) (by decide) V]
  unfold ReadP.val_main_v6
  rewrite [at_main_cst_0 V]
  generalize ReadP.val_main_cst_0 (F := F) = X0
  rfl

theorem at_main_v7 (V : Valuation τ sig (Elt F)) :
    after (ValueP.ops (F := F)) V (Proc.devRef .tc main_v7) = ReadP.val_main_v7 (F := F) (V (Proc.devRef .tc main_arg1)) := by
  rewrite [LibHostRead.after_binary_fix (a := main_v5) (b := main_v6) (y := main_v7) aligned 17 rfl (by decide) (by decide) (by decide) (by decide) (by decide) V]
  unfold ReadP.val_main_v7
  rewrite [at_main_v5 V, at_main_v6 V]
  generalize ReadP.val_main_v5 (F := F) (V (Proc.devRef .tc main_arg1)) = X0
  generalize ReadP.val_main_v6 (F := F) = X1
  rfl

theorem at_main_v8 (V : Valuation τ sig (Elt F)) :
    after (ValueP.ops (F := F)) V (Proc.devRef .tc main_v8) = ReadP.val_main_v8 (F := F) (V (Proc.devRef .tc main_arg1)) := by
  rewrite [LibHostRead.after_unary_fix (x := main_v7) (y := main_v8) aligned 18 rfl (by decide) (by decide) (by decide) V]
  unfold ReadP.val_main_v8
  rewrite [at_main_v7 V]
  generalize ReadP.val_main_v7 (F := F) (V (Proc.devRef .tc main_arg1)) = X0
  rfl

theorem at_main_v9 (V : Valuation τ sig (Elt F)) :
    after (ValueP.ops (F := F)) V (Proc.devRef .tc main_v9) = ReadP.val_main_v9 (F := F) (V (Proc.devRef .tc main_arg1)) := by
  rewrite [LibHostRead.after_binary_fix (a := main_arg1) (b := main_v8) (y := main_v9) aligned 19 rfl (by decide) (by decide) (by decide) (by decide) (by decide) V]
  unfold ReadP.val_main_v9
  rewrite [arg1 V, at_main_v8 V]
  generalize ReadP.val_main_v8 (F := F) (V (Proc.devRef .tc main_arg1)) = X0
  rfl

theorem at_main_v10 (V : Valuation τ sig (Elt F)) :
    after (ValueP.ops (F := F)) V (Proc.devRef .tc main_v10) = ReadP.val_main_v10 (F := F) (V (Proc.devRef .tc main_arg0)) (V (Proc.devRef .tc main_arg1)) := by
  rewrite [LibHostRead.after_binary_fix (a := main_v4) (b := main_v9) (y := main_v10) aligned 20 rfl (by decide) (by decide) (by decide) (by decide) (by decide) V]
  unfold ReadP.val_main_v10
  rewrite [at_main_v4 V, at_main_v9 V]
  generalize ReadP.val_main_v4 (F := F) (V (Proc.devRef .tc main_arg0)) = X0
  generalize ReadP.val_main_v9 (F := F) (V (Proc.devRef .tc main_arg1)) = X1
  rfl

theorem at_main_v11 (V : Valuation τ sig (Elt F)) :
    after (ValueP.ops (F := F)) V (Proc.devRef .tc main_v11) = ReadP.val_main_v11 (F := F) (V (Proc.devRef .tc main_arg0)) (V (Proc.devRef .tc main_arg1)) := by
  rewrite [LibHostRead.after_unary_fix (x := main_v10) (y := main_v11) aligned 21 rfl (by decide) (by decide) (by decide) V]
  unfold ReadP.val_main_v11
  rewrite [at_main_v10 V]
  generalize ReadP.val_main_v10 (F := F) (V (Proc.devRef .tc main_arg0)) (V (Proc.devRef .tc main_arg1)) = X0
  rfl

theorem at_main_v12 (V : Valuation τ sig (Elt F)) :
    after (ValueP.ops (F := F)) V (Proc.devRef .tc main_v12) = ReadP.val_main_v12 (F := F) (V (Proc.devRef .tc main_arg0)) (V (Proc.devRef .tc main_arg1)) := by
  rewrite [LibHostRead.after_binary_fix (a := main_v10) (b := main_v11) (y := main_v12) aligned 22 rfl (by decide) (by decide) (by decide) (by decide) (by decide) V]
  unfold ReadP.val_main_v12
  rewrite [at_main_v10 V, at_main_v11 V]
  generalize ReadP.val_main_v10 (F := F) (V (Proc.devRef .tc main_arg0)) (V (Proc.devRef .tc main_arg1)) = X0
  generalize ReadP.val_main_v11 (F := F) (V (Proc.devRef .tc main_arg0)) (V (Proc.devRef .tc main_arg1)) = X1
  rfl

theorem at_main_cst_1 (V : Valuation τ sig (Elt F)) :
    after (ValueP.ops (F := F)) V (Proc.devRef .tc main_cst_1) = ReadP.val_main_cst_1 (F := F) := by
  rewrite [LibHostRead.after_nullary_fix (y := main_cst_1) aligned 23 rfl (by decide) V]
  rfl

theorem at_main_v13 (V : Valuation τ sig (Elt F)) :
    after (ValueP.ops (F := F)) V (Proc.devRef .tc main_v13) = ReadP.val_main_v13 (F := F) := by
  rewrite [LibHostRead.after_unary_fix (x := main_cst_1) (y := main_v13) aligned 24 rfl (by decide) (by decide) (by decide) V]
  unfold ReadP.val_main_v13
  rewrite [at_main_cst_1 V]
  generalize ReadP.val_main_cst_1 (F := F) = X0
  rfl

theorem at_main_v14 (V : Valuation τ sig (Elt F)) :
    after (ValueP.ops (F := F)) V (Proc.devRef .tc main_v14) = ReadP.val_main_v14 (F := F) (V (Proc.devRef .tc main_arg0)) (V (Proc.devRef .tc main_arg1)) := by
  rewrite [LibHostRead.after_binary_fix (a := main_v12) (b := main_v13) (y := main_v14) aligned 25 rfl (by decide) (by decide) (by decide) (by decide) (by decide) V]
  unfold ReadP.val_main_v14
  rewrite [at_main_v12 V, at_main_v13 V]
  generalize ReadP.val_main_v12 (F := F) (V (Proc.devRef .tc main_arg0)) (V (Proc.devRef .tc main_arg1)) = X0
  generalize ReadP.val_main_v13 (F := F) = X1
  rfl

theorem at_main_v15 (V : Valuation τ sig (Elt F)) :
    after (ValueP.ops (F := F)) V (Proc.devRef .tc main_v15) = ReadP.val_main_v15 (F := F) := by
  rewrite [LibHostRead.after_nullary_fix (y := main_v15) aligned 26 rfl (by decide) V]
  rfl

theorem at_main_c (V : Valuation τ sig (Elt F)) :
    after (ValueP.ops (F := F)) V (Proc.devRef .tc main_c) = ReadP.val_main_c (F := F) := by
  rewrite [LibHostRead.after_nullary_fix (y := main_c) aligned 27 rfl (by decide) V]
  rfl

theorem at_main_v16 (V : Valuation τ sig (Elt F)) :
    after (ValueP.ops (F := F)) V (Proc.devRef .tc main_v16) = ReadP.val_main_v16 (F := F) := by
  rewrite [LibHostRead.after_unary_fix (x := main_c) (y := main_v16) aligned 28 rfl (by decide) (by decide) (by decide) V]
  unfold ReadP.val_main_v16
  rewrite [at_main_c V]
  generalize ReadP.val_main_c (F := F) = X0
  rfl

theorem at_main_v17 (V : Valuation τ sig (Elt F)) :
    after (ValueP.ops (F := F)) V (Proc.devRef .tc main_v17) = ReadP.val_main_v17 (F := F) := by
  rewrite [LibHostRead.after_binary_fix (a := main_v16) (b := main_v15) (y := main_v17) aligned 29 rfl (by decide) (by decide) (by decide) (by decide) (by decide) V]
  unfold ReadP.val_main_v17
  rewrite [at_main_v16 V, at_main_v15 V]
  generalize ReadP.val_main_v16 (F := F) = X0
  generalize ReadP.val_main_v15 (F := F) = X1
  rfl

theorem at_main_v18 (V : Valuation τ sig (Elt F)) :
    after (ValueP.ops (F := F)) V (Proc.devRef .tc main_v18) = ReadP.val_main_v18 (F := F) := by
  rewrite [LibHostRead.after_nullary_fix (y := main_v18) aligned 30 rfl (by decide) V]
  rfl

theorem at_main_v19 (V : Valuation τ sig (Elt F)) :
    after (ValueP.ops (F := F)) V (Proc.devRef .tc main_v19) = ReadP.val_main_v19 (F := F) := by
  rewrite [LibHostRead.after_binary_fix (a := main_v17) (b := main_v18) (y := main_v19) aligned 31 rfl (by decide) (by decide) (by decide) (by decide) (by decide) V]
  unfold ReadP.val_main_v19
  rewrite [at_main_v17 V, at_main_v18 V]
  generalize ReadP.val_main_v17 (F := F) = X0
  generalize ReadP.val_main_v18 (F := F) = X1
  rfl

theorem at_main_call2_cst (V : Valuation τ sig (Elt F)) :
    after (ValueP.ops (F := F)) V (Proc.devRef .tc main_call2_cst) = ReadP.val_main_call2_cst (F := F) := by
  rewrite [LibHostRead.after_nullary_fix (y := main_call2_cst) aligned 32 rfl (by decide) V]
  unfold ReadP.val_main_call2_cst
  exact cast_eq _ _

theorem at_main_call2_v0 (V : Valuation τ sig (Elt F)) :
    after (ValueP.ops (F := F)) V (Proc.devRef .tc main_call2_v0) = ReadP.val_main_call2_v0 (F := F) (V (Proc.devRef .tc main_arg0)) (V (Proc.devRef .tc main_arg1)) := by
  rewrite [LibHostRead.after_binary_fix (a := main_v14) (b := main_call2_cst) (y := main_call2_v0) aligned 33 rfl (by decide) (by decide) (by decide) (by decide) (by decide) V]
  unfold ReadP.val_main_call2_v0
  rewrite [at_main_v14 V, at_main_call2_cst V]
  generalize ReadP.val_main_v14 (F := F) (V (Proc.devRef .tc main_arg0)) (V (Proc.devRef .tc main_arg1)) = X0
  generalize ReadP.val_main_call2_cst (F := F) = X1
  exact (cast_eq _ _).trans (congrArg₂ ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (cast_eq _ _) (cast_eq _ _))

theorem at_main_call2_cst_0 (V : Valuation τ sig (Elt F)) :
    after (ValueP.ops (F := F)) V (Proc.devRef .tc main_call2_cst_0) = ReadP.val_main_call2_cst_0 (F := F) := by
  rewrite [LibHostRead.after_nullary_fix (y := main_call2_cst_0) aligned 34 rfl (by decide) V]
  unfold ReadP.val_main_call2_cst_0
  exact cast_eq _ _

theorem at_main_call2_v1 (V : Valuation τ sig (Elt F)) :
    after (ValueP.ops (F := F)) V (Proc.devRef .tc main_call2_v1) = ReadP.val_main_call2_v1 (F := F) := by
  rewrite [LibHostRead.after_unary_fix (x := main_call2_cst_0) (y := main_call2_v1) aligned 35 rfl (by decide) (by decide) (by decide) V]
  unfold ReadP.val_main_call2_v1
  rewrite [at_main_call2_cst_0 V]
  generalize ReadP.val_main_call2_cst_0 (F := F) = X0
  exact (cast_eq _ _).trans (congrArg ((broadcastInDim S8192 ![] bcast_S_S8192) : (⟨S_, .f32⟩ : BufTy).Contents (Elt F) → (⟨S8192, .f32⟩ : BufTy).Contents (Elt F)) (cast_eq _ _))

theorem at_main_call2_v2 (V : Valuation τ sig (Elt F)) :
    after (ValueP.ops (F := F)) V (Proc.devRef .tc main_call2_v2) = ReadP.val_main_call2_v2 (F := F) (V (Proc.devRef .tc main_arg0)) (V (Proc.devRef .tc main_arg1)) := by
  rewrite [LibHostRead.after_binary_fix (a := main_call2_v1) (b := main_call2_v0) (y := main_call2_v2) aligned 36 rfl (by decide) (by decide) (by decide) (by decide) (by decide) V]
  unfold ReadP.val_main_call2_v2
  rewrite [at_main_call2_v1 V, at_main_call2_v0 V]
  generalize ReadP.val_main_call2_v1 (F := F) = X0
  generalize ReadP.val_main_call2_v0 (F := F) (V (Proc.devRef .tc main_arg0)) (V (Proc.devRef .tc main_arg1)) = X1
  exact (cast_eq _ _).trans (congrArg₂ (maximumf : (⟨S8192, .f32⟩ : BufTy).Contents (Elt F) → (⟨S8192, .f32⟩ : BufTy).Contents (Elt F) → (⟨S8192, .f32⟩ : BufTy).Contents (Elt F)) (cast_eq _ _) (cast_eq _ _))

theorem at_main_call2_v3 (V : Valuation τ sig (Elt F)) :
    after (ValueP.ops (F := F)) V (Proc.devRef .tc main_call2_v3) = ReadP.val_main_call2_v3 (F := F) (V (Proc.devRef .tc main_arg0)) (V (Proc.devRef .tc main_arg1)) := by
  rewrite [LibHostRead.after_unary_fix (x := main_call2_v2) (y := main_call2_v3) aligned 37 rfl (by decide) (by decide) (by decide) V]
  unfold ReadP.val_main_call2_v3
  rewrite [at_main_call2_v2 V]
  generalize ReadP.val_main_call2_v2 (F := F) (V (Proc.devRef .tc main_arg0)) (V (Proc.devRef .tc main_arg1)) = X0
  exact (cast_eq _ _).trans (congrArg ((broadcastInDim S8192x1 ![0] bcast_S8192_S8192x1_0) : (⟨S8192, .f32⟩ : BufTy).Contents (Elt F) → (⟨S8192x1, .f32⟩ : BufTy).Contents (Elt F)) (cast_eq _ _))

theorem at_main_call2_v4 (V : Valuation τ sig (Elt F)) :
    after (ValueP.ops (F := F)) V (Proc.devRef .tc main_call2_v4) = ReadP.val_main_call2_v4 (F := F) (V (Proc.devRef .tc main_arg0)) (V (Proc.devRef .tc main_arg1)) := by
  rewrite [LibHostRead.after_unary_fix (x := main_call2_v3) (y := main_call2_v4) aligned 38 rfl (by decide) (by decide) (by decide) V]
  unfold ReadP.val_main_call2_v4
  rewrite [at_main_call2_v3 V]
  generalize ReadP.val_main_call2_v3 (F := F) (V (Proc.devRef .tc main_arg0)) (V (Proc.devRef .tc main_arg1)) = X0
  exact (cast_eq _ _).trans (congrArg ((broadcastInDim S8192x8192 ![0, 1] bcast_S8192x1_S8192x8192_0_1) : (⟨S8192x1, .f32⟩ : BufTy).Contents (Elt F) → (⟨S8192x8192, .f32⟩ : BufTy).Contents (Elt F)) (cast_eq _ _))

theorem at_main_call2_v5 (V : Valuation τ sig (Elt F)) :
    after (ValueP.ops (F := F)) V (Proc.devRef .tc main_call2_v5) = ReadP.val_main_call2_v5 (F := F) (V (Proc.devRef .tc main_arg0)) (V (Proc.devRef .tc main_arg1)) := by
  rewrite [LibHostRead.after_binary_fix (a := main_v14) (b := main_call2_v4) (y := main_call2_v5) aligned 39 rfl (by decide) (by decide) (by decide) (by decide) (by decide) V]
  unfold ReadP.val_main_call2_v5
  rewrite [at_main_v14 V, at_main_call2_v4 V]
  generalize ReadP.val_main_v14 (F := F) (V (Proc.devRef .tc main_arg0)) (V (Proc.devRef .tc main_arg1)) = X0
  generalize ReadP.val_main_call2_v4 (F := F) (V (Proc.devRef .tc main_arg0)) (V (Proc.devRef .tc main_arg1)) = X1
  exact (cast_eq _ _).trans (congrArg₂ (subf : (⟨S8192x8192, .f32⟩ : BufTy).Contents (Elt F) → (⟨S8192x8192, .f32⟩ : BufTy).Contents (Elt F) → (⟨S8192x8192, .f32⟩ : BufTy).Contents (Elt F)) (cast_eq _ _) (cast_eq _ _))

theorem at_main_call2_v6 (V : Valuation τ sig (Elt F)) :
    after (ValueP.ops (F := F)) V (Proc.devRef .tc main_call2_v6) = ReadP.val_main_call2_v6 (F := F) (V (Proc.devRef .tc main_arg0)) (V (Proc.devRef .tc main_arg1)) := by
  rewrite [LibHostRead.after_unary_fix (x := main_call2_v5) (y := main_call2_v6) aligned 40 rfl (by decide) (by decide) (by decide) V]
  unfold ReadP.val_main_call2_v6
  rewrite [at_main_call2_v5 V]
  generalize ReadP.val_main_call2_v5 (F := F) (V (Proc.devRef .tc main_arg0)) (V (Proc.devRef .tc main_arg1)) = X0
  exact (cast_eq _ _).trans (congrArg (Host.exp : (⟨S8192x8192, .f32⟩ : BufTy).Contents (Elt F) → (⟨S8192x8192, .f32⟩ : BufTy).Contents (Elt F)) (cast_eq _ _))

theorem at_main_call2_cst_1 (V : Valuation τ sig (Elt F)) :
    after (ValueP.ops (F := F)) V (Proc.devRef .tc main_call2_cst_1) = ReadP.val_main_call2_cst_1 (F := F) := by
  rewrite [LibHostRead.after_nullary_fix (y := main_call2_cst_1) aligned 41 rfl (by decide) V]
  unfold ReadP.val_main_call2_cst_1
  exact cast_eq _ _

theorem at_main_call2_v7 (V : Valuation τ sig (Elt F)) :
    after (ValueP.ops (F := F)) V (Proc.devRef .tc main_call2_v7) = ReadP.val_main_call2_v7 (F := F) (V (Proc.devRef .tc main_arg0)) (V (Proc.devRef .tc main_arg1)) := by
  rewrite [LibHostRead.after_binary_fix (a := main_call2_v6) (b := main_call2_cst_1) (y := main_call2_v7) aligned 42 rfl (by decide) (by decide) (by decide) (by decide) (by decide) V]
  unfold ReadP.val_main_call2_v7
  rewrite [at_main_call2_v6 V, at_main_call2_cst_1 V]
  generalize ReadP.val_main_call2_v6 (F := F) (V (Proc.devRef .tc main_arg0)) (V (Proc.devRef .tc main_arg1)) = X0
  generalize ReadP.val_main_call2_cst_1 (F := F) = X1
  exact (cast_eq _ _).trans (congrArg₂ ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (cast_eq _ _) (cast_eq _ _))

theorem at_main_call2_v8 (V : Valuation τ sig (Elt F)) :
    after (ValueP.ops (F := F)) V (Proc.devRef .tc main_call2_v8) = ReadP.val_main_call2_v8 (F := F) (V (Proc.devRef .tc main_arg0)) (V (Proc.devRef .tc main_arg1)) := by
  rewrite [LibHostRead.after_unary_fix (x := main_call2_v7) (y := main_call2_v8) aligned 43 rfl (by decide) (by decide) (by decide) V]
  unfold ReadP.val_main_call2_v8
  rewrite [at_main_call2_v7 V]
  generalize ReadP.val_main_call2_v7 (F := F) (V (Proc.devRef .tc main_arg0)) (V (Proc.devRef .tc main_arg1)) = X0
  exact (cast_eq _ _).trans (congrArg ((broadcastInDim S8192x1 ![0] bcast_S8192_S8192x1_0) : (⟨S8192, .f32⟩ : BufTy).Contents (Elt F) → (⟨S8192x1, .f32⟩ : BufTy).Contents (Elt F)) (cast_eq _ _))

theorem at_main_call2_v9 (V : Valuation τ sig (Elt F)) :
    after (ValueP.ops (F := F)) V (Proc.devRef .tc main_call2_v9) = ReadP.val_main_call2_v9 (F := F) (V (Proc.devRef .tc main_arg0)) (V (Proc.devRef .tc main_arg1)) := by
  rewrite [LibHostRead.after_unary_fix (x := main_call2_v8) (y := main_call2_v9) aligned 44 rfl (by decide) (by decide) (by decide) V]
  unfold ReadP.val_main_call2_v9
  rewrite [at_main_call2_v8 V]
  generalize ReadP.val_main_call2_v8 (F := F) (V (Proc.devRef .tc main_arg0)) (V (Proc.devRef .tc main_arg1)) = X0
  exact (cast_eq _ _).trans (congrArg (Host.log : (⟨S8192x1, .f32⟩ : BufTy).Contents (Elt F) → (⟨S8192x1, .f32⟩ : BufTy).Contents (Elt F)) (cast_eq _ _))

theorem at_main_call2_v10 (V : Valuation τ sig (Elt F)) :
    after (ValueP.ops (F := F)) V (Proc.devRef .tc main_call2_v10) = ReadP.val_main_call2_v10 (F := F) (V (Proc.devRef .tc main_arg0)) (V (Proc.devRef .tc main_arg1)) := by
  rewrite [LibHostRead.after_unary_fix (x := main_call2_v9) (y := main_call2_v10) aligned 45 rfl (by decide) (by decide) (by decide) V]
  unfold ReadP.val_main_call2_v10
  rewrite [at_main_call2_v9 V]
  generalize ReadP.val_main_call2_v9 (F := F) (V (Proc.devRef .tc main_arg0)) (V (Proc.devRef .tc main_arg1)) = X0
  exact (cast_eq _ _).trans (congrArg ((broadcastInDim S8192x8192 ![0, 1] bcast_S8192x1_S8192x8192_0_1) : (⟨S8192x1, .f32⟩ : BufTy).Contents (Elt F) → (⟨S8192x8192, .f32⟩ : BufTy).Contents (Elt F)) (cast_eq _ _))

theorem at_main_v20 (V : Valuation τ sig (Elt F)) :
    after (ValueP.ops (F := F)) V (Proc.devRef .tc main_v20) = ReadP.val_main_v20 (F := F) (V (Proc.devRef .tc main_arg0)) (V (Proc.devRef .tc main_arg1)) := by
  rewrite [LibHostRead.after_binary_fix (a := main_call2_v5) (b := main_call2_v10) (y := main_v20) aligned 46 rfl (by decide) (by decide) (by decide) (by decide) (by decide) V]
  unfold ReadP.val_main_v20
  rewrite [at_main_call2_v5 V, at_main_call2_v10 V]
  generalize ReadP.val_main_call2_v5 (F := F) (V (Proc.devRef .tc main_arg0)) (V (Proc.devRef .tc main_arg1)) = X0
  generalize ReadP.val_main_call2_v10 (F := F) (V (Proc.devRef .tc main_arg0)) (V (Proc.devRef .tc main_arg1)) = X1
  exact (cast_eq _ _).trans (congrArg₂ (subf : (⟨S8192x8192, .f32⟩ : BufTy).Contents (Elt F) → (⟨S8192x8192, .f32⟩ : BufTy).Contents (Elt F) → (⟨S8192x8192, .f32⟩ : BufTy).Contents (Elt F)) (cast_eq _ _) (cast_eq _ _))

theorem at_main_v21 (V : Valuation τ sig (Elt F)) :
    after (ValueP.ops (F := F)) V (Proc.devRef .tc main_v21) = ReadP.val_main_v21 (F := F) := by
  rewrite [LibHostRead.after_unary_fix (x := main_v19) (y := main_v21) aligned 47 rfl (by decide) (by decide) (by decide) V]
  unfold ReadP.val_main_v21
  rewrite [at_main_v19 V]
  generalize ReadP.val_main_v19 (F := F) = X0
  rfl

theorem at_main_call3_c (V : Valuation τ sig (Elt F)) :
    after (ValueP.ops (F := F)) V (Proc.devRef .tc main_call3_c) = ReadP.val_main_call3_c (F := F) := by
  rewrite [LibHostRead.after_nullary_fix (y := main_call3_c) aligned 48 rfl (by decide) V]
  unfold ReadP.val_main_call3_c
  exact cast_eq _ _

theorem at_main_call3_v0 (V : Valuation τ sig (Elt F)) :
    after (ValueP.ops (F := F)) V (Proc.devRef .tc main_call3_v0) = ReadP.val_main_call3_v0 (F := F) := by
  rewrite [LibHostRead.after_unary_fix (x := main_call3_c) (y := main_call3_v0) aligned 49 rfl (by decide) (by decide) (by decide) V]
  unfold ReadP.val_main_call3_v0
  rewrite [at_main_call3_c V]
  generalize ReadP.val_main_call3_c (F := F) = X0
  exact (cast_eq _ _).trans (congrArg ((broadcastInDim S8192x1 ![] bcast_S_S8192x1) : (⟨S_, .i32⟩ : BufTy).Contents (Elt F) → (⟨S8192x1, .i32⟩ : BufTy).Contents (Elt F)) (cast_eq _ _))

theorem at_main_call3_v1 (V : Valuation τ sig (Elt F)) :
    after (ValueP.ops (F := F)) V (Proc.devRef .tc main_call3_v1) = ReadP.val_main_call3_v1 (F := F) := by
  rewrite [LibHostRead.after_binary_fix (a := main_v21) (b := main_call3_v0) (y := main_call3_v1) aligned 50 rfl (by decide) (by decide) (by decide) (by decide) (by decide) V]
  unfold ReadP.val_main_call3_v1
  rewrite [at_main_v21 V, at_main_call3_v0 V]
  generalize ReadP.val_main_v21 (F := F) = X0
  generalize ReadP.val_main_call3_v0 (F := F) = X1
  exact (cast_eq _ _).trans (congrArg₂ ((cmpi .slt) : (⟨S8192x1, .i32⟩ : BufTy).Contents (Elt F) → (⟨S8192x1, .i32⟩ : BufTy).Contents (Elt F) → (⟨S8192x1, .i1⟩ : BufTy).Contents (Elt F)) (cast_eq _ _) (cast_eq _ _))

theorem at_main_call3_c_0 (V : Valuation τ sig (Elt F)) :
    after (ValueP.ops (F := F)) V (Proc.devRef .tc main_call3_c_0) = ReadP.val_main_call3_c_0 (F := F) := by
  rewrite [LibHostRead.after_nullary_fix (y := main_call3_c_0) aligned 51 rfl (by decide) V]
  unfold ReadP.val_main_call3_c_0
  exact cast_eq _ _

theorem at_main_call3_v2 (V : Valuation τ sig (Elt F)) :
    after (ValueP.ops (F := F)) V (Proc.devRef .tc main_call3_v2) = ReadP.val_main_call3_v2 (F := F) := by
  rewrite [LibHostRead.after_unary_fix (x := main_call3_c_0) (y := main_call3_v2) aligned 52 rfl (by decide) (by decide) (by decide) V]
  unfold ReadP.val_main_call3_v2
  rewrite [at_main_call3_c_0 V]
  generalize ReadP.val_main_call3_c_0 (F := F) = X0
  exact (cast_eq _ _).trans (congrArg ((broadcastInDim S8192x1 ![] bcast_S_S8192x1) : (⟨S_, .i32⟩ : BufTy).Contents (Elt F) → (⟨S8192x1, .i32⟩ : BufTy).Contents (Elt F)) (cast_eq _ _))

theorem at_main_call3_v3 (V : Valuation τ sig (Elt F)) :
    after (ValueP.ops (F := F)) V (Proc.devRef .tc main_call3_v3) = ReadP.val_main_call3_v3 (F := F) := by
  rewrite [LibHostRead.after_binary_fix (a := main_v21) (b := main_call3_v2) (y := main_call3_v3) aligned 53 rfl (by decide) (by decide) (by decide) (by decide) (by decide) V]
  unfold ReadP.val_main_call3_v3
  rewrite [at_main_v21 V, at_main_call3_v2 V]
  generalize ReadP.val_main_v21 (F := F) = X0
  generalize ReadP.val_main_call3_v2 (F := F) = X1
  exact (cast_eq _ _).trans (congrArg₂ (addi : (⟨S8192x1, .i32⟩ : BufTy).Contents (Elt F) → (⟨S8192x1, .i32⟩ : BufTy).Contents (Elt F) → (⟨S8192x1, .i32⟩ : BufTy).Contents (Elt F)) (cast_eq _ _) (cast_eq _ _))

theorem at_main_call3_v4 (V : Valuation τ sig (Elt F)) :
    after (ValueP.ops (F := F)) V (Proc.devRef .tc main_call3_v4) = ReadP.val_main_call3_v4 (F := F) := by
  rewrite [LibHostRead.after_ternary_fix (c := main_call3_v1) (a := main_call3_v3) (b := main_v21) (y := main_call3_v4) aligned 54 rfl (by decide) (by decide) (by decide) (by decide) (by decide) (by decide) (by decide) V]
  unfold ReadP.val_main_call3_v4
  rewrite [at_main_call3_v1 V, at_main_call3_v3 V, at_main_v21 V]
  generalize ReadP.val_main_call3_v1 (F := F) = X0
  generalize ReadP.val_main_call3_v3 (F := F) = X1
  generalize ReadP.val_main_v21 (F := F) = X2
  refine (cast_eq _ _).trans ?_
  exact (congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) t (cast _ X1) (cast _ X2)) (cast_eq _ X0)).trans
    ((congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) X0 t (cast _ X2)) (cast_eq _ X1)).trans
      (congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) X0 X1 t) (cast_eq _ X2)))

theorem at_main_call3_v5 (V : Valuation τ sig (Elt F)) :
    after (ValueP.ops (F := F)) V (Proc.devRef .tc main_call3_v5) = ReadP.val_main_call3_v5 (F := F) := by
  rewrite [LibHostRead.after_reshape_fix (x := main_call3_v4) (y := main_call3_v5) aligned 55 rfl (by decide) (by decide) (by decide) V]
  unfold ReadP.val_main_call3_v5
  rewrite [at_main_call3_v4 V]
  generalize ReadP.val_main_call3_v4 (F := F) = X0
  rfl

theorem at_main_call3_c_1 (V : Valuation τ sig (Elt F)) :
    after (ValueP.ops (F := F)) V (Proc.devRef .tc main_call3_c_1) = ReadP.val_main_call3_c_1 (F := F) := by
  rewrite [LibHostRead.after_nullary_fix (y := main_call3_c_1) aligned 56 rfl (by decide) V]
  unfold ReadP.val_main_call3_c_1
  exact cast_eq _ _

theorem at_main_call3_c_2 (V : Valuation τ sig (Elt F)) :
    after (ValueP.ops (F := F)) V (Proc.devRef .tc main_call3_c_2) = ReadP.val_main_call3_c_2 (F := F) := by
  rewrite [LibHostRead.after_nullary_fix (y := main_call3_c_2) aligned 57 rfl (by decide) V]
  unfold ReadP.val_main_call3_c_2
  exact cast_eq _ _

theorem at_main_call3_v6 (V : Valuation τ sig (Elt F)) :
    after (ValueP.ops (F := F)) V (Proc.devRef .tc main_call3_v6) = ReadP.val_main_call3_v6 (F := F) := by
  rewrite [LibHostRead.after_unary_fix (x := main_call3_c_2) (y := main_call3_v6) aligned 58 rfl (by decide) (by decide) (by decide) V]
  unfold ReadP.val_main_call3_v6
  rewrite [at_main_call3_c_2 V]
  generalize ReadP.val_main_call3_c_2 (F := F) = X0
  exact (cast_eq _ _).trans (congrArg ((broadcastInDim S8192x1x1 ![] bcast_S_S8192x1x1) : (⟨S_, .i32⟩ : BufTy).Contents (Elt F) → (⟨S8192x1x1, .i32⟩ : BufTy).Contents (Elt F)) (cast_eq _ _))

theorem at_main_call3_v7 (V : Valuation τ sig (Elt F)) :
    after (ValueP.ops (F := F)) V (Proc.devRef .tc main_call3_v7) = ReadP.val_main_call3_v7 (F := F) := by
  rewrite [LibHostRead.after_binary_fix (a := main_call3_v5) (b := main_call3_v6) (y := main_call3_v7) aligned 59 rfl (by decide) (by decide) (by decide) (by decide) (by decide) V]
  unfold ReadP.val_main_call3_v7
  rewrite [at_main_call3_v5 V, at_main_call3_v6 V]
  generalize ReadP.val_main_call3_v5 (F := F) = X0
  generalize ReadP.val_main_call3_v6 (F := F) = X1
  exact (cast_eq _ _).trans (congrArg₂ ((cmpi .sge) : (⟨S8192x1x1, .i32⟩ : BufTy).Contents (Elt F) → (⟨S8192x1x1, .i32⟩ : BufTy).Contents (Elt F) → (⟨S8192x1x1, .i1⟩ : BufTy).Contents (Elt F)) (cast_eq _ _) (cast_eq _ _))

theorem at_main_call3_v8 (V : Valuation τ sig (Elt F)) :
    after (ValueP.ops (F := F)) V (Proc.devRef .tc main_call3_v8) = ReadP.val_main_call3_v8 (F := F) := by
  rewrite [LibHostRead.after_unary_fix (x := main_call3_c_1) (y := main_call3_v8) aligned 60 rfl (by decide) (by decide) (by decide) V]
  unfold ReadP.val_main_call3_v8
  rewrite [at_main_call3_c_1 V]
  generalize ReadP.val_main_call3_c_1 (F := F) = X0
  exact (cast_eq _ _).trans (congrArg ((broadcastInDim S1x1x1 ![2] bcast_S1_S1x1x1_2) : (⟨S1, .i32⟩ : BufTy).Contents (Elt F) → (⟨S1x1x1, .i32⟩ : BufTy).Contents (Elt F)) (cast_eq _ _))

theorem at_main_call3_v9 (V : Valuation τ sig (Elt F)) :
    after (ValueP.ops (F := F)) V (Proc.devRef .tc main_call3_v9) = ReadP.val_main_call3_v9 (F := F) := by
  rewrite [LibHostRead.after_unary_fix (x := main_call3_v8) (y := main_call3_v9) aligned 61 rfl (by decide) (by decide) (by decide) V]
  unfold ReadP.val_main_call3_v9
  rewrite [at_main_call3_v8 V]
  generalize ReadP.val_main_call3_v8 (F := F) = X0
  exact (cast_eq _ _).trans (congrArg ((broadcastInDim S8192x1x1 ![0, 1, 2] bcast_S1x1x1_S8192x1x1_0_1_2) : (⟨S1x1x1, .i32⟩ : BufTy).Contents (Elt F) → (⟨S8192x1x1, .i32⟩ : BufTy).Contents (Elt F)) (cast_eq _ _))

theorem at_main_call3_v10 (V : Valuation τ sig (Elt F)) :
    after (ValueP.ops (F := F)) V (Proc.devRef .tc main_call3_v10) = ReadP.val_main_call3_v10 (F := F) := by
  rewrite [LibHostRead.after_binary_fix (a := main_call3_v5) (b := main_call3_v9) (y := main_call3_v10) aligned 62 rfl (by decide) (by decide) (by decide) (by decide) (by decide) V]
  unfold ReadP.val_main_call3_v10
  rewrite [at_main_call3_v5 V, at_main_call3_v9 V]
  generalize ReadP.val_main_call3_v5 (F := F) = X0
  generalize ReadP.val_main_call3_v9 (F := F) = X1
  exact (cast_eq _ _).trans (congrArg₂ ((cmpi .sle) : (⟨S8192x1x1, .i32⟩ : BufTy).Contents (Elt F) → (⟨S8192x1x1, .i32⟩ : BufTy).Contents (Elt F) → (⟨S8192x1x1, .i1⟩ : BufTy).Contents (Elt F)) (cast_eq _ _) (cast_eq _ _))

theorem at_main_call3_v11 (V : Valuation τ sig (Elt F)) :
    after (ValueP.ops (F := F)) V (Proc.devRef .tc main_call3_v11) = ReadP.val_main_call3_v11 (F := F) := by
  rewrite [LibHostRead.after_binary_fix (a := main_call3_v7) (b := main_call3_v10) (y := main_call3_v11) aligned 63 rfl (by decide) (by decide) (by decide) (by decide) (by decide) V]
  unfold ReadP.val_main_call3_v11
  rewrite [at_main_call3_v7 V, at_main_call3_v10 V]
  generalize ReadP.val_main_call3_v7 (F := F) = X0
  generalize ReadP.val_main_call3_v10 (F := F) = X1
  exact (cast_eq _ _).trans (congrArg₂ (andi : (⟨S8192x1x1, .i1⟩ : BufTy).Contents (Elt F) → (⟨S8192x1x1, .i1⟩ : BufTy).Contents (Elt F) → (⟨S8192x1x1, .i1⟩ : BufTy).Contents (Elt F)) (cast_eq _ _) (cast_eq _ _))

theorem at_main_call3_c_3 (V : Valuation τ sig (Elt F)) :
    after (ValueP.ops (F := F)) V (Proc.devRef .tc main_call3_c_3) = ReadP.val_main_call3_c_3 (F := F) := by
  rewrite [LibHostRead.after_nullary_fix (y := main_call3_c_3) aligned 64 rfl (by decide) V]
  unfold ReadP.val_main_call3_c_3
  exact cast_eq _ _

theorem at_main_call3_v12 (V : Valuation τ sig (Elt F)) :
    after (ValueP.ops (F := F)) V (Proc.devRef .tc main_call3_v12) = ReadP.val_main_call3_v12 (F := F) := by
  rewrite [LibHostRead.after_binary_fix (a := main_call3_v11) (b := main_call3_c_3) (y := main_call3_v12) aligned 65 rfl (by decide) (by decide) (by decide) (by decide) (by decide) V]
  unfold ReadP.val_main_call3_v12
  rewrite [at_main_call3_v11 V, at_main_call3_c_3 V]
  generalize ReadP.val_main_call3_v11 (F := F) = X0
  generalize ReadP.val_main_call3_c_3 (F := F) = X1
  exact (cast_eq _ _).trans (congrArg₂ ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) (cast_eq _ _) (cast_eq _ _))

theorem at_main_call3_v13 (V : Valuation τ sig (Elt F)) :
    after (ValueP.ops (F := F)) V (Proc.devRef .tc main_call3_v13) = ReadP.val_main_call3_v13 (F := F) (V (Proc.devRef .tc main_arg0)) (V (Proc.devRef .tc main_arg1)) := by
  rewrite [LibHostRead.after_binary_fix (a := main_v20) (b := main_call3_v5) (y := main_call3_v13) aligned 66 rfl (by decide) (by decide) (by decide) (by decide) (by decide) V]
  unfold ReadP.val_main_call3_v13
  rewrite [at_main_v20 V, at_main_call3_v5 V]
  generalize ReadP.val_main_v20 (F := F) (V (Proc.devRef .tc main_arg0)) (V (Proc.devRef .tc main_arg1)) = X0
  generalize ReadP.val_main_call3_v5 (F := F) = X1
  exact (cast_eq _ _).trans (congrArg₂ ((fun x i => Host.gather gather_S8192x8192_S8192x1x1_S8192x1_n_1_0_0_1_2_11 x i) : (⟨S8192x8192, .f32⟩ : BufTy).Contents (Elt F) → (⟨S8192x1x1, .i32⟩ : BufTy).Contents (Elt F) → (⟨S8192x1, .f32⟩ : BufTy).Contents (Elt F)) (cast_eq _ _) (cast_eq _ _))

theorem at_main_call3_cst (V : Valuation τ sig (Elt F)) :
    after (ValueP.ops (F := F)) V (Proc.devRef .tc main_call3_cst) = ReadP.val_main_call3_cst (F := F) := by
  rewrite [LibHostRead.after_nullary_fix (y := main_call3_cst) aligned 67 rfl (by decide) V]
  unfold ReadP.val_main_call3_cst
  exact cast_eq _ _

theorem at_main_call3_v14 (V : Valuation τ sig (Elt F)) :
    after (ValueP.ops (F := F)) V (Proc.devRef .tc main_call3_v14) = ReadP.val_main_call3_v14 (F := F) := by
  rewrite [LibHostRead.after_unary_fix (x := main_call3_cst) (y := main_call3_v14) aligned 68 rfl (by decide) (by decide) (by decide) V]
  unfold ReadP.val_main_call3_v14
  rewrite [at_main_call3_cst V]
  generalize ReadP.val_main_call3_cst (F := F) = X0
  exact (cast_eq _ _).trans (congrArg ((broadcastInDim S8192x1 ![] bcast_S_S8192x1) : (⟨S_, .f32⟩ : BufTy).Contents (Elt F) → (⟨S8192x1, .f32⟩ : BufTy).Contents (Elt F)) (cast_eq _ _))

theorem at_main_v22 (V : Valuation τ sig (Elt F)) :
    after (ValueP.ops (F := F)) V (Proc.devRef .tc main_v22) = ReadP.val_main_v22 (F := F) (V (Proc.devRef .tc main_arg0)) (V (Proc.devRef .tc main_arg1)) := by
  rewrite [LibHostRead.after_ternary_fix (c := main_call3_v12) (a := main_call3_v13) (b := main_call3_v14) (y := main_v22) aligned 69 rfl (by decide) (by decide) (by decide) (by decide) (by decide) (by decide) (by decide) V]
  unfold ReadP.val_main_v22
  rewrite [at_main_call3_v12 V, at_main_call3_v13 V, at_main_call3_v14 V]
  generalize ReadP.val_main_call3_v12 (F := F) = X0
  generalize ReadP.val_main_call3_v13 (F := F) (V (Proc.devRef .tc main_arg0)) (V (Proc.devRef .tc main_arg1)) = X1
  generalize ReadP.val_main_call3_v14 (F := F) = X2
  refine (cast_eq _ _).trans ?_
  exact (congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) t (cast _ X1) (cast _ X2)) (cast_eq _ X0)).trans
    ((congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) X0 t (cast _ X2)) (cast_eq _ X1)).trans
      (congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) X0 X1 t) (cast_eq _ X2)))

theorem at_main_cst_2 (V : Valuation τ sig (Elt F)) :
    after (ValueP.ops (F := F)) V (Proc.devRef .tc main_cst_2) = ReadP.val_main_cst_2 (F := F) := by
  rewrite [LibHostRead.after_nullary_fix (y := main_cst_2) aligned 70 rfl (by decide) V]
  rfl

theorem at_main_v23 (V : Valuation τ sig (Elt F)) :
    after (ValueP.ops (F := F)) V (Proc.devRef .tc main_v23) = ReadP.val_main_v23 (F := F) (V (Proc.devRef .tc main_arg0)) (V (Proc.devRef .tc main_arg1)) := by
  rewrite [LibHostRead.after_binary_fix (a := main_v22) (b := main_cst_2) (y := main_v23) aligned 71 rfl (by decide) (by decide) (by decide) (by decide) (by decide) V]
  unfold ReadP.val_main_v23
  rewrite [at_main_v22 V, at_main_cst_2 V]
  generalize ReadP.val_main_v22 (F := F) (V (Proc.devRef .tc main_arg0)) (V (Proc.devRef .tc main_arg1)) = X0
  generalize ReadP.val_main_cst_2 (F := F) = X1
  rfl

theorem at_main_cst_3 (V : Valuation τ sig (Elt F)) :
    after (ValueP.ops (F := F)) V (Proc.devRef .tc main_cst_3) = ReadP.val_main_cst_3 (F := F) := by
  rewrite [LibHostRead.after_nullary_fix (y := main_cst_3) aligned 72 rfl (by decide) V]
  rfl

theorem at_main_v24 (V : Valuation τ sig (Elt F)) :
    after (ValueP.ops (F := F)) V (Proc.devRef .tc main_v24) = ReadP.val_main_v24 (F := F) (V (Proc.devRef .tc main_arg0)) (V (Proc.devRef .tc main_arg1)) := by
  rewrite [LibHostRead.after_binary_fix (a := main_v23) (b := main_cst_3) (y := main_v24) aligned 73 rfl (by decide) (by decide) (by decide) (by decide) (by decide) V]
  unfold ReadP.val_main_v24
  rewrite [at_main_v23 V, at_main_cst_3 V]
  generalize ReadP.val_main_v23 (F := F) (V (Proc.devRef .tc main_arg0)) (V (Proc.devRef .tc main_arg1)) = X0
  generalize ReadP.val_main_cst_3 (F := F) = X1
  rfl

theorem at_main_v25 (V : Valuation τ sig (Elt F)) :
    after (ValueP.ops (F := F)) V (Proc.devRef .tc main_v25) = ReadP.val_main_v25 (F := F) (V (Proc.devRef .tc main_arg0)) (V (Proc.devRef .tc main_arg1)) := by
  rewrite [LibHostRead.after_unary_fix (x := main_v24) (y := main_v25) aligned 74 rfl (by decide) (by decide) (by decide) V]
  unfold ReadP.val_main_v25
  rewrite [at_main_v24 V]
  generalize ReadP.val_main_v24 (F := F) (V (Proc.devRef .tc main_arg0)) (V (Proc.devRef .tc main_arg1)) = X0
  rfl

/-! ## The result, and the run -/

/-- The result buffer's final contents are the program's value of the two arguments' contents. -/
theorem result (V : Valuation τ sig (Elt F)) :
    after (ValueP.ops (F := F)) V (Proc.devRef .tc main_v25)
      = ReadP.val_main_v25 (F := F) (V (Proc.devRef .tc main_arg0)) (V (Proc.devRef .tc main_arg1)) :=
  at_main_v25 V

/-- On every device, from any memory with zero counters: every weakly fair execution of the reference program
    terminates with the result buffer at the program's value of the arguments' launch contents, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v25)
          = ReadP.val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (result _), (h c main_arg0).trans (arg0 _), (h c main_arg1).trans (arg1 _)⟩)
    (run_seq ValueP.scopedRefs_eq ValueP.scopedSems_eq defs main (fun _ => ValueP.ops) ValueP.main_eq (fun _ => ValueP.ops_sub) m ρ)

end Cert.RefAfter

end
-- ==== Proof.RefValue.lean ====
/-
  The reference program's run, stated at the specification's reference loss.

  Every weakly fair execution of the reference ends with each buffer holding what the program's operations, applied in
  order, leave there. Its result buffer then holds the last stage of the program as a function of the two argument
  arrays, which is the specification's reference loss of them; the arguments are written by no operation.
-/
import proofs.«100509_j81003083202828_2_alg».proof.Proof.RefResult
import proofs.«100509_j81003083202828_2_alg».proof.Proof.RefAfter

noncomputable section

namespace Cert.RefValue

open Idealize.ShloMosaic Idealize.ShloMosaic.TcCoe Idealize.SL.Sem Cert.ReferenceIdeal Cert.ReferenceIdeal.Gen
  Cert.ReferenceIdeal.ReadP Cert.Spec

/-- On every device, from any memory with zero counters: every weakly fair execution of the reference terminates
    with its result at the specification's reference loss of the arguments' launch contents, the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v25)
          = (fun _ => referenceLoss (rows (m ((c.tc : Thread nD τ).loc main_arg0))) (rows (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run Cert.ReferenceIdeal.defs _ _).mono (fun _ h c => ⟨(h c).1.trans (result_eq _ _), (h c).2⟩) (Cert.RefAfter.run m ρ)

end Cert.RefValue

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.BridgeConst.lean ====
/-
  The constants of the two loss formulas as real numbers: the temperature word is the real
  9395241 / 2^27, whose reciprocal is the kernel's scale; the row count word is 8192; the factor word
  is 2; the norm clamp is a positive real. Division by the temperature is multiplication by the
  kernel's scale, and division by the count is multiplication by 1 / 8192.
-/
import proofs.«100509_j81003083202828_2_alg».proof.Proof.Spec
import proofs.«100509_j81003083202828_2_alg».proof.Proof.LibFinite

open scoped BigOperators
open Idealize.ShloMosaic

namespace Cert.Spec

/-- The kernel's scale as a real number. -/
noncomputable def cR : ℝ := 134217728 / 9395241

theorem cR_pos : 0 < cR := by unfold cR; norm_num

theorem invTemp_eq : invTemp = ((cR : ℝ) : EReal) := rfl

theorem temp_eq : temp = ((9395241 / 134217728 : ℝ) : EReal) := by
  simp [temp, Ideal.ofBits, Ideal.ieee, -EReal.coe_mul]; norm_num

theorem count_eq : count = ((8192 : ℝ) : EReal) := by
  simp [count, Ideal.ofBits, Ideal.ieee, -EReal.coe_mul]; norm_num

theorem two_eq : two = ((2 : ℝ) : EReal) := by
  simp [two, Ideal.ofBits, Ideal.ieee, -EReal.coe_mul]; norm_num

/-- The norm clamp as a real number. -/
noncomputable def epsR : ℝ := 9223372 * (2 : ℝ) ^ (-63 : ℤ)

theorem epsR_pos : 0 < epsR := by unfold epsR; positivity

theorem eps_eq : eps = ((epsR : ℝ) : EReal) := by
  simp [eps, epsR, Ideal.ofBits, Ideal.ieee, -EReal.coe_mul]

/-- Division by the temperature is multiplication by the kernel's scale. -/
theorem div_temp (x : EReal) : Ideal.div x temp = x * invTemp := by
  rw [temp_eq, Ideal.div_coe (by norm_num) x, invTemp_eq]
  congr 2; unfold cR; norm_num

/-- On a real number: the quotient by the temperature is the real product with the scale. -/
theorem div_temp_coe (x : ℝ) : Ideal.div (x : EReal) temp = ((x * cR : ℝ) : EReal) := by
  rw [div_temp, invTemp_eq, ← EReal.coe_mul]

/-- On a real number: the quotient by the count is the real quotient by 8192. -/
theorem div_count_coe (x : ℝ) : Ideal.div (x : EReal) count = ((x / 8192 : ℝ) : EReal) := by
  rw [count_eq, LibFinite.div_coe_coe x (by norm_num)]

end Cert.Spec
-- ==== Proof.BridgeLse.lean ====
/-
  The log-sum-exp step, over any finite nonempty index type and in real numbers.
  For real f and any real shift m,
      log (sum_j exp (f j - m)) = log (sum_j exp (f j)) - m,
  because exp (f j - m) = exp (f j) / exp m and the sum of exponentials is positive. Hence
      m + log (sum_j exp (f j - m)) = log (sum_j exp (f j))            (the shift added back), and
      (f j - m) - log (sum_j' exp (f j' - m)) = f j - log (sum_j' exp (f j'))   (log-softmax),
  whatever the shift. A running maximum from minus infinity over a nonempty finite family of reals is
  a real number.
-/
import proofs.«100509_j81003083202828_2_alg».proof.Proof.LibFinite

open scoped BigOperators
open Idealize.ShloMosaic

namespace Cert.Bridge

variable {ι : Type*} [Fintype ι] [Nonempty ι]

theorem sum_exp_pos (f : ι → ℝ) : 0 < ∑ j, Real.exp (f j) :=
  Finset.sum_pos (fun j _ => Real.exp_pos _) Finset.univ_nonempty

/-- The logarithm of a shifted sum of exponentials, on the extended reals. -/
theorem log_sum_exp_shift (f : ι → ℝ) (m : ℝ) :
    Ideal.log (∑ j, Ideal.exp ((f j : EReal) - (m : EReal)))
      = ((Real.log (∑ j, Real.exp (f j)) - m : ℝ) : EReal) := by
  have h1 : ∀ j, Ideal.exp ((f j : EReal) - (m : EReal)) = ((Real.exp (f j - m) : ℝ) : EReal) := by
    intro j; rw [← EReal.coe_sub, Ideal.exp_coe]
  simp_rw [h1]
  rw [← LibFinite.coe_finset_sum, Ideal.log_coe, if_neg (not_le.mpr (sum_exp_pos fun j => f j - m))]
  congr 1
  have h2 : ∑ j, Real.exp (f j - m) = (∑ j, Real.exp (f j)) / Real.exp m := by
    rw [Finset.sum_div]; exact Finset.sum_congr rfl fun j _ => Real.exp_sub _ _
  rw [h2, Real.log_div (sum_exp_pos f).ne' (Real.exp_ne_zero m), Real.log_exp]

/-- The shift added back after the logarithm. -/
theorem lse_shift (f : ι → ℝ) (m : ℝ) :
    (m : EReal) + Ideal.log (∑ j, Ideal.exp ((f j : EReal) - (m : EReal)))
      = ((Real.log (∑ j, Real.exp (f j)) : ℝ) : EReal) := by
  rw [log_sum_exp_shift, ← EReal.coe_add]; congr 1; ring

/-- A log-softmax entry does not depend on the shift. -/
theorem logp_shift (f : ι → ℝ) (m : ℝ) (j : ι) :
    ((f j : EReal) - (m : EReal)) - Ideal.log (∑ j', Ideal.exp ((f j' : EReal) - (m : EReal)))
      = ((f j - Real.log (∑ j', Real.exp (f j')) : ℝ) : EReal) := by
  rw [log_sum_exp_shift, ← EReal.coe_sub, ← EReal.coe_sub]; congr 1; ring

/-- The coercion of the reals into the extended reals commutes with the maximum. -/
theorem coe_max (x y : ℝ) : ((max x y : ℝ) : EReal) = max (x : EReal) (y : EReal) :=
  EReal.coe_strictMono.monotone.map_max

/-- A running maximum from minus infinity over a nonempty finite family of reals is a real. -/
theorem fold_max_bot_coe {κ : Type*} (s : Finset κ) (hs : s.Nonempty) (f : κ → ℝ) :
    ∃ m : ℝ, s.fold max ⊥ (fun j => (f j : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty]; exact max_eq_left bot_le⟩
    · obtain ⟨m, hm⟩ := ih hne
      exact ⟨max (f a) m, by rw [hm, coe_max]⟩

/-- …and so is its maximum with minus infinity once more. -/
theorem max_bot_fold_max_bot_coe (f : ι → ℝ) :
    ∃ m : ℝ, max ⊥ (Finset.univ.fold max ⊥ (fun j => (f j : EReal))) = (m : EReal) := by
  obtain ⟨m, hm⟩ := fold_max_bot_coe Finset.univ Finset.univ_nonempty f
  exact ⟨m, by rw [hm]; exact max_eq_right bot_le⟩

end Cert.Bridge
-- ==== Proof.BridgeNorm.lean ====
/-
  The normalisation on real matrices. For a real matrix x every clamped row norm
      max (sqrt (sum_d x r d ^ 2)) eps
  is a positive real (the sum of squares is nonnegative, and eps > 0), so the normalised matrix is the
  real matrix x r d / norm r. Normalising a stacked matrix row by row is stacking the normalised
  matrices; a stack of real matrices is a real matrix, and its inner products are real.
  The partner terms: the partner of a row of the first half is the matching row of the second half and
  the other way round, so summed over all 8192 rows the inner products of a row with its partner are
  twice the sum over the 4096 pairs.
-/
import proofs.«100509_j81003083202828_2_alg».proof.Proof.BridgeConst
import proofs.«100509_j81003083202828_2_alg».proof.Proof.BridgeLse

open scoped BigOperators
open Idealize.ShloMosaic

namespace Cert.Spec

variable {n k : Nat}

/-- Normalising the stacked matrix is stacking the normalised matrices (no finiteness involved). -/
theorem unit_stack (a b : Fin 4096 → Fin k → EReal) : unit (stack a b) = stack (unit a) (unit b) := by
  funext i d
  unfold unit rowNorm stack
  by_cases h : i.val < 4096
  · simp only [dif_pos h]
  · simp only [dif_neg h]

/-! ### Real matrices -/

/-- The clamped norm of row r of a real matrix. -/
noncomputable def rnorm (x : Fin n → Fin k → ℝ) (r : Fin n) : ℝ := max (Real.sqrt (∑ d, x r d * x r d)) epsR

theorem rnorm_pos (x : Fin n → Fin k → ℝ) (r : Fin n) : 0 < rnorm x r :=
  lt_of_lt_of_le epsR_pos (le_max_right _ _)

/-- The normalised real matrix. -/
noncomputable def runit (x : Fin n → Fin k → ℝ) : Fin n → Fin k → ℝ := fun r d => x r d / rnorm x r

/-- Two real 4096-row matrices stacked. -/
noncomputable def rstack (a b : Fin 4096 → Fin k → ℝ) : Fin 8192 → Fin k → ℝ :=
  fun i d => if h : i.val < 4096 then a ⟨i.val, h⟩ d else b ⟨i.val - 4096, by omega⟩ d

/-- The real inner product of row i and row j. -/
noncomputable def rinner (u : Fin n → Fin k → ℝ) (i j : Fin n) : ℝ := ∑ d, u i d * u j d

/-- A sum of products of reals, on the extended reals, is the real sum. -/
theorem sum_coe_mul_coe (f g : Fin k → ℝ) :
    (∑ d, (f d : EReal) * (g d : EReal)) = ((∑ d, f d * g d : ℝ) : EReal) := by
  rw [LibFinite.coe_finset_sum]; exact Finset.sum_congr rfl fun d _ => (EReal.coe_mul _ _).symm

theorem rowNorm_coe (x : Fin n → Fin k → ℝ) (r : Fin n) :
    rowNorm (fun r d => (x r d : EReal)) r = ((rnorm x r : ℝ) : EReal) := by
  show max (Ideal.sqrt (∑ d, (x r d : EReal) * (x r d : EReal))) eps = _
  rw [sum_coe_mul_coe, Ideal.sqrt_coe, if_neg (not_lt.mpr (Finset.sum_nonneg fun d _ => mul_self_nonneg _)),
    eps_eq, ← Cert.Bridge.coe_max]
  rfl

theorem unit_coe (x : Fin n → Fin k → ℝ) :
    unit (fun r d => (x r d : EReal)) = fun r d => ((runit x r d : ℝ) : EReal) := by
  funext r d
  show Ideal.div (x r d : EReal) (rowNorm (fun r d => (x r d : EReal)) r) = _
  rw [rowNorm_coe, LibFinite.div_coe_coe _ (rnorm_pos x r).ne']
  rfl

theorem stack_coe (a b : Fin 4096 → Fin k → ℝ) :
    stack (fun r d => (a r d : EReal)) (fun r d => (b r d : EReal)) = fun i d => ((rstack a b i d : ℝ) : EReal) := by
  funext i d
  unfold stack rstack
  split_ifs <;> rfl

theorem inner_coe (u : Fin n → Fin k → ℝ) (i j : Fin n) :
    inner (fun i d => (u i d : EReal)) i j = ((rinner u i j : ℝ) : EReal) :=
  sum_coe_mul_coe (u i) (u j)

/-! ### The partner terms -/

theorem rstack_lo (a b : Fin 4096 → Fin k → ℝ) (r : Fin 4096) (d : Fin k) :
    rstack a b (Fin.castAdd 4096 r) d = a r d := by
  unfold rstack
  have h : (Fin.castAdd 4096 r : Fin 8192).val < 4096 := r.isLt
  rw [dif_pos h]
  rfl

theorem rstack_hi (a b : Fin 4096 → Fin k → ℝ) (r : Fin 4096) (d : Fin k) :
    rstack a b (Fin.natAdd 4096 r) d = b r d := by
  unfold rstack
  have h : ¬ (Fin.natAdd 4096 r : Fin 8192).val < 4096 := by
    show ¬ (4096 + r.val < 4096); omega
  rw [dif_neg h]
  exact congrArg (fun q => b q d) (Fin.ext (by show 4096 + r.val - 4096 = r.val; omega))

theorem partner_lo (r : Fin 4096) : partner (Fin.castAdd 4096 r) = Fin.natAdd 4096 r := by
  unfold partner
  have h : (Fin.castAdd 4096 r : Fin 8192).val < 4096 := r.isLt
  rw [dif_pos h]
  exact Fin.ext (by show r.val + 4096 = 4096 + r.val; omega)

theorem partner_hi (r : Fin 4096) : partner (Fin.natAdd 4096 r) = Fin.castAdd 4096 r := by
  unfold partner
  have h : ¬ (Fin.natAdd 4096 r : Fin 8192).val < 4096 := by
    show ¬ (4096 + r.val < 4096); omega
  rw [dif_neg h]
  exact Fin.ext (by show 4096 + r.val - 4096 = r.val; omega)

/-- Summed over all rows, the inner products of a row with its partner are twice the sum over the pairs. -/
theorem sum_rinner_partner (ua ub : Fin 4096 → Fin k → ℝ) :
    ∑ i : Fin 8192, rinner (rstack ua ub) i (partner i) = 2 * ∑ r : Fin 4096, ∑ d, ua r d * ub r d := by
  refine (Fin.sum_univ_add (a := 4096) (b := 4096) _).trans ?_
  rw [two_mul]
  refine congrArg₂ (· + ·) ?_ ?_
  · refine Finset.sum_congr rfl fun r _ => ?_
    unfold rinner
    refine Finset.sum_congr rfl fun d _ => ?_
    rw [partner_lo, rstack_lo, rstack_hi]
  · refine Finset.sum_congr rfl fun r _ => ?_
    unfold rinner
    refine Finset.sum_congr rfl fun d _ => ?_
    rw [partner_hi, rstack_lo, rstack_hi, mul_comm]

end Cert.Spec
-- ==== Proof.Bridge.lean ====
/-
  The two loss formulas agree on finite arguments.

  Write the arguments as real matrices A, B, let U be the stack of their normalised matrices (a real
  8192 x 256 matrix), S i j = <U_i, U_j> its inner products, c the kernel's scale (the reciprocal of the
  temperature) and L i = log (sum_j exp (S i j * c)). Then
    * the kernel's row value c + log (sum_j exp (S i j * c - c)) is L i, and its partner term of pair r
      is <unit A r, unit B r> * c, so the kernel's result is ((sum_i L i) - 2 * sum_r pair r) / 8192;
    * the reference's similarity is S i j * c, its row shift is some real number, and its log-softmax
      entry is S i j * c - L i whatever that shift, so the reference's result is
      -((sum_i (S i (partner i) * c - L i)) / 8192);
    * sum_i S i (partner i) = 2 * sum_r <unit A r, unit B r>.
  The two real numbers are equal.
-/
import proofs.«100509_j81003083202828_2_alg».proof.Proof.BridgeNorm

open scoped BigOperators
open Idealize.ShloMosaic

namespace Cert.Spec

section Real

variable (A B : Fin 4096 → Fin 256 → ℝ)

/-- The real similarities (before the scale): inner products of the stacked normalised rows. -/
noncomputable def rS (i j : Fin 8192) : ℝ := rinner (rstack (runit A) (runit B)) i j

/-- The real log-sum-exp of row i. -/
noncomputable def rL (i : Fin 8192) : ℝ := Real.log (∑ j, Real.exp (rS A B i j * cR))

/-- The kernel's row value is the log-sum-exp of the row. -/
theorem kernelLse_coe (i : Fin 8192) :
    kernelLse (stack (fun r d => (A r d : EReal)) (fun r d => (B r d : EReal))) i = ((rL A B i : ℝ) : EReal) := by
  unfold kernelLse
  rw [unit_stack, unit_coe A, unit_coe B, stack_coe]
  simp_rw [inner_coe]
  rw [invTemp_eq]
  simp_rw [← EReal.coe_mul]
  exact Cert.Bridge.lse_shift (fun j => rS A B i j * cR) cR

/-- The kernel's partner term is the scaled inner product of the pair. -/
theorem kernelPair_coe (r : Fin 4096) :
    kernelPair (fun r d => (A r d : EReal)) (fun r d => (B r d : EReal)) r
      = (((∑ d, runit A r d * runit B r d) * cR : ℝ) : EReal) := by
  unfold kernelPair
  rw [unit_coe A, unit_coe B]
  show Ideal.div (∑ d, (runit A r d : EReal) * (runit B r d : EReal)) temp = _
  rw [sum_coe_mul_coe, div_temp_coe]

/-- The kernel's result as a real number. -/
theorem kernelLoss_coe :
    kernelLoss (fun r d => (A r d : EReal)) (fun r d => (B r d : EReal))
      = ((((∑ i, rL A B i) - 2 * ∑ r, (∑ d, runit A r d * runit B r d) * cR) / 8192 : ℝ) : EReal) := by
  unfold kernelLoss
  simp_rw [kernelLse_coe, kernelPair_coe]
  rw [← LibFinite.coe_finset_sum, ← LibFinite.coe_finset_sum, two_eq, ← EReal.coe_mul, ← EReal.coe_sub,
    div_count_coe]

/-- The reference's similarity is the scaled inner product. -/
theorem refSim_coe (i j : Fin 8192) :
    refSim (fun r d => (A r d : EReal)) (fun r d => (B r d : EReal)) i j = ((rS A B i j * cR : ℝ) : EReal) := by
  unfold refSim
  rw [unit_coe A, unit_coe B, stack_coe, inner_coe, div_temp_coe]
  rfl

/-- The reference's row shift is a real number. -/
theorem refShift_coe (i : Fin 8192) :
    ∃ m : ℝ, refShift (fun r d => (A r d : EReal)) (fun r d => (B r d : EReal)) i = (m : EReal) := by
  unfold refShift
  simp_rw [refSim_coe]
  exact Cert.Bridge.max_bot_fold_max_bot_coe _

/-- The reference's log-softmax entry is the similarity minus the log-sum-exp of the row. -/
theorem refLogp_coe (i j : Fin 8192) :
    refLogp (fun r d => (A r d : EReal)) (fun r d => (B r d : EReal)) i j
      = ((rS A B i j * cR - rL A B i : ℝ) : EReal) := by
  obtain ⟨m, hm⟩ := refShift_coe A B i
  unfold refLogp
  rw [hm]
  simp_rw [refSim_coe]
  exact Cert.Bridge.logp_shift (fun j => rS A B i j * cR) m j

/-- The reference's result as a real number. -/
theorem referenceLoss_coe :
    referenceLoss (fun r d => (A r d : EReal)) (fun r d => (B r d : EReal))
      = ((-((∑ i, (rS A B i (partner i) * cR - rL A B i)) / 8192) : ℝ) : EReal) := by
  unfold referenceLoss
  simp_rw [refLogp_coe]
  rw [← LibFinite.coe_finset_sum, div_count_coe, ← EReal.coe_neg]

/-- The two real numbers agree. -/
theorem real_loss_eq :
    ((∑ i, rL A B i) - 2 * ∑ r, (∑ d, runit A r d * runit B r d) * cR) / 8192
      = -((∑ i, (rS A B i (partner i) * cR - rL A B i)) / 8192) := by
  have hpart : ∑ i, rS A B i (partner i) = 2 * ∑ r : Fin 4096, ∑ d, runit A r d * runit B r d :=
    sum_rinner_partner (runit A) (runit B)
  have h1 : ∑ i, (rS A B i (partner i) * cR - rL A B i)
      = (2 * ∑ r : Fin 4096, ∑ d, runit A r d * runit B r d) * cR - ∑ i, rL A B i := by
    rw [Finset.sum_sub_distrib, ← Finset.sum_mul, hpart]
  rw [h1, ← Finset.sum_mul]
  ring

end Real

/-- On finite arguments the kernel's formula and the reference's formula give the same value. -/
theorem kernelLoss_eq_referenceLoss (a b : Fin 4096 → Fin 256 → EReal)
    (ha : ∀ r d, LibFinite.IsReal (a r d)) (hb : ∀ r d, LibFinite.IsReal (b r d)) :
    Cert.Spec.kernelLoss a b = Cert.Spec.referenceLoss a b := by
  choose A hA using ha
  choose B hB using hb
  obtain rfl : a = fun r d => (A r d : EReal) := funext fun r => funext fun d => hA r d
  obtain rfl : b = fun r d => (B r d : EReal) := funext fun r => funext fun d => hB r d
  rw [kernelLoss_coe, referenceLoss_coe, real_loss_eq]

end Cert.Spec
-- ==== Proof.Finite.lean ====
/-
  Finiteness out of the precondition. The precondition says that, for each of the two argument
  matrices, every entry x satisfies |x| < +infinity, all entries taken together by a reduction with
  "and" from the constant 1, and the two results combined by "and". An "and" that is 1 has both operands
  1; a reduction by "and" over all axes that is 1 met a 1 at every entry; the word 0x7F800000 is
  +infinity; and an extended real x with max x (-x) < +infinity is neither infinity, so it is a real
  number. Hence every entry of both matrices is a real number.
-/
import proofs.«100509_j81003083202828_2_alg».proof.Pre_finite_inputs
import proofs.«100509_j81003083202828_2_alg».proof.Proof.LibFinite
import proofs.«100509_j81003083202828_2_alg».proof.Proof.Spec
import Idealize.ShloMosaic.Lib.ReduceAll

open Idealize.ShloMosaic

namespace Cert.Finite

/-- The f32 word 0x7F800000 is plus infinity. -/
theorem f32_inf : Ideal.ofBits .f32 0x7F800000#32 = ⊤ := by simp [Ideal.ofBits, Ideal.ieee]

/-- An extended real whose absolute value is below plus infinity is a real number. -/
theorem isReal_of_abs_lt_top (x : EReal) (h : Ideal.cmp .olt (max x (-x)) ⊤ = 1#1) : LibFinite.IsReal x := by
  induction x using EReal.rec with
  | bot => simp [Ideal.cmp] at h
  | top => simp [Ideal.cmp] at h
  | coe r => exact ⟨r, rfl⟩

/-- The rank-0 shape has one index. -/
instance : Subsingleton Cert.Pre_finite_inputs.S_.Idx := ⟨fun _ _ => funext fun d => d.elim0⟩

/-- One "all entries are finite" reduction, read back at an entry. -/
theorem isReal_of_all [Cert.Pre_finite_inputs.Facts] (z : FVec Ideal Cert.Pre_finite_inputs.S4096x256 .f32)
    (init : IVec Cert.Pre_finite_inputs.S_ 1) (j : Cert.Pre_finite_inputs.S_.Idx)
    (e : Host.reduce IntOp.andi
          (cmpf .olt (Host.absf z)
            (broadcastInDim Cert.Pre_finite_inputs.S4096x256 ![] Cert.Pre_finite_inputs.Facts.bcast_S_S4096x256
              (constant Cert.Pre_finite_inputs.S_ .f32 0x7F800000#32)))
          init Cert.Pre_finite_inputs.Facts.reducesTo_S4096x256_S_d0_1 Cert.Pre_finite_inputs.Facts.h_S_ j = 1#1)
    (r : Fin 4096) (d : Fin 256) : LibFinite.IsReal (Cert.Spec.rows z r d) := by
  have e1 := Host.reduce_andi_all _ _ _ _ _ e (ValueIdx.ix2 r d)
  have e2 : Ideal.cmp .olt (max (z (ValueIdx.ix2 r d)) (-(z (ValueIdx.ix2 r d)))) (Ideal.ofBits .f32 0x7F800000#32) = 1#1 := e1
  rw [f32_inf] at e2
  exact isReal_of_abs_lt_top _ e2

/-- The precondition gives: every entry of both argument matrices is a real number. -/
theorem of_pre [Cert.Pre_finite_inputs.Facts] (z1 z2 : FVec Ideal Cert.Pre_finite_inputs.S4096x256 .f32)
    (h : Cert.Pre_finite_inputs.fn (F := Ideal) z1 z2 = (fun _ => 1#1)) :
    (∀ r d, LibFinite.IsReal (Cert.Spec.rows z1 r d)) ∧ (∀ r d, LibFinite.IsReal (Cert.Spec.rows z2 r d)) := by
  have h0 := congrFun h ValueIdx.ix0
  dsimp only [Cert.Pre_finite_inputs.fn] at h0
  obtain ⟨h1, h2⟩ := IntOp.andi_eq_one.1 h0
  exact ⟨fun r d => isReal_of_all z1 _ _ h1 r d, fun r d => isReal_of_all z2 _ _ h2 r d⟩

end Cert.Finite
-- ==== Proof.lean ====
/-
  The certificate's five claims for the contrastive loss kernel.

  Both programs compute, from two 4096 x 256 matrices, the symmetric temperature-scaled cross entropy of the 8192
  stacked, row-normalised rows: (1/8192) * sum_i (log sum_j exp (s i j / T) - s i (partner i) / T), with s the
  matrix of inner products. The kernel tiles the similarity matrix (8 row tiles x 4 column tiles of 4 chunks),
  keeps the running row sums of exp (s / T - 1/T) in scratch and adds 1/T back after the logarithm; its scale 1/T
  is the exact reciprocal of the temperature the reference divides by. The frames: each program terminates without
  a fault and leaves its two arguments unchanged — the kernel reads the stacked array through two windows at once,
  each holding half of the full share of it. The value: the kernel's result is its loss formula of the arguments
  (the invariant of the running sums over the grid, then the lines after the launch), the reference's result is
  its own formula, and the two formulas agree on finite arguments (log-sum-exp is invariant under the shift, and the
  partner entries of the two halves are the row-wise products taken twice).
-/
import proofs.«100509_j81003083202828_2_alg».proof.Defs
import proofs.«100509_j81003083202828_2_alg».proof.Proof.Gen.Kernel
import proofs.«100509_j81003083202828_2_alg».proof.Proof.Gen.KernelIdeal
import proofs.«100509_j81003083202828_2_alg».proof.Proof.Gen.ReferenceIdeal
import proofs.«100509_j81003083202828_2_alg».proof.Proof.Gen.Pre_finite_inputs
import proofs.«100509_j81003083202828_2_alg».proof.Proof.K.Main
import proofs.«100509_j81003083202828_2_alg».proof.Proof.KI.Final
import proofs.«100509_j81003083202828_2_alg».proof.Proof.RefValue
import proofs.«100509_j81003083202828_2_alg».proof.Proof.Bridge
import proofs.«100509_j81003083202828_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- And the idealized reference: its run with the result dropped. -/
theorem frame_ri : Cert.frame_ReferenceIdeal := fun m ρ _ =>
  (θ_run Cert.ReferenceIdeal.defs _ _).mono (fun _ h c => (h c).2) (Cert.RefValue.run m ρ)

/-- The kernel's scale, at each of its nine sites, denotes the reciprocal of the temperature's exact value. -/
theorem named_site : IdealRules.named_const.Statement Cert.KernelIdeal.κ "inv_temp" .f32 0x41649249#32 ((134217728 / 9395241 : ℝ) : EReal) :=
  IdealRules.named_const.statement Cert.KernelIdeal.κ "inv_temp" .f32 0x41649249#32 ((134217728 / 9395241 : ℝ) : EReal) rfl

theorem preserves : Cert.preserves_Kernel_KernelIdeal :=
  ⟨named_site, named_site, named_site, named_site, named_site, named_site, named_site, named_site, named_site⟩

/-- On finite arguments the two programs end with the same loss. -/
theorem algebraic : Cert.algebraic_KernelIdeal_ReferenceIdeal := by
  intro m ρ m' ρ' hpre hagree
  refine ⟨_, Cert.KernelIdeal.Fr.run_value m ρ, ?_⟩
  refine (θ_run Cert.ReferenceIdeal.defs _ _).mono (fun _ h c => ⟨(h c).1.trans ?_, (h c).2⟩) (Cert.RefValue.run m' ρ')
  rw [(hagree c).1, (hagree c).2]
  obtain ⟨h1, h2⟩ := Cert.Finite.of_pre _ _ (hpre c)
  exact funext fun _ => (Cert.Spec.kernelLoss_eq_referenceLoss _ _ h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
